-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x1024 : Shape := ⟨3, ![4, 4096, 1024]⟩
abbrev S1024x1024 : Shape := ⟨2, ![1024, 1024]⟩
abbrev S_ : Shape := ⟨0, ![]⟩

class Facts : Prop where
  bcast_S_S4x4096x1024 : S_.BroadcastsInDim S4x4096x1024 (![] : Fin 0 → Fin S4x4096x1024.rank)
  reducesTo_S4x4096x1024_S_d0_1_2 : S4x4096x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  main_v18

def fn {F : FTy → Type} [FloatOps F] (main_arg0 : FVec F S4x4096x1024 .f32) (main_arg1 : FVec F S1024x1024 .f32) (main_arg2 : FVec F S1024x1024 .f32) (main_arg3 : FVec F S1024x1024 .f32) : IVec S_ 1 :=
  let main_v0 : FVec F S4x4096x1024 .f32 := Host.absf main_arg0
  let main_cst : FVec F S_ .f32 := constant S_ .f32 0x7F800000#32
  let main_v1 : FVec F S4x4096x1024 .f32 := broadcastInDim S4x4096x1024 ![] bcast_S_S4x4096x1024 main_cst
  let main_v2 : IVec S4x4096x1024 1 := cmpf .olt main_v0 main_v1
  let main_c : IVec S_ 1 := constantI S_ 1 1#1
  let main_v3 : IVec S_ 1 := (fun x v => Host.reduce IntOp.andi x v reducesTo_S4x4096x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_v13 main_v16
-- ==== Kernel.lean ====
abbrev S4x4096x1024 : Shape := ⟨3, ![4, 4096, 1024]⟩
abbrev S1024x1024 : Shape := ⟨2, ![1024, 1024]⟩
abbrev S16384x1024 : Shape := ⟨2, ![16384, 1024]⟩
abbrev S512x1024 : Shape := ⟨2, ![512, 1024]⟩
abbrev S1x512x1024 : Shape := ⟨3, ![1, 512, 1024]⟩
abbrev S512x1 : Shape := ⟨2, ![512, 1]⟩
abbrev S512x512 : Shape := ⟨2, ![512, 512]⟩
abbrev S512 : Shape := ⟨1, ![512]⟩

abbrev nBuf : Space → Nat
  | .hbm => 15
  | .vmem => 24
  | .smem => 0
  | _ => 0

abbrev bufTy : (tb : Table) → Fin (tcTables nBuf tb) → BufTy
  | .hbm, ⟨0, _⟩ => ⟨S4x4096x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S16384x1024, .f32⟩
  | .hbm, ⟨8, _⟩ => ⟨S16384x1024, .bf16⟩
  | .hbm, ⟨9, _⟩ => ⟨S16384x1024, .bf16⟩
  | .hbm, ⟨10, _⟩ => ⟨S16384x1024, .bf16⟩
  | .hbm, ⟨11, _⟩ => ⟨S4x4096x1024, .bf16⟩
  | .hbm, ⟨12, _⟩ => ⟨S4x4096x1024, .bf16⟩
  | .hbm, ⟨13, _⟩ => ⟨S4x4096x1024, .bf16⟩
  | .hbm, ⟨14, _⟩ => ⟨S4x4096x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S1x512x1024, .bf16⟩
  | .local _ .vmem, ⟨12, _⟩ => ⟨S1x512x1024, .bf16⟩
  | .local _ .vmem, ⟨13, _⟩ => ⟨S1x512x1024, .bf16⟩
  | .local _ .vmem, ⟨14, _⟩ => ⟨S1x512x1024, .bf16⟩
  | .local _ .vmem, ⟨15, _⟩ => ⟨S1x512x1024, .bf16⟩
  | .local _ .vmem, ⟨16, _⟩ => ⟨S1x512x1024, .bf16⟩
  | .local _ .vmem, ⟨17, _⟩ => ⟨S1x512x1024, .f32⟩
  | .local _ .vmem, ⟨18, _⟩ => ⟨S1x512x1024, .f32⟩
  | .local _ .vmem, ⟨19, _⟩ => ⟨S1x512x1024, .f32⟩
  | .local _ .vmem, ⟨20, _⟩ => ⟨S1x512x1024, .f32⟩
  | .local _ .vmem, ⟨21, _⟩ => ⟨S512x1, .f32⟩
  | .local _ .vmem, ⟨22, _⟩ => ⟨S512x1, .f32⟩
  | .local _ .vmem, ⟨23, _⟩ => ⟨S512x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg3_1 : Ref sig .tc := ⟨.vmem, 18, rfl⟩
abbrev cc1_stg4_0 : Ref sig .tc := ⟨.vmem, 19, rfl⟩
abbrev cc1_stg4_1 : Ref sig .tc := ⟨.vmem, 20, rfl⟩
abbrev cc1_scratch0 : Ref sig .tc := ⟨.vmem, 21, rfl⟩
abbrev cc1_scratch1 : Ref sig .tc := ⟨.vmem, 22, rfl⟩
abbrev cc1_scratch2 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem3_1 : DmaSem sig := 18
abbrev cc1_sem4_0 : DmaSem sig := 19
abbrev cc1_sem4_1 : DmaSem sig := 20

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨3, ![4, 8, 8], ![false, false, false]⟩

def k1_cond2 (i : grid1.Coords) : BitVec 1 :=
  let arg2 : BitVec 32 := BitVec.ofNat 32 (i 2).val
  let c7_i32 : BitVec 32 := 7#32
  let v42 : BitVec 1 := Scalar.cmpi .eq arg2 c7_i32
  let v43 : BitVec 32 := Scalar.extui v42
  let c0_i32_27 : BitVec 32 := 0#32
  let v44 : BitVec 1 := Scalar.cmpi .ne v43 c0_i32_27
  v44

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_4 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage1_0 : Fin 2 → Memref sig .tc .vmem S1x512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x512x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S1x512x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false, true]

abbrev stage1_3 : Fin 2 → Memref sig .tc .vmem S1x512x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

abbrev stage1_4 : Fin 2 → Memref sig .tc .vmem S1x512x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, false]

class Facts₀ : Prop where
  transposes_S1024x1024_S1024x1024_1_0 : S1024x1024.Transposes [1, 0] S1024x1024
  shapeCasts_S4x4096x1024_S16384x1024 : S4x4096x1024.ShapeCasts S16384x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  packedbf16_S512x1024_S512x1024_0_0 : (Rect.unit (s := S512x1024) ![0, 0] S512x1024.size inb_S512x1024_S512x1024_0_0).PackedRows (EltTy.packing .bf16)
  shapeCasts_S16384x1024_S4x4096x1024 : S16384x1024.ShapeCasts S4x4096x1024
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  reduces_S512x512_S512 : S512x512.Reduces [1] S512
  shapeCasts_S512_S512x1 : S512.ShapeCasts S512x1
  broadcasts_S512x1_S512x512 : S512x1.Broadcasts S512x512
  broadcasts_S512x1_S512x1024 : S512x1.Broadcasts S512x1024
  reduces_S512x1024_S512 : S512x1024.Reduces [1] S512
  shapeCasts_S512x1024_S1x512x1024 : S512x1024.ShapeCasts S1x512x1024
  dot_S512x1024_S1024x1024_S512x1024_1_0_0_1_n_n_wf : DotDims.WF S512x1024 S1024x1024 S512x1024 [1] [0] [0] [1] [] []
  dot_S512x1024_S512x1024_S512x512_1_1_0_0_n_n_wf : DotDims.WF S512x1024 S512x1024 S512x512 [1] [1] [0] [0] [] []
  dot_S512x512_S512x1024_S512x1024_1_0_0_1_n_n_wf : DotDims.WF S512x512 S512x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S16384x1024.size a
  hwx0_0 : ∀ i : grid0.Coords, EltTy.bits .f32 = 32 ∨ (Rect.block (s := S16384x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .f32 = 32 ∨ (Rect.block (s := S1024x1024) S1024x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .f32 = 32 ∨ (Rect.block (s := S1024x1024) S1024x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .f32 = 32 ∨ (Rect.block (s := S1024x1024) S1024x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1024.size a ≤ S16384x1024.size a
  hwx0_4 : ∀ i : grid0.Coords, EltTy.bits .bf16 = 32 ∨ (Rect.block (s := S16384x1024) S512x1024.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1024.size a ≤ S16384x1024.size a
  hwx0_5 : ∀ i : grid0.Coords, EltTy.bits .bf16 = 32 ∨ (Rect.block (s := S16384x1024) S512x1024.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x1024.size a ≤ S16384x1024.size a
  hwx0_6 : ∀ i : grid0.Coords, EltTy.bits .bf16 = 32 ∨ (Rect.block (s := S16384x1024) S512x1024.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x1024.size a ≤ S4x4096x1024.size a
  hwx1_0 : ∀ i : grid1.Coords, EltTy.bits .bf16 = 32 ∨ (Rect.block (s := S4x4096x1024) S1x512x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x512x1024.size a ≤ S4x4096x1024.size a
  hwx1_1 : ∀ i : grid1.Coords, EltTy.bits .bf16 = 32 ∨ (Rect.block (s := S4x4096x1024) S1x512x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x512x1024.size a ≤ S4x4096x1024.size a
  hwx1_2 : ∀ i : grid1.Coords, EltTy.bits .bf16 = 32 ∨ (Rect.block (s := S4x4096x1024) S1x512x1024.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x512x1024.size a ≤ S4x4096x1024.size a
  hwx1_3 : ∀ i : grid1.Coords, EltTy.bits .f32 = 32 ∨ (Rect.block (s := S4x4096x1024) S1x512x1024.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x512x1024.size a ≤ S4x4096x1024.size a
  hwx1_4 : ∀ i : grid1.Coords, EltTy.bits .f32 = 32 ∨ (Rect.block (s := S4x4096x1024) S1x512x1024.size (cc1_transform_4 i) (hinb1_4 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S512x1024_S512x1024_S512x512_1_1_0_0_n_n : DotDims S512x1024 S512x1024 S512x512 where
  lhsContracting := [1]
  rhsContracting := [1]
  lhsNonContracting := [0]
  rhsNonContracting := [0]
  lhsBatch := []
  rhsBatch := []
  wf := dot_S512x1024_S512x1024_S512x512_1_1_0_0_n_n_wf
def dot_S512x512_S512x1024_S512x1024_1_0_0_1_n_n : DotDims S512x512 S512x1024 S512x1024 where
  lhsContracting := [1]
  rhsContracting := [0]
  lhsNonContracting := [0]
  rhsNonContracting := [1]
  lhsBatch := []
  rhsBatch := []
  wf := dot_S512x512_S512x1024_S512x1024_1_0_0_1_n_n_wf

abbrev win0_0 : Pipeline.Window sig grid0 :=
  Pipeline.Window.ofSpec (Memref.whole main_v3) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4_0) S512x1024.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v4_1) S512x1024.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v4_2) S512x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v5) S1x512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6) S1x512x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v7) S1x512x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg0) S1x512x1024.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v8) S1x512x1024.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

class Facts : Prop extends Facts₀ where

variable [Facts]
-- ==== ReferenceIdeal.lean ====
abbrev S4x4096x1024 : Shape := ⟨3, ![4, 4096, 1024]⟩
abbrev S1024x1024 : Shape := ⟨2, ![1024, 1024]⟩
abbrev S4x4096x4096 : Shape := ⟨3, ![4, 4096, 4096]⟩
abbrev S_ : Shape := ⟨0, ![]⟩
abbrev S4x4096 : Shape := ⟨2, ![4, 4096]⟩
abbrev S4x4096x1 : Shape := ⟨3, ![4, 4096, 1]⟩

abbrev nBuf : Space → Nat
  | .hbm => 34
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S4x4096x1024, .f32⟩
  | .hbm, ⟨5, _⟩ => ⟨S4x4096x1024, .f32⟩
  | .hbm, ⟨6, _⟩ => ⟨S4x4096x1024, .f32⟩
  | .hbm, ⟨7, _⟩ => ⟨S4x4096x4096, .f32⟩
  | .hbm, ⟨8, _⟩ => ⟨S_, .f32⟩
  | .hbm, ⟨9, _⟩ => ⟨S4x4096x4096, .f32⟩
  | .hbm, ⟨10, _⟩ => ⟨S4x4096x4096, .f32⟩
  | .hbm, ⟨11, _⟩ => ⟨S_, .f32⟩
  | .hbm, ⟨12, _⟩ => ⟨S4x4096, .f32⟩
  | .hbm, ⟨13, _⟩ => ⟨S_, .f32⟩
  | .hbm, ⟨14, _⟩ => ⟨S4x4096, .f32⟩
  | .hbm, ⟨15, _⟩ => ⟨S4x4096, .f32⟩
  | .hbm, ⟨16, _⟩ => ⟨S4x4096x1, .f32⟩
  | .hbm, ⟨17, _⟩ => ⟨S4x4096x4096, .f32⟩
  | .hbm, ⟨18, _⟩ => ⟨S4x4096x4096, .f32⟩
  | .hbm, ⟨19, _⟩ => ⟨S4x4096x4096, .f32⟩
  | .hbm, ⟨20, _⟩ => ⟨S_, .f32⟩
  | .hbm, ⟨21, _⟩ => ⟨S4x4096, .f32⟩
  | .hbm, ⟨22, _⟩ => ⟨S4x4096x1, .f32⟩
  | .hbm, ⟨23, _⟩ => ⟨S4x4096x4096, .f32⟩
  | .hbm, ⟨24, _⟩ => ⟨S4x4096x4096, .f32⟩
  | .hbm, ⟨25, _⟩ => ⟨S4x4096x1024, .f32⟩
  | .hbm, ⟨26, _⟩ => ⟨S4x4096x1024, .f32⟩
  | .hbm, ⟨27, _⟩ => ⟨S4x4096x1024, .f32⟩
  | .hbm, ⟨28, _⟩ => ⟨S_, .f32⟩
  | .hbm, ⟨29, _⟩ => ⟨S4x4096, .f32⟩
  | .hbm, ⟨30, _⟩ => ⟨S4x4096x1, .f32⟩
  | .hbm, ⟨31, _⟩ => ⟨S4x4096x1, .f32⟩
  | .hbm, ⟨32, _⟩ => ⟨S4x4096x1024, .f32⟩
  | .hbm, ⟨33, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_call0_v0 : Ref sig .tc := ⟨.hbm, 27, rfl⟩
abbrev main_call0_cst : Ref sig .tc := ⟨.hbm, 28, rfl⟩
abbrev main_call0_v1 : Ref sig .tc := ⟨.hbm, 29, rfl⟩
abbrev main_call0_v2 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩

abbrev nD : Nat := 1
abbrev τ : Topo := Topo.v7x

variable {F : FTy → Type} [FloatOps F]

class Facts₀ : Prop where
  bcast_S_S4x4096x4096 : S_.BroadcastsInDim S4x4096x4096 (![] : Fin 0 → Fin S4x4096x4096.rank)
  reducesTo_S4x4096x4096_S4x4096_d2 : S4x4096x4096.ReducesTo [2] S4x4096
  h_S_ : 0 < S_.numel
  bcast_S_S4x4096 : S_.BroadcastsInDim S4x4096 (![] : Fin 0 → Fin S4x4096.rank)
  bcast_S4x4096_S4x4096x1_0_1 : S4x4096.BroadcastsInDim S4x4096x1 (![0, 1] : Fin 2 → Fin S4x4096x1.rank)
  bcast_S4x4096x1_S4x4096x4096_0_1_2 : S4x4096x1.BroadcastsInDim S4x4096x4096 (![0, 1, 2] : Fin 3 → Fin S4x4096x4096.rank)
  reducesTo_S4x4096x1024_S4x4096_d2 : S4x4096x1024.ReducesTo [2] S4x4096
  bcast_S4x4096x1_S4x4096x1024_0_1_2 : S4x4096x1.BroadcastsInDim S4x4096x1024 (![0, 1, 2] : Fin 3 → Fin S4x4096x1024.rank)
  dot_S4x4096x1024_S1024x1024_S4x4096x1024_2_1_01_0_n_n_wf : DotDims.WF S4x4096x1024 S1024x1024 S4x4096x1024 [2] [1] [0, 1] [0] [] []
  dot_S4x4096x1024_S4x4096x1024_S4x4096x4096_2_2_1_1_0_0_wf : DotDims.WF S4x4096x1024 S4x4096x1024 S4x4096x4096 [2] [2] [1] [1] [0] [0]
  dot_S4x4096x4096_S4x4096x1024_S4x4096x1024_2_1_1_2_0_0_wf : DotDims.WF S4x4096x4096 S4x4096x1024 S4x4096x1024 [2] [1] [1] [2] [0] [0]

variable [Facts₀]

def dot_S4x4096x1024_S1024x1024_S4x4096x1024_2_1_01_0_n_n : DotDims S4x4096x1024 S1024x1024 S4x4096x1024 where
  lhsContracting := [2]
  rhsContracting := [1]
  lhsNonContracting := [0, 1]
  rhsNonContracting := [0]
  lhsBatch := []
  rhsBatch := []
  wf := dot_S4x4096x1024_S1024x1024_S4x4096x1024_2_1_01_0_n_n_wf
def dot_S4x4096x1024_S4x4096x1024_S4x4096x4096_2_2_1_1_0_0 : DotDims S4x4096x1024 S4x4096x1024 S4x4096x4096 where
  lhsContracting := [2]
  rhsContracting := [2]
  lhsNonContracting := [1]
  rhsNonContracting := [1]
  lhsBatch := [0]
  rhsBatch := [0]
  wf := dot_S4x4096x1024_S4x4096x1024_S4x4096x4096_2_2_1_1_0_0_wf
def dot_S4x4096x4096_S4x4096x1024_S4x4096x1024_2_1_1_2_0_0 : DotDims S4x4096x4096 S4x4096x1024 S4x4096x1024 where
  lhsContracting := [2]
  rhsContracting := [1]
  lhsNonContracting := [1]
  rhsNonContracting := [2]
  lhsBatch := [0]
  rhsBatch := [0]
  wf := dot_S4x4096x4096_S4x4096x1024_S4x4096x1024_2_1_1_2_0_0_wf

class Facts : Prop extends Facts₀ where

variable [Facts]
-- ==== Proof.FrB0.lean ====
/-
  The projection kernel's half of the frame, at any contents V of the core's buffers when the region is entered.
  A grid point reads one block of 512 rows of the flattened input and the three whole transposed weight
  matrices, and writes the three products' blocks of 512 rows; nothing is carried from point to point.
  Stated here: each window's block at a point, what the body leaves in each output block as a function of
  the input blocks, the body's triple, the proof data and the body obligation at every point.
-/
import proofs.«110892_j22204980920987_1_alg».proof.Proof.Gen.Kernel.Launch
import proofs.«110892_j22204980920987_1_alg».proof.Proof.Gen.Kernel.Skeleton
import proofs.«110892_j22204980920987_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, whether or not it was fetched there
    (a block index that has not moved keeps the buffer's contents). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- The whole rectangle of a [512,1024] block and of a [1024,1024] matrix: the body's every access. -/
abbrev rX : Rect S512x1024 := Rect.unit (s := S512x1024) ![0, 0] S512x1024.size inb_S512x1024_S512x1024_0_0
abbrev rW : Rect S1024x1024 := Rect.unit (s := S1024x1024) ![0, 0] S1024x1024.size inb_S1024x1024_S1024x1024_0_0

/-- What the body leaves in the three output blocks: one whole store each, of the input block against a weight. -/
def out0_4 (x0 : Vec F S512x1024 .f32) (x1 : Vec F S1024x1024 .f32) : Vec F S512x1024 .bf16 :=
  View.canon [⟨rX, k0_pay2 (View.ld x0 rX) (View.ld x1 rW)⟩]
def out0_5 (x0 : Vec F S512x1024 .f32) (x2 : Vec F S1024x1024 .f32) : Vec F S512x1024 .bf16 :=
  View.canon [⟨rX, k0_pay3 (View.ld x0 rX) (View.ld x2 rW)⟩]
def out0_6 (x0 : Vec F S512x1024 .f32) (x3 : Vec F S1024x1024 .f32) : Vec F S512x1024 .bf16 :=
  View.canon [⟨rX, k0_pay4 (View.ld x0 rX) (View.ld x3 rW)⟩]

/-- One whole store covers the block. -/
theorem cover0 (p0 : Vec F S512x1024 .bf16) (y : S512x1024.Idx) :
    ∃ pc ∈ ([⟨rX, p0⟩] : List (View.Piece (Elt F) S512x1024 .bf16)), y ∈ pc.1.set :=
  View.cover_of_tiled [⟨rX, p0⟩] S512x1024.size (by rfl) y

set_option maxHeartbeats 2000000 in
/-- The body on whole staging memrefs: the inputs' at their contents and the outputs' at anything; it ends with the
    inputs' as they were and each output's at the product of the input block with its weight. -/
theorem sound_kernel0 (c : Dev nD) (E : Set ℕ) (i : grid0.Coords)
    (arg1 : Memref sig .tc .vmem S512x1024 .f32) (harg1 : arg1.IsWhole) (arg2 : Memref sig .tc .vmem S1024x1024 .f32) (harg2 : arg2.IsWhole)
    (arg3 : Memref sig .tc .vmem S1024x1024 .f32) (harg3 : arg3.IsWhole) (arg4 : Memref sig .tc .vmem S1024x1024 .f32) (harg4 : arg4.IsWhole)
    (arg5 : Memref sig .tc .vmem S512x1024 .bf16) (harg5 : arg5.IsWhole) (arg6 : Memref sig .tc .vmem S512x1024 .bf16) (harg6 : arg6.IsWhole)
    (arg7 : Memref sig .tc .vmem S512x1024 .bf16) (harg7 : arg7.IsWhole)
    (x0 : Vec F S512x1024 .f32) (x1 x2 x3 : Vec F S1024x1024 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3
        ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3
            ∗ owns (c : Thread nD τ) arg5 fullShare (out0_4 x0 x1) ∗ owns (c : Thread nD τ) arg6 fullShare (out0_5 x0 x2)
            ∗ owns (c : Thread nD τ) arg7 fullShare (out0_6 x0 x3)) -∗ K ⟨⟩))
      ⊢ wp frame (wpE (defs₀ (F := F)) Variants.none c none) E (cc0__proj_kernel i arg1 harg1 arg2 harg2 arg3 harg3 arg4 harg4 arg5 harg5 arg6 harg6 arg7 harg7) K := by
  simp only [cc0__proj_kernel_eq_skeleton]; unfold cc0__proj_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover0 _)
  isplitl [H5]
  · iexists _; isplitr
    swap; · iexact H5
    ipureintro
    exact View.read_writes_eq_canon _ _ _ (cover0 _)
  iexists _; isplitr
  swap; · iexact H6
  ipureintro
  exact View.read_writes_eq_canon _ _ _ (cover0 _)

/-! ## The proof data and the body obligation -/

/-- The proof data of the projection pipeline on core c: the arrays as the region finds them; after the body at a
    point each input's buffer at its block and each output's at the product of the point's input blocks; the
    invariant holds only what the body never touches; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t)
    | ⟨5, _⟩ => out0_5 (iblk0 V c 0 t) (iblk0 V c 2 t)
    | ⟨6, _⟩ => out0_6 (iblk0 V c 0 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 0 t) (iblk0 V c 1 t) := by dsimp only [dat0]
theorem after0_5 (c : Dev nD) (t : Fin cfg0.N) : (dat0 V c).after 5 t = out0_5 (iblk0 V c 0 t) (iblk0 V c 2 t) := by dsimp only [dat0]
theorem after0_6 (c : Dev nD) (t : Fin cfg0.N) : (dat0 V c).after 6 t = out0_6 (iblk0 V c 0 t) (iblk0 V c 3 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-- What the body is called with at point t, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' memrefs hold their blocks, so the body's triple applies; the invariant and
    the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.Kernel.Fr

end
-- ==== Proof.FrB1a.lean ====
/-
  The attention kernel's runs. A grid point (b, qi, ki) handles query tile qi of batch b against key tile ki; the
  running maximum, denominator and weighted sum live in three scratch buffers carried from one key tile to the
  next. The body's two conditions — "first key tile" (reset the state) and "last key tile" (write the
  normalised block) — are decided from the point's position: ki = position mod 8. The output block is stored
  only at the last key tile and is left as found elsewhere. Per case, the body's triple with the stored pieces
  found by running it.
-/
import proofs.«110892_j22204980920987_1_alg».proof.Proof.Gen.Kernel.Launch
import proofs.«110892_j22204980920987_1_alg».proof.Proof.Gen.Kernel.Skeleton
import proofs.«110892_j22204980920987_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The body's two conditions, from the grid point -/

/-- "This is the row's first key tile." -/
abbrev condA (i : grid1.Coords) : Prop := (Scalar.cmpi .ne (Scalar.extui (Scalar.cmpi .eq (BitVec.ofNat 32 (i 2).val) 0#32)) 0#32) = 1#1
/-- "This is the row's last key tile." -/
abbrev condC (i : grid1.Coords) : Prop := k1_cond2 i = 1#1

theorem hcondA : ∀ t : Fin cfg1.N, condA (grid1.coords t) ↔ t.val % 8 = 0 :=
  (by decide +kernel : ∀ t : Fin grid1.N, condA (grid1.coords t) ↔ t.val % 8 = 0)
theorem hcondC : ∀ t : Fin cfg1.N, condC (grid1.coords t) ↔ t.val % 8 = 7 :=
  (by decide +kernel : ∀ t : Fin grid1.N, condC (grid1.coords t) ↔ t.val % 8 = 7)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
/-- Away from the last key tile the output window is idle and is not written back; at it, it is live. -/
theorem idleAt1_4 : ∀ t : Fin cfg1.N, ¬condC (grid1.coords t) → cfg1.idle 4 (grid1.coords t) = true := by decide +kernel
theorem noFlush1_4 : ∀ t : Fin cfg1.N, ¬condC (grid1.coords t) → (cfg1.win 4).flush t = false := by decide +kernel
theorem liveAt1_4 : ∀ t : Fin cfg1.N, condC (grid1.coords t) → cfg1.idle 4 (grid1.coords t) = false := by decide +kernel

/-! ## The runs -/

set_option maxHeartbeats 4000000 in
/-- The body's stores as pieces (last first), with the proof that on whole memrefs — the four input blocks at their
    contents, the output block left as found, the carried state at anything (it is reset first) —
    the body runs to the continuation holding the inputs as they were and each stored buffer with its pieces written:
    a row's FIRST key tile. -/
noncomputable def kernelRun1_A (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S1x512x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (hA : condA i) (hC : ¬condC i)
    (q k v : Vec F S1x512x1024 .bf16) (x : Vec F S1x512x1024 .f32) (d7 : Vec F S1x512x1024 .f32) :
    Σ' (LM : List (View.Piece (Elt F) S512x1 .f32)) (LL : List (View.Piece (Elt F) S512x1 .f32)), { LA : List (View.Piece (Elt F) S512x1024 .f32) //
      ∀ (E : Set ℕ) (K : PUnit → sProp 𝕄),
        iprop(owns (c : Thread nD τ) arg3 fullShare q ∗ owns (c : Thread nD τ) arg4 fullShare k ∗ owns (c : Thread nD τ) arg5 fullShare v ∗ owns (c : Thread nD τ) arg6 fullShare x ∗ owns (c : Thread nD τ) arg7 fullShare d7
            ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg3 fullShare q ∗ owns (c : Thread nD τ) arg4 fullShare k ∗ owns (c : Thread nD τ) arg5 fullShare v ∗ owns (c : Thread nD τ) arg6 fullShare x ∗ owns (c : Thread nD τ) arg7 fullShare d7
                ∗ (∃ f, arg8.view.loc (c : Thread nD τ) ↦[arg8.view.set]{fullShare} arg8.view.writes (Elt F) f LM) ∗ (∃ f, arg9.view.loc (c : Thread nD τ) ↦[arg9.view.set]{fullShare} arg9.view.writes (Elt F) f LL) ∗ (∃ f, arg10.view.loc (c : Thread nD τ) ↦[arg10.view.set]{fullShare} arg10.view.writes (Elt F) f LA)) -∗ K ⟨⟩))
          ⊢ wp frame (wpE (defs₀ (F := F)) Variants.none c none) E (cc1__attn_kernel i arg3 harg3 arg4 harg4 arg5 harg5 arg6 harg6 arg7 harg7 arg8 harg8 arg9 harg9 arg10 harg10) K } := by
  refine ⟨?_, ?_, ?_, fun E K => ?run⟩
  case run =>
    simp only [cc1__attn_kernel_eq_skeleton]; unfold cc1__attn_kernel_skel
    simp only [k1_part1_eq_skeleton]; unfold k1_part1_skel
    unfold owns
    iintro ⟨⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, Hk⟩
    obtain rfl := harg3.eq_unread hf3; obtain rfl := harg4.eq_unread hf4; obtain rfl := harg5.eq_unread hf5; obtain rfl := harg6.eq_unread hf6
    sl_exec (disch := first | exact hA | exact hC)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists f7; isplitr; · ipureintro; exact hf7
      iexact H7
    isplitl [H8]; · iexists _; iexact H8
    isplitl [H9]; · iexists _; iexact H9
    iexists _; iexact H10

set_option maxHeartbeats 4000000 in
/-- The body's stores as pieces (last first), with the proof that on whole memrefs — the four input blocks at their
    contents, the output block left as found, the carried state at what the tile before left —
    the body runs to the continuation holding the inputs as they were and each stored buffer with its pieces written:
    a key tile that is neither first nor last. -/
noncomputable def kernelRun1_B (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S1x512x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (hA : ¬condA i) (hC : ¬condC i)
    (q k v : Vec F S1x512x1024 .bf16) (x : Vec F S1x512x1024 .f32) (d7 : Vec F S1x512x1024 .f32) (pm pl : Vec F S512x1 .f32) (pa : Vec F S512x1024 .f32) :
    Σ' (LM : List (View.Piece (Elt F) S512x1 .f32)) (LL : List (View.Piece (Elt F) S512x1 .f32)), { LA : List (View.Piece (Elt F) S512x1024 .f32) //
      ∀ (E : Set ℕ) (K : PUnit → sProp 𝕄),
        iprop(owns (c : Thread nD τ) arg3 fullShare q ∗ owns (c : Thread nD τ) arg4 fullShare k ∗ owns (c : Thread nD τ) arg5 fullShare v ∗ owns (c : Thread nD τ) arg6 fullShare x ∗ owns (c : Thread nD τ) arg7 fullShare d7
            ∗ owns (c : Thread nD τ) arg8 fullShare pm ∗ owns (c : Thread nD τ) arg9 fullShare pl ∗ owns (c : Thread nD τ) arg10 fullShare pa
            ∗ (iprop(owns (c : Thread nD τ) arg3 fullShare q ∗ owns (c : Thread nD τ) arg4 fullShare k ∗ owns (c : Thread nD τ) arg5 fullShare v ∗ owns (c : Thread nD τ) arg6 fullShare x ∗ owns (c : Thread nD τ) arg7 fullShare d7
                ∗ (∃ f, arg8.view.loc (c : Thread nD τ) ↦[arg8.view.set]{fullShare} arg8.view.writes (Elt F) f LM) ∗ (∃ f, arg9.view.loc (c : Thread nD τ) ↦[arg9.view.set]{fullShare} arg9.view.writes (Elt F) f LL) ∗ (∃ f, arg10.view.loc (c : Thread nD τ) ↦[arg10.view.set]{fullShare} arg10.view.writes (Elt F) f LA)) -∗ K ⟨⟩))
          ⊢ wp frame (wpE (defs₀ (F := F)) Variants.none c none) E (cc1__attn_kernel i arg3 harg3 arg4 harg4 arg5 harg5 arg6 harg6 arg7 harg7 arg8 harg8 arg9 harg9 arg10 harg10) K } := by
  refine ⟨?_, ?_, ?_, fun E K => ?run⟩
  case run =>
    simp only [cc1__attn_kernel_eq_skeleton]; unfold cc1__attn_kernel_skel
    simp only [k1_part1_eq_skeleton]; unfold k1_part1_skel
    unfold owns
    iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
    obtain rfl := harg3.eq_unread hf3; obtain rfl := harg4.eq_unread hf4; obtain rfl := harg5.eq_unread hf5; obtain rfl := harg6.eq_unread hf6
    obtain rfl := harg8.eq_unread hf8; obtain rfl := harg9.eq_unread hf9; obtain rfl := harg10.eq_unread hf10
    sl_exec (disch := first | exact hA | exact hC)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists f7; isplitr; · ipureintro; exact hf7
      iexact H7
    isplitl [H8]; · iexists _; iexact H8
    isplitl [H9]; · iexists _; iexact H9
    iexists _; iexact H10

set_option maxHeartbeats 4000000 in
/-- The body's stores as pieces (last first), with the proof that on whole memrefs — the four input blocks at their
    contents, the output block at anything, the carried state at what the tile before left —
    the body runs to the continuation holding the inputs as they were and each stored buffer with its pieces written:
    a row's LAST key tile. -/
noncomputable def kernelRun1_C (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S1x512x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (hA : ¬condA i) (hC : condC i)
    (q k v : Vec F S1x512x1024 .bf16) (x : Vec F S1x512x1024 .f32) (pm pl : Vec F S512x1 .f32) (pa : Vec F S512x1024 .f32) :
    Σ' (L7 : List (View.Piece (Elt F) S1x512x1024 .f32)) (LM : List (View.Piece (Elt F) S512x1 .f32)) (LL : List (View.Piece (Elt F) S512x1 .f32)), { LA : List (View.Piece (Elt F) S512x1024 .f32) //
      ∀ (E : Set ℕ) (K : PUnit → sProp 𝕄),
        iprop(owns (c : Thread nD τ) arg3 fullShare q ∗ owns (c : Thread nD τ) arg4 fullShare k ∗ owns (c : Thread nD τ) arg5 fullShare v ∗ owns (c : Thread nD τ) arg6 fullShare x ∗ (∃ d, owns (c : Thread nD τ) arg7 fullShare d)
            ∗ owns (c : Thread nD τ) arg8 fullShare pm ∗ owns (c : Thread nD τ) arg9 fullShare pl ∗ owns (c : Thread nD τ) arg10 fullShare pa
            ∗ (iprop(owns (c : Thread nD τ) arg3 fullShare q ∗ owns (c : Thread nD τ) arg4 fullShare k ∗ owns (c : Thread nD τ) arg5 fullShare v ∗ owns (c : Thread nD τ) arg6 fullShare x ∗ (∃ f, arg7.view.loc (c : Thread nD τ) ↦[arg7.view.set]{fullShare} arg7.view.writes (Elt F) f L7)
                ∗ (∃ f, arg8.view.loc (c : Thread nD τ) ↦[arg8.view.set]{fullShare} arg8.view.writes (Elt F) f LM) ∗ (∃ f, arg9.view.loc (c : Thread nD τ) ↦[arg9.view.set]{fullShare} arg9.view.writes (Elt F) f LL) ∗ (∃ f, arg10.view.loc (c : Thread nD τ) ↦[arg10.view.set]{fullShare} arg10.view.writes (Elt F) f LA)) -∗ K ⟨⟩))
          ⊢ wp frame (wpE (defs₀ (F := F)) Variants.none c none) E (cc1__attn_kernel i arg3 harg3 arg4 harg4 arg5 harg5 arg6 harg6 arg7 harg7 arg8 harg8 arg9 harg9 arg10 harg10) K } := by
  refine ⟨?_, ?_, ?_, ?_, fun E K => ?run⟩
  case run =>
    simp only [cc1__attn_kernel_eq_skeleton]; unfold cc1__attn_kernel_skel
    simp only [k1_part1_eq_skeleton]; unfold k1_part1_skel
    unfold owns
    iintro ⟨⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, ⟨%f10, %hf10, H10⟩, Hk⟩
    obtain rfl := harg3.eq_unread hf3; obtain rfl := harg4.eq_unread hf4; obtain rfl := harg5.eq_unread hf5; obtain rfl := harg6.eq_unread hf6
    obtain rfl := harg8.eq_unread hf8; obtain rfl := harg9.eq_unread hf9; obtain rfl := harg10.eq_unread hf10
    sl_exec (disch := first | exact hA | exact hC)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]; · iexists _; iexact H7
    isplitl [H8]; · iexists _; iexact H8
    isplitl [H9]; · iexists _; iexact H9
    iexists _; iexact H10

end Cert.Kernel.Fr

end
-- ==== Proof.RecurB.lean ====
/-
  The state the attention kernel carries from one key tile to the next, as a pure recurrence over the
  body's arithmetic: the running row maximum, the running sum of weights and the running weighted sum of
  value rows, each taken at the previous tile's value (or at the start values -∞, 0, 0 at a row's first
  tile), and the block the last tile writes from the final state.
-/
import proofs.«110892_j22204980920987_1_alg».proof.Proof.Gen.Kernel.Skeleton

noncomputable section

namespace Cert.Kernel.Rec

open Idealize.ShloMosaic Cert.Kernel Cert.Kernel.Gen

variable {F : FTy → Type} [FloatOps F]

/-- The carried state: running maximum [512,1], running denominator [512,1], running weighted sum [512,1024]. -/
abbrev St (F : FTy → Type) : Type := Vec F S512x1 .f32 × Vec F S512x1 .f32 × Vec F S512x1024 .f32

/-- The state a query tile starts from: maximum -∞, denominator 0, weighted sum 0. -/
def st0 : St F := (k1_pay4, k1_pay5, k1_pay6)

/-- One key tile: the new maximum, the denominator rescaled and extended, the weighted sum rescaled and extended. -/
def step (q k v : Vec F S1x512x1024 .bf16) (p : St F) : St F :=
  (k1_pay2 (k1_pay9 q k p.1),
   k1_pay12 q k p.1 p.1 p.2.1,
   k1_pay1 (k1_pay7 v) (k1_pay10 q k p.1 p.1) (k1_pay13 q k p.1) (constant S512x1024 .f32 0x00000000#32) p.2.2)

/-- The block written after the last key tile: the weighted sum over the denominator, the input block added, the rows normalised. -/
def fin (p : St F) (x : Vec F S1x512x1024 .f32) : Vec F S1x512x1024 .f32 :=
  k1_pay3 p.2.2 p.2.1 x

end Cert.Kernel.Rec

end
-- ==== Proof.FrB1b.lean ====
/-
  The attention kernel's half of the frame, at any contents V of the core's buffers when the region is entered:
  the stored pieces read back as the carried-state recurrence, the state point by point, the region invariant that
  tracks the three scratch buffers, the proof data and the body obligation.
-/
import proofs.«110892_j22204980920987_1_alg».proof.Proof.Gen.Kernel.Launch
import proofs.«110892_j22204980920987_1_alg».proof.Proof.Gen.Kernel.Skeleton
import proofs.«110892_j22204980920987_1_alg».proof.Proof.Gen.Kernel.Points
import proofs.«110892_j22204980920987_1_alg».proof.Proof.FrB1a
import proofs.«110892_j22204980920987_1_alg».proof.Proof.RecurB
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

theorem hz2 : (![0, 0] : Fin 2 → Nat) = fun _ => 0 := funext fun a => by fin_cases a <;> rfl
theorem hz3 : (![0, 0, 0] : Fin 3 → Nat) = fun _ => 0 := funext fun a => by fin_cases a <;> rfl

/-! ## The stored pieces cover their buffers, and read back as one step of the recurrence -/

theorem coverM_A (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S1x512x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (hA : condA i) (hC : ¬condC i)
    (q k v : Vec F S1x512x1024 .bf16) (x : Vec F S1x512x1024 .f32) (d7 : Vec F S1x512x1024 .f32) (y : S512x1.Idx) :
    ∃ pc ∈ (kernelRun1_A c i arg3 harg3 arg4 harg4 arg5 harg5 arg6 harg6 arg7 harg7 arg8 harg8 arg9 harg9 arg10 harg10 hA hC q k v x d7).1, y ∈ pc.1.set :=
  View.cover_of_tiledL _ S512x1.size (by sl_kernel_rfl) y

theorem coverL_A (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S1x512x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (hA : condA i) (hC : ¬condC i)
    (q k v : Vec F S1x512x1024 .bf16) (x : Vec F S1x512x1024 .f32) (d7 : Vec F S1x512x1024 .f32) (y : S512x1.Idx) :
    ∃ pc ∈ (kernelRun1_A c i arg3 harg3 arg4 harg4 arg5 harg5 arg6 harg6 arg7 harg7 arg8 harg8 arg9 harg9 arg10 harg10 hA hC q k v x d7).2.1, y ∈ pc.1.set :=
  View.cover_of_tiledL _ S512x1.size (by sl_kernel_rfl) y

theorem coverAcc_A (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S1x512x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (hA : condA i) (hC : ¬condC i)
    (q k v : Vec F S1x512x1024 .bf16) (x : Vec F S1x512x1024 .f32) (d7 : Vec F S1x512x1024 .f32) (y : S512x1024.Idx) :
    ∃ pc ∈ (kernelRun1_A c i arg3 harg3 arg4 harg4 arg5 harg5 arg6 harg6 arg7 harg7 arg8 harg8 arg9 harg9 arg10 harg10 hA hC q k v x d7).2.2.1, y ∈ pc.1.set :=
  View.cover_of_tiledL _ S512x1024.size (by sl_kernel_rfl) y

theorem coverM_B (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S1x512x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (hA : ¬condA i) (hC : ¬condC i)
    (q k v : Vec F S1x512x1024 .bf16) (x : Vec F S1x512x1024 .f32) (d7 : Vec F S1x512x1024 .f32) (pm pl : Vec F S512x1 .f32) (pa : Vec F S512x1024 .f32) (y : S512x1.Idx) :
    ∃ pc ∈ (kernelRun1_B c i arg3 harg3 arg4 harg4 arg5 harg5 arg6 harg6 arg7 harg7 arg8 harg8 arg9 harg9 arg10 harg10 hA hC q k v x d7 pm pl pa).1, y ∈ pc.1.set :=
  View.cover_of_tiledL _ S512x1.size (by sl_kernel_rfl) y

theorem coverL_B (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S1x512x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (hA : ¬condA i) (hC : ¬condC i)
    (q k v : Vec F S1x512x1024 .bf16) (x : Vec F S1x512x1024 .f32) (d7 : Vec F S1x512x1024 .f32) (pm pl : Vec F S512x1 .f32) (pa : Vec F S512x1024 .f32) (y : S512x1.Idx) :
    ∃ pc ∈ (kernelRun1_B c i arg3 harg3 arg4 harg4 arg5 harg5 arg6 harg6 arg7 harg7 arg8 harg8 arg9 harg9 arg10 harg10 hA hC q k v x d7 pm pl pa).2.1, y ∈ pc.1.set :=
  View.cover_of_tiledL _ S512x1.size (by sl_kernel_rfl) y

theorem coverAcc_B (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S1x512x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (hA : ¬condA i) (hC : ¬condC i)
    (q k v : Vec F S1x512x1024 .bf16) (x : Vec F S1x512x1024 .f32) (d7 : Vec F S1x512x1024 .f32) (pm pl : Vec F S512x1 .f32) (pa : Vec F S512x1024 .f32) (y : S512x1024.Idx) :
    ∃ pc ∈ (kernelRun1_B c i arg3 harg3 arg4 harg4 arg5 harg5 arg6 harg6 arg7 harg7 arg8 harg8 arg9 harg9 arg10 harg10 hA hC q k v x d7 pm pl pa).2.2.1, y ∈ pc.1.set :=
  View.cover_of_tiledL _ S512x1024.size (by sl_kernel_rfl) y

theorem coverO_C (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S1x512x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (hA : ¬condA i) (hC : condC i)
    (q k v : Vec F S1x512x1024 .bf16) (x : Vec F S1x512x1024 .f32) (pm pl : Vec F S512x1 .f32) (pa : Vec F S512x1024 .f32) (y : S1x512x1024.Idx) :
    ∃ pc ∈ (kernelRun1_C c i arg3 harg3 arg4 harg4 arg5 harg5 arg6 harg6 arg7 harg7 arg8 harg8 arg9 harg9 arg10 harg10 hA hC q k v x pm pl pa).1, y ∈ pc.1.set :=
  View.cover_of_tiledL _ S1x512x1024.size (by sl_kernel_rfl) y

theorem coverM_C (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S1x512x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (hA : ¬condA i) (hC : condC i)
    (q k v : Vec F S1x512x1024 .bf16) (x : Vec F S1x512x1024 .f32) (pm pl : Vec F S512x1 .f32) (pa : Vec F S512x1024 .f32) (y : S512x1.Idx) :
    ∃ pc ∈ (kernelRun1_C c i arg3 harg3 arg4 harg4 arg5 harg5 arg6 harg6 arg7 harg7 arg8 harg8 arg9 harg9 arg10 harg10 hA hC q k v x pm pl pa).2.1, y ∈ pc.1.set :=
  View.cover_of_tiledL _ S512x1.size (by sl_kernel_rfl) y

theorem coverL_C (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S1x512x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (hA : ¬condA i) (hC : condC i)
    (q k v : Vec F S1x512x1024 .bf16) (x : Vec F S1x512x1024 .f32) (pm pl : Vec F S512x1 .f32) (pa : Vec F S512x1024 .f32) (y : S512x1.Idx) :
    ∃ pc ∈ (kernelRun1_C c i arg3 harg3 arg4 harg4 arg5 harg5 arg6 harg6 arg7 harg7 arg8 harg8 arg9 harg9 arg10 harg10 hA hC q k v x pm pl pa).2.2.1, y ∈ pc.1.set :=
  View.cover_of_tiledL _ S512x1.size (by sl_kernel_rfl) y

theorem coverAcc_C (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S1x512x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (hA : ¬condA i) (hC : condC i)
    (q k v : Vec F S1x512x1024 .bf16) (x : Vec F S1x512x1024 .f32) (pm pl : Vec F S512x1 .f32) (pa : Vec F S512x1024 .f32) (y : S512x1024.Idx) :
    ∃ pc ∈ (kernelRun1_C c i arg3 harg3 arg4 harg4 arg5 harg5 arg6 harg6 arg7 harg7 arg8 harg8 arg9 harg9 arg10 harg10 hA hC q k v x pm pl pa).2.2.2.1, y ∈ pc.1.set :=
  View.cover_of_tiledL _ S512x1024.size (by sl_kernel_rfl) y

theorem pieceM_A (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S1x512x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (hA : condA i) (hC : ¬condC i) (q k v : Vec F S1x512x1024 .bf16) (x : Vec F S1x512x1024 .f32) (d7 : Vec F S1x512x1024 .f32) :
    View.canon (kernelRun1_A c i arg3 harg3 arg4 harg4 arg5 harg5 arg6 harg6 arg7 harg7 arg8 harg8 arg9 harg9 arg10 harg10 hA hC q k v x d7).1 = (Rec.step q k v Rec.st0).1 := by
  unfold kernelRun1_A
  dsimp only
  sl_unfold_words
  simp only [View.canon_cons_unit_zero (S := S512x1) hz2, View.canon_cons_unit_zero (S := S512x1024) hz2, View.canon_cons_unit_zero (S := S1x512x1024) hz3,
    View.readCov_unit_zero (S := S512x1) _ hz2, View.readCov_unit_zero (S := S512x1024) _ hz2,
    View.readAt_eq_ld, harg3.read_unread, harg4.read_unread, harg5.read_unread, harg6.read_unread, harg8.read_unread, harg9.read_unread, harg10.read_unread,
    View.ld_unit_zero (S := S1x512x1024) hz3, View.ld_unit_zero (S := S512x1) hz2, View.ld_unit_zero (S := S512x1024) hz2]
  rfl

theorem pieceL_A (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S1x512x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (hA : condA i) (hC : ¬condC i) (q k v : Vec F S1x512x1024 .bf16) (x : Vec F S1x512x1024 .f32) (d7 : Vec F S1x512x1024 .f32) :
    View.canon (kernelRun1_A c i arg3 harg3 arg4 harg4 arg5 harg5 arg6 harg6 arg7 harg7 arg8 harg8 arg9 harg9 arg10 harg10 hA hC q k v x d7).2.1 = (Rec.step q k v Rec.st0).2.1 := by
  unfold kernelRun1_A
  dsimp only
  sl_unfold_words
  simp only [View.canon_cons_unit_zero (S := S512x1) hz2, View.canon_cons_unit_zero (S := S512x1024) hz2, View.canon_cons_unit_zero (S := S1x512x1024) hz3,
    View.readCov_unit_zero (S := S512x1) _ hz2, View.readCov_unit_zero (S := S512x1024) _ hz2,
    View.readAt_eq_ld, harg3.read_unread, harg4.read_unread, harg5.read_unread, harg6.read_unread, harg8.read_unread, harg9.read_unread, harg10.read_unread,
    View.ld_unit_zero (S := S1x512x1024) hz3, View.ld_unit_zero (S := S512x1) hz2, View.ld_unit_zero (S := S512x1024) hz2]
  rfl

theorem pieceAcc_A (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S1x512x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (hA : condA i) (hC : ¬condC i) (q k v : Vec F S1x512x1024 .bf16) (x : Vec F S1x512x1024 .f32) (d7 : Vec F S1x512x1024 .f32) :
    View.canon (kernelRun1_A c i arg3 harg3 arg4 harg4 arg5 harg5 arg6 harg6 arg7 harg7 arg8 harg8 arg9 harg9 arg10 harg10 hA hC q k v x d7).2.2.1 = (Rec.step q k v Rec.st0).2.2 := by
  unfold kernelRun1_A
  dsimp only
  sl_unfold_words
  simp only [View.canon_cons_unit_zero (S := S512x1) hz2, View.canon_cons_unit_zero (S := S512x1024) hz2, View.canon_cons_unit_zero (S := S1x512x1024) hz3,
    View.readCov_unit_zero (S := S512x1) _ hz2, View.readCov_unit_zero (S := S512x1024) _ hz2,
    View.readAt_eq_ld, harg3.read_unread, harg4.read_unread, harg5.read_unread, harg6.read_unread, harg8.read_unread, harg9.read_unread, harg10.read_unread,
    View.ld_unit_zero (S := S1x512x1024) hz3, View.ld_unit_zero (S := S512x1) hz2, View.ld_unit_zero (S := S512x1024) hz2]
  rfl

theorem pieceM_B (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S1x512x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (hA : ¬condA i) (hC : ¬condC i) (q k v : Vec F S1x512x1024 .bf16) (x : Vec F S1x512x1024 .f32) (d7 : Vec F S1x512x1024 .f32) (pm pl : Vec F S512x1 .f32) (pa : Vec F S512x1024 .f32) :
    View.canon (kernelRun1_B c i arg3 harg3 arg4 harg4 arg5 harg5 arg6 harg6 arg7 harg7 arg8 harg8 arg9 harg9 arg10 harg10 hA hC q k v x d7 pm pl pa).1 = (Rec.step q k v (pm, pl, pa)).1 := by
  unfold kernelRun1_B
  dsimp only
  sl_unfold_words
  simp only [View.canon_cons_unit_zero (S := S512x1) hz2, View.canon_cons_unit_zero (S := S512x1024) hz2, View.canon_cons_unit_zero (S := S1x512x1024) hz3,
    View.readCov_unit_zero (S := S512x1) _ hz2, View.readCov_unit_zero (S := S512x1024) _ hz2,
    View.readAt_eq_ld, harg3.read_unread, harg4.read_unread, harg5.read_unread, harg6.read_unread, harg8.read_unread, harg9.read_unread, harg10.read_unread,
    View.ld_unit_zero (S := S1x512x1024) hz3, View.ld_unit_zero (S := S512x1) hz2, View.ld_unit_zero (S := S512x1024) hz2]
  rfl

theorem pieceL_B (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S1x512x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (hA : ¬condA i) (hC : ¬condC i) (q k v : Vec F S1x512x1024 .bf16) (x : Vec F S1x512x1024 .f32) (d7 : Vec F S1x512x1024 .f32) (pm pl : Vec F S512x1 .f32) (pa : Vec F S512x1024 .f32) :
    View.canon (kernelRun1_B c i arg3 harg3 arg4 harg4 arg5 harg5 arg6 harg6 arg7 harg7 arg8 harg8 arg9 harg9 arg10 harg10 hA hC q k v x d7 pm pl pa).2.1 = (Rec.step q k v (pm, pl, pa)).2.1 := by
  unfold kernelRun1_B
  dsimp only
  sl_unfold_words
  simp only [View.canon_cons_unit_zero (S := S512x1) hz2, View.canon_cons_unit_zero (S := S512x1024) hz2, View.canon_cons_unit_zero (S := S1x512x1024) hz3,
    View.readCov_unit_zero (S := S512x1) _ hz2, View.readCov_unit_zero (S := S512x1024) _ hz2,
    View.readAt_eq_ld, harg3.read_unread, harg4.read_unread, harg5.read_unread, harg6.read_unread, harg8.read_unread, harg9.read_unread, harg10.read_unread,
    View.ld_unit_zero (S := S1x512x1024) hz3, View.ld_unit_zero (S := S512x1) hz2, View.ld_unit_zero (S := S512x1024) hz2]
  rfl

theorem pieceAcc_B (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S1x512x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (hA : ¬condA i) (hC : ¬condC i) (q k v : Vec F S1x512x1024 .bf16) (x : Vec F S1x512x1024 .f32) (d7 : Vec F S1x512x1024 .f32) (pm pl : Vec F S512x1 .f32) (pa : Vec F S512x1024 .f32) :
    View.canon (kernelRun1_B c i arg3 harg3 arg4 harg4 arg5 harg5 arg6 harg6 arg7 harg7 arg8 harg8 arg9 harg9 arg10 harg10 hA hC q k v x d7 pm pl pa).2.2.1 = (Rec.step q k v (pm, pl, pa)).2.2 := by
  unfold kernelRun1_B
  dsimp only
  sl_unfold_words
  simp only [View.canon_cons_unit_zero (S := S512x1) hz2, View.canon_cons_unit_zero (S := S512x1024) hz2, View.canon_cons_unit_zero (S := S1x512x1024) hz3,
    View.readCov_unit_zero (S := S512x1) _ hz2, View.readCov_unit_zero (S := S512x1024) _ hz2,
    View.readAt_eq_ld, harg3.read_unread, harg4.read_unread, harg5.read_unread, harg6.read_unread, harg8.read_unread, harg9.read_unread, harg10.read_unread,
    View.ld_unit_zero (S := S1x512x1024) hz3, View.ld_unit_zero (S := S512x1) hz2, View.ld_unit_zero (S := S512x1024) hz2]
  rfl

theorem pieceO_C (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S1x512x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (hA : ¬condA i) (hC : condC i) (q k v : Vec F S1x512x1024 .bf16) (x : Vec F S1x512x1024 .f32) (pm pl : Vec F S512x1 .f32) (pa : Vec F S512x1024 .f32) :
    View.canon (kernelRun1_C c i arg3 harg3 arg4 harg4 arg5 harg5 arg6 harg6 arg7 harg7 arg8 harg8 arg9 harg9 arg10 harg10 hA hC q k v x pm pl pa).1 = Rec.fin (Rec.step q k v (pm, pl, pa)) x := by
  unfold kernelRun1_C
  dsimp only
  sl_unfold_words
  simp only [View.canon_cons_unit_zero (S := S512x1) hz2, View.canon_cons_unit_zero (S := S512x1024) hz2, View.canon_cons_unit_zero (S := S1x512x1024) hz3,
    View.readCov_unit_zero (S := S512x1) _ hz2, View.readCov_unit_zero (S := S512x1024) _ hz2,
    View.readAt_eq_ld, harg3.read_unread, harg4.read_unread, harg5.read_unread, harg6.read_unread, harg8.read_unread, harg9.read_unread, harg10.read_unread,
    View.ld_unit_zero (S := S1x512x1024) hz3, View.ld_unit_zero (S := S512x1) hz2, View.ld_unit_zero (S := S512x1024) hz2]
  rfl

theorem pieceM_C (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S1x512x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (hA : ¬condA i) (hC : condC i) (q k v : Vec F S1x512x1024 .bf16) (x : Vec F S1x512x1024 .f32) (pm pl : Vec F S512x1 .f32) (pa : Vec F S512x1024 .f32) :
    View.canon (kernelRun1_C c i arg3 harg3 arg4 harg4 arg5 harg5 arg6 harg6 arg7 harg7 arg8 harg8 arg9 harg9 arg10 harg10 hA hC q k v x pm pl pa).2.1 = (Rec.step q k v (pm, pl, pa)).1 := by
  unfold kernelRun1_C
  dsimp only
  sl_unfold_words
  simp only [View.canon_cons_unit_zero (S := S512x1) hz2, View.canon_cons_unit_zero (S := S512x1024) hz2, View.canon_cons_unit_zero (S := S1x512x1024) hz3,
    View.readCov_unit_zero (S := S512x1) _ hz2, View.readCov_unit_zero (S := S512x1024) _ hz2,
    View.readAt_eq_ld, harg3.read_unread, harg4.read_unread, harg5.read_unread, harg6.read_unread, harg8.read_unread, harg9.read_unread, harg10.read_unread,
    View.ld_unit_zero (S := S1x512x1024) hz3, View.ld_unit_zero (S := S512x1) hz2, View.ld_unit_zero (S := S512x1024) hz2]
  rfl

theorem pieceL_C (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S1x512x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (hA : ¬condA i) (hC : condC i) (q k v : Vec F S1x512x1024 .bf16) (x : Vec F S1x512x1024 .f32) (pm pl : Vec F S512x1 .f32) (pa : Vec F S512x1024 .f32) :
    View.canon (kernelRun1_C c i arg3 harg3 arg4 harg4 arg5 harg5 arg6 harg6 arg7 harg7 arg8 harg8 arg9 harg9 arg10 harg10 hA hC q k v x pm pl pa).2.2.1 = (Rec.step q k v (pm, pl, pa)).2.1 := by
  unfold kernelRun1_C
  dsimp only
  sl_unfold_words
  simp only [View.canon_cons_unit_zero (S := S512x1) hz2, View.canon_cons_unit_zero (S := S512x1024) hz2, View.canon_cons_unit_zero (S := S1x512x1024) hz3,
    View.readCov_unit_zero (S := S512x1) _ hz2, View.readCov_unit_zero (S := S512x1024) _ hz2,
    View.readAt_eq_ld, harg3.read_unread, harg4.read_unread, harg5.read_unread, harg6.read_unread, harg8.read_unread, harg9.read_unread, harg10.read_unread,
    View.ld_unit_zero (S := S1x512x1024) hz3, View.ld_unit_zero (S := S512x1) hz2, View.ld_unit_zero (S := S512x1024) hz2]
  rfl

theorem pieceAcc_C (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S1x512x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (hA : ¬condA i) (hC : condC i) (q k v : Vec F S1x512x1024 .bf16) (x : Vec F S1x512x1024 .f32) (pm pl : Vec F S512x1 .f32) (pa : Vec F S512x1024 .f32) :
    View.canon (kernelRun1_C c i arg3 harg3 arg4 harg4 arg5 harg5 arg6 harg6 arg7 harg7 arg8 harg8 arg9 harg9 arg10 harg10 hA hC q k v x pm pl pa).2.2.2.1 = (Rec.step q k v (pm, pl, pa)).2.2 := by
  unfold kernelRun1_C
  dsimp only
  sl_unfold_words
  simp only [View.canon_cons_unit_zero (S := S512x1) hz2, View.canon_cons_unit_zero (S := S512x1024) hz2, View.canon_cons_unit_zero (S := S1x512x1024) hz3,
    View.readCov_unit_zero (S := S512x1) _ hz2, View.readCov_unit_zero (S := S512x1024) _ hz2,
    View.readAt_eq_ld, harg3.read_unread, harg4.read_unread, harg5.read_unread, harg6.read_unread, harg8.read_unread, harg9.read_unread, harg10.read_unread,
    View.ld_unit_zero (S := S1x512x1024) hz3, View.ld_unit_zero (S := S512x1) hz2, View.ld_unit_zero (S := S512x1024) hz2]
  rfl

section Region1

variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not (the query and
    input blocks keep their index along the key-tile axis). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The carried state, point by point -/

/-- The carried state after the body at position n: one step from the start state at a row's first key tile,
    otherwise from what the position before left. -/
def scr (c : Dev nD) : (n : ℕ) → n < cfg1.N → Rec.St F
  | 0, h => Rec.step (iblk1 V c 0 ⟨0, h⟩) (iblk1 V c 1 ⟨0, h⟩) (iblk1 V c 2 ⟨0, h⟩) Rec.st0
  | n + 1, h => Rec.step (iblk1 V c 0 ⟨n + 1, h⟩) (iblk1 V c 1 ⟨n + 1, h⟩) (iblk1 V c 2 ⟨n + 1, h⟩)
      (if (n + 1) % 8 = 0 then Rec.st0 else scr c n (Nat.lt_of_succ_lt h))

theorem scr_first (c : Dev nD) (t : Fin cfg1.N) (h : t.val % 8 = 0) :
    scr V c t.val t.isLt = Rec.step (iblk1 V c 0 t) (iblk1 V c 1 t) (iblk1 V c 2 t) Rec.st0 := by
  obtain ⟨n, hn⟩ := t
  cases n with
  | zero => rfl
  | succ n =>
    show Rec.step _ _ _ (if (n + 1) % 8 = 0 then _ else _) = _
    rw [if_pos h]

theorem scr_next (c : Dev nD) (t : Fin cfg1.N) (h : ¬t.val % 8 = 0) :
    scr V c t.val t.isLt = Rec.step (iblk1 V c 0 t) (iblk1 V c 1 t) (iblk1 V c 2 t)
      (scr V c (t.val - 1) (Nat.lt_of_le_of_lt (Nat.sub_le _ _) t.isLt)) := by
  obtain ⟨n, hn⟩ := t
  cases n with
  | zero => exact absurd (Nat.zero_mod _) h
  | succ n =>
    show Rec.step _ _ _ (if (n + 1) % 8 = 0 then _ else _) = _
    rw [if_neg h]; rfl

/-! ## The invariant: the three scratch buffers at the carried state -/

abbrev scM0 : Memref sig .tc .vmem S512x1 .f32 := Memref.whole cc1_scratch0
abbrev scM1 : Memref sig .tc .vmem S512x1 .f32 := Memref.whole cc1_scratch1
abbrev scM2 : Memref sig .tc .vmem S512x1024 .f32 := Memref.whole cc1_scratch2

/-- A scoped buffer the kernel never touches (the projection kernel's staging buffers), whole at some contents. -/
abbrev oth (c : Dev nD) (b : Ref sig .tc) : sProp 𝕄 :=
  iprop(∃ f : Buf (Elt F) ((c : Thread nD τ).loc b), ((c : Thread nD τ).loc b) ↦{fullShare} f)

/-- What the region hands the body before the first point: every scoped buffer that is no staging buffer of this
    pipeline at anything — the scratch buffers as memrefs — and the generator register. -/
theorem PhiA1_eq (c : Dev nD) :
    (Pipeline.ΦA spec1 c : sProp 𝕄)
      = iprop((oth c cc0_stg0_0 ∗ oth c cc0_stg0_1 ∗ oth c cc0_stg1_0 ∗ oth c cc0_stg2_0 ∗ oth c cc0_stg3_0 ∗ oth c cc0_stg4_0 ∗ oth c cc0_stg4_1 ∗ oth c cc0_stg5_0 ∗ oth c cc0_stg5_1 ∗ oth c cc0_stg6_0 ∗ oth c cc0_stg6_1 ∗ (∃ d, owns (c : Thread nD τ) scM0 fullShare d) ∗ (∃ d, owns (c : Thread nD τ) scM1 fullShare d) ∗ (∃ d, owns (c : Thread nD τ) scM2 fullShare d)) ∗ (∃ r, prngReg c r)) := by
  unfold Pipeline.ΦA; rw [scopedRest1_eq]; simp only [scM0, scM1, scM2, owns_whole]; try rfl

/-- The region invariant before position n: before the first point what the region hands in; afterwards the scratch
    buffers at the state the position before left, the other scoped buffers at anything, the generator register. -/
def PhiS (c : Dev nD) : (n : ℕ) → n ≤ cfg1.N → sProp 𝕄
  | 0, _ => Pipeline.ΦA spec1 c
  | n + 1, hn => iprop((oth c cc0_stg0_0 ∗ oth c cc0_stg0_1 ∗ oth c cc0_stg1_0 ∗ oth c cc0_stg2_0 ∗ oth c cc0_stg3_0 ∗ oth c cc0_stg4_0 ∗ oth c cc0_stg4_1 ∗ oth c cc0_stg5_0 ∗ oth c cc0_stg5_1 ∗ oth c cc0_stg6_0 ∗ oth c cc0_stg6_1 ∗ owns (c : Thread nD τ) scM0 fullShare (scr V c n hn).1 ∗ owns (c : Thread nD τ) scM1 fullShare (scr V c n hn).2.1 ∗ owns (c : Thread nD τ) scM2 fullShare (scr V c n hn).2.2) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop((oth c cc0_stg0_0 ∗ oth c cc0_stg0_1 ∗ oth c cc0_stg1_0 ∗ oth c cc0_stg2_0 ∗ oth c cc0_stg3_0 ∗ oth c cc0_stg4_0 ∗ oth c cc0_stg4_1 ∗ oth c cc0_stg5_0 ∗ oth c cc0_stg5_1 ∗ oth c cc0_stg6_0 ∗ oth c cc0_stg6_1 ∗ owns (c : Thread nD τ) scM0 fullShare (scr V c n hn).1 ∗ owns (c : Thread nD τ) scM1 fullShare (scr V c n hn).2.1 ∗ owns (c : Thread nD τ) scM2 fullShare (scr V c n hn).2.2) ∗ (∃ r, prngReg c r)) := rfl

theorem PhiS_pos (c : Dev nD) (n : ℕ) (h : n ≤ cfg1.N) (hz : n ≠ 0) :
    PhiS V c n h = iprop((oth c cc0_stg0_0 ∗ oth c cc0_stg0_1 ∗ oth c cc0_stg1_0 ∗ oth c cc0_stg2_0 ∗ oth c cc0_stg3_0 ∗ oth c cc0_stg4_0 ∗ oth c cc0_stg4_1 ∗ oth c cc0_stg5_0 ∗ oth c cc0_stg5_1 ∗ oth c cc0_stg6_0 ∗ oth c cc0_stg6_1 ∗ owns (c : Thread nD τ) scM0 fullShare (scr V c (n - 1) (by omega)).1 ∗ owns (c : Thread nD τ) scM1 fullShare (scr V c (n - 1) (by omega)).2.1 ∗ owns (c : Thread nD τ) scM2 fullShare (scr V c (n - 1) (by omega)).2.2) ∗ (∃ r, prngReg c r)) := by
  cases n with
  | zero => exact absurd rfl hz
  | succ n => rfl

/-! ## The proof data -/

/-- The proof data of the attention pipeline on core c: the arrays as the region finds them; after the body each
    input's buffer at its block and the output's at the block written from the carried state (meaningful at a
    row's last key tile, the only point that writes it back); the invariant tracks the scratch buffers. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => Rec.fin (scr V c t.val t.isLt) (iblk1 V c 3 t)
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = Rec.fin (scr V c t.val t.isLt) (iblk1 V c 3 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation -/

/-- What the body is called with at point t, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 8000000 in
/-- The body at any point. The position mod 8 says which key tile this is. The input windows hold their blocks; the
    invariant hands the body the scratch buffers at the state the position before left (at anything before the first
    point; a row's first key tile overwrites them without reading) and takes them back at this position's state; away
    from the last key tile the output block is handed back as found, at it the block is the one written from the state. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS V c (t.val + 1) t.isLt from rfl, PhiS_succ]
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  rw [show (dat1 V c).leavesExact 2 t = owns (c : Thread nD τ) (st1_2 t) fullShare ((dat1 V c).after 2 t) from by
    unfold Dat.leavesExact; rw [liveAt1_2 t], after1_2]
  rw [show (dat1 V c).leavesExact 3 t = owns (c : Thread nD τ) (st1_3 t) fullShare ((dat1 V c).after 3 t) from by
    unfold Dat.leavesExact; rw [liveAt1_3 t], after1_3]
  have hN : t.val < 256 := lt_of_lt_of_eq t.isLt (show cfg1.N = 256 from N_1)
  by_cases h0 : t.val % 8 = 0
  · have hA : condA (grid1.coords t) := (hcondA t).mpr h0
    have hC : ¬condC (grid1.coords t) := fun h => by have := (hcondC t).mp h; omega
    rw [Dat.leavesExact_idle (dat1 V c) 4 t (idleAt1_4 t hC) (noFlush1_4 t hC)]
    rw [scr_first V c t h0]
    by_cases hz : t.val = 0
    · rw [PhiS_castSucc V c t, PhiS_zero V c _ _ hz, PhiA1_eq]
      iintro ⟨⟨⟨R1, R2, R3, R4, R5, R6, R7, R8, R9, R10, R11, ⟨%e0, HS0⟩, ⟨%e1, HS1⟩, ⟨%e2, HS2⟩⟩, Hg⟩, Ho, ⟨%d0, H0⟩, ⟨%d1, H1⟩, ⟨%d2, H2⟩, ⟨%d3, H3⟩, ⟨%d4, H4⟩⟩
      iapply ((kernelRun1_A c (grid1.coords t) _ _ _ _ _ _ _ _ _ _ _ _ _ _ _ _ hA hC (iblk1 V c 0 t) (iblk1 V c 1 t) (iblk1 V c 2 t) (iblk1 V c 3 t) ((dat1 V c).before 4 t d4)).2.2.2 Set.univ _)
      isplitl [H0]; · iexact H0
      isplitl [H1]; · iexact H1
      isplitl [H2]; · iexact H2
      isplitl [H3]; · iexact H3
      isplitl [H4]; · iexact H4
      isplitl [HS0]; · iexists _; iexact HS0
      isplitl [HS1]; · iexists _; iexact HS1
      isplitl [HS2]; · iexists _; iexact HS2
      iintro ⟨H0, H1, H2, H3, H4, ⟨%g0, HS0⟩, ⟨%g1, HS1⟩, ⟨%g2, HS2⟩⟩
      isplitl [R1 R2 R3 R4 R5 R6 R7 R8 R9 R10 R11 HS0 HS1 HS2 Hg]
      · isplitr [Hg]
        isplitl [R1]; · iexact R1
        isplitl [R2]; · iexact R2
        isplitl [R3]; · iexact R3
        isplitl [R4]; · iexact R4
        isplitl [R5]; · iexact R5
        isplitl [R6]; · iexact R6
        isplitl [R7]; · iexact R7
        isplitl [R8]; · iexact R8
        isplitl [R9]; · iexact R9
        isplitl [R10]; · iexact R10
        isplitl [R11]; · iexact R11
        isplitl [HS0]
        · unfold owns; iexists _; isplitr
          swap; · iexact HS0
          ipureintro
          exact (View.read_writes_eq_canon _ _ _ (coverM_A c (grid1.coords t) _ _ _ _ _ _ _ _ _ _ _ _ _ _ _ _ hA hC _ _ _ _ _)).trans (pieceM_A c (grid1.coords t) _ _ _ _ _ _ _ _ _ _ _ _ _ _ _ _ hA hC _ _ _ _ _)
        isplitl [HS1]
        · unfold owns; iexists _; isplitr
          swap; · iexact HS1
          ipureintro
          exact (View.read_writes_eq_canon _ _ _ (coverL_A c (grid1.coords t) _ _ _ _ _ _ _ _ _ _ _ _ _ _ _ _ hA hC _ _ _ _ _)).trans (pieceL_A c (grid1.coords t) _ _ _ _ _ _ _ _ _ _ _ _ _ _ _ _ hA hC _ _ _ _ _)
        unfold owns; iexists _; isplitr
        swap; · iexact HS2
        ipureintro
        exact (View.read_writes_eq_canon _ _ _ (coverAcc_A c (grid1.coords t) _ _ _ _ _ _ _ _ _ _ _ _ _ _ _ _ hA hC _ _ _ _ _)).trans (pieceAcc_A c (grid1.coords t) _ _ _ _ _ _ _ _ _ _ _ _ _ _ _ _ hA hC _ _ _ _ _)
        iexact Hg
      isplitl [Ho]; · iexact Ho
      isplitl [H0]; · iexact H0
      isplitl [H1]; · iexact H1
      isplitl [H2]; · iexact H2
      isplitl [H3]; · iexact H3
      iexists _; iexact H4
    · rw [PhiS_castSucc V c t, PhiS_pos V c _ _ hz]
      iintro ⟨⟨⟨R1, R2, R3, R4, R5, R6, R7, R8, R9, R10, R11, HS0, HS1, HS2⟩, Hg⟩, Ho, ⟨%d0, H0⟩, ⟨%d1, H1⟩, ⟨%d2, H2⟩, ⟨%d3, H3⟩, ⟨%d4, H4⟩⟩
      iapply ((kernelRun1_A c (grid1.coords t) _ _ _ _ _ _ _ _ _ _ _ _ _ _ _ _ hA hC (iblk1 V c 0 t) (iblk1 V c 1 t) (iblk1 V c 2 t) (iblk1 V c 3 t) ((dat1 V c).before 4 t d4)).2.2.2 Set.univ _)
      isplitl [H0]; · iexact H0
      isplitl [H1]; · iexact H1
      isplitl [H2]; · iexact H2
      isplitl [H3]; · iexact H3
      isplitl [H4]; · iexact H4
      isplitl [HS0]; · iexists _; iexact HS0
      isplitl [HS1]; · iexists _; iexact HS1
      isplitl [HS2]; · iexists _; iexact HS2
      iintro ⟨H0, H1, H2, H3, H4, ⟨%g0, HS0⟩, ⟨%g1, HS1⟩, ⟨%g2, HS2⟩⟩
      isplitl [R1 R2 R3 R4 R5 R6 R7 R8 R9 R10 R11 HS0 HS1 HS2 Hg]
      · isplitr [Hg]
        isplitl [R1]; · iexact R1
        isplitl [R2]; · iexact R2
        isplitl [R3]; · iexact R3
        isplitl [R4]; · iexact R4
        isplitl [R5]; · iexact R5
        isplitl [R6]; · iexact R6
        isplitl [R7]; · iexact R7
        isplitl [R8]; · iexact R8
        isplitl [R9]; · iexact R9
        isplitl [R10]; · iexact R10
        isplitl [R11]; · iexact R11
        isplitl [HS0]
        · unfold owns; iexists _; isplitr
          swap; · iexact HS0
          ipureintro
          exact (View.read_writes_eq_canon _ _ _ (coverM_A c (grid1.coords t) _ _ _ _ _ _ _ _ _ _ _ _ _ _ _ _ hA hC _ _ _ _ _)).trans (pieceM_A c (grid1.coords t) _ _ _ _ _ _ _ _ _ _ _ _ _ _ _ _ hA hC _ _ _ _ _)
        isplitl [HS1]
        · unfold owns; iexists _; isplitr
          swap; · iexact HS1
          ipureintro
          exact (View.read_writes_eq_canon _ _ _ (coverL_A c (grid1.coords t) _ _ _ _ _ _ _ _ _ _ _ _ _ _ _ _ hA hC _ _ _ _ _)).trans (pieceL_A c (grid1.coords t) _ _ _ _ _ _ _ _ _ _ _ _ _ _ _ _ hA hC _ _ _ _ _)
        unfold owns; iexists _; isplitr
        swap; · iexact HS2
        ipureintro
        exact (View.read_writes_eq_canon _ _ _ (coverAcc_A c (grid1.coords t) _ _ _ _ _ _ _ _ _ _ _ _ _ _ _ _ hA hC _ _ _ _ _)).trans (pieceAcc_A c (grid1.coords t) _ _ _ _ _ _ _ _ _ _ _ _ _ _ _ _ hA hC _ _ _ _ _)
        iexact Hg
      isplitl [Ho]; · iexact Ho
      isplitl [H0]; · iexact H0
      isplitl [H1]; · iexact H1
      isplitl [H2]; · iexact H2
      isplitl [H3]; · iexact H3
      iexists _; iexact H4
  · have hA : ¬condA (grid1.coords t) := fun h => h0 ((hcondA t).mp h)
    have hz : t.val ≠ 0 := fun h => h0 (by rw [h])
    by_cases h7 : t.val % 8 = 7
    · have hC : condC (grid1.coords t) := (hcondC t).mpr h7
      rw [show (dat1 V c).leavesExact 4 t = owns (c : Thread nD τ) (st1_4 t) fullShare ((dat1 V c).after 4 t) from by
        unfold Dat.leavesExact; rw [liveAt1_4 t hC], after1_4]
      rw [scr_next V c t h0]
      rw [PhiS_castSucc V c t, PhiS_pos V c _ _ hz]
      iintro ⟨⟨⟨R1, R2, R3, R4, R5, R6, R7, R8, R9, R10, R11, HS0, HS1, HS2⟩, Hg⟩, Ho, ⟨%d0, H0⟩, ⟨%d1, H1⟩, ⟨%d2, H2⟩, ⟨%d3, H3⟩, ⟨%d4, H4⟩⟩
      iapply ((kernelRun1_C c (grid1.coords t) _ _ _ _ _ _ _ _ _ _ _ _ _ _ _ _ hA hC (iblk1 V c 0 t) (iblk1 V c 1 t) (iblk1 V c 2 t) (iblk1 V c 3 t) (scr V c (t.val - 1) (Nat.lt_of_le_of_lt (Nat.sub_le _ _) t.isLt)).1 (scr V c (t.val - 1) (Nat.lt_of_le_of_lt (Nat.sub_le _ _) t.isLt)).2.1 (scr V c (t.val - 1) (Nat.lt_of_le_of_lt (Nat.sub_le _ _) t.isLt)).2.2).2.2.2.2 Set.univ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      isplitl [HS2]; · iexact HS2
      iintro ⟨H0, H1, H2, H3, ⟨%g7, H4⟩, ⟨%g0, HS0⟩, ⟨%g1, HS1⟩, ⟨%g2, HS2⟩⟩
      isplitl [R1 R2 R3 R4 R5 R6 R7 R8 R9 R10 R11 HS0 HS1 HS2 Hg]
      · isplitr [Hg]
        isplitl [R1]; · iexact R1
        isplitl [R2]; · iexact R2
        isplitl [R3]; · iexact R3
        isplitl [R4]; · iexact R4
        isplitl [R5]; · iexact R5
        isplitl [R6]; · iexact R6
        isplitl [R7]; · iexact R7
        isplitl [R8]; · iexact R8
        isplitl [R9]; · iexact R9
        isplitl [R10]; · iexact R10
        isplitl [R11]; · iexact R11
        isplitl [HS0]
        · unfold owns; iexists _; isplitr
          swap; · iexact HS0
          ipureintro
          exact (View.read_writes_eq_canon _ _ _ (coverM_C c (grid1.coords t) _ _ _ _ _ _ _ _ _ _ _ _ _ _ _ _ hA hC _ _ _ _ _ _ _)).trans (pieceM_C c (grid1.coords t) _ _ _ _ _ _ _ _ _ _ _ _ _ _ _ _ hA hC _ _ _ _ _ _ _)
        isplitl [HS1]
        · unfold owns; iexists _; isplitr
          swap; · iexact HS1
          ipureintro
          exact (View.read_writes_eq_canon _ _ _ (coverL_C c (grid1.coords t) _ _ _ _ _ _ _ _ _ _ _ _ _ _ _ _ hA hC _ _ _ _ _ _ _)).trans (pieceL_C c (grid1.coords t) _ _ _ _ _ _ _ _ _ _ _ _ _ _ _ _ hA hC _ _ _ _ _ _ _)
        unfold owns; iexists _; isplitr
        swap; · iexact HS2
        ipureintro
        exact (View.read_writes_eq_canon _ _ _ (coverAcc_C c (grid1.coords t) _ _ _ _ _ _ _ _ _ _ _ _ _ _ _ _ hA hC _ _ _ _ _ _ _)).trans (pieceAcc_C c (grid1.coords t) _ _ _ _ _ _ _ _ _ _ _ _ _ _ _ _ hA hC _ _ _ _ _ _ _)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro
      exact (View.read_writes_eq_canon _ _ _ (coverO_C c (grid1.coords t) _ _ _ _ _ _ _ _ _ _ _ _ _ _ _ _ hA hC _ _ _ _ _ _ _)).trans (pieceO_C c (grid1.coords t) _ _ _ _ _ _ _ _ _ _ _ _ _ _ _ _ hA hC _ _ _ _ _ _ _)
    · have hC : ¬condC (grid1.coords t) := fun h => h7 ((hcondC t).mp h)
      rw [Dat.leavesExact_idle (dat1 V c) 4 t (idleAt1_4 t hC) (noFlush1_4 t hC)]
      rw [scr_next V c t h0]
      rw [PhiS_castSucc V c t, PhiS_pos V c _ _ hz]
      iintro ⟨⟨⟨R1, R2, R3, R4, R5, R6, R7, R8, R9, R10, R11, HS0, HS1, HS2⟩, Hg⟩, Ho, ⟨%d0, H0⟩, ⟨%d1, H1⟩, ⟨%d2, H2⟩, ⟨%d3, H3⟩, ⟨%d4, H4⟩⟩
      iapply ((kernelRun1_B c (grid1.coords t) _ _ _ _ _ _ _ _ _ _ _ _ _ _ _ _ hA hC (iblk1 V c 0 t) (iblk1 V c 1 t) (iblk1 V c 2 t) (iblk1 V c 3 t) ((dat1 V c).before 4 t d4) (scr V c (t.val - 1) (Nat.lt_of_le_of_lt (Nat.sub_le _ _) t.isLt)).1 (scr V c (t.val - 1) (Nat.lt_of_le_of_lt (Nat.sub_le _ _) t.isLt)).2.1 (scr V c (t.val - 1) (Nat.lt_of_le_of_lt (Nat.sub_le _ _) t.isLt)).2.2).2.2.2 Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      iintro ⟨H0, H1, H2, H3, H4, ⟨%g0, HS0⟩, ⟨%g1, HS1⟩, ⟨%g2, HS2⟩⟩
      isplitl [R1 R2 R3 R4 R5 R6 R7 R8 R9 R10 R11 HS0 HS1 HS2 Hg]
      · isplitr [Hg]
        isplitl [R1]; · iexact R1
        isplitl [R2]; · iexact R2
        isplitl [R3]; · iexact R3
        isplitl [R4]; · iexact R4
        isplitl [R5]; · iexact R5
        isplitl [R6]; · iexact R6
        isplitl [R7]; · iexact R7
        isplitl [R8]; · iexact R8
        isplitl [R9]; · iexact R9
        isplitl [R10]; · iexact R10
        isplitl [R11]; · iexact R11
        isplitl [HS0]
        · unfold owns; iexists _; isplitr
          swap; · iexact HS0
          ipureintro
          exact (View.read_writes_eq_canon _ _ _ (coverM_B c (grid1.coords t) _ _ _ _ _ _ _ _ _ _ _ _ _ _ _ _ hA hC _ _ _ _ _ _ _ _)).trans (pieceM_B c (grid1.coords t) _ _ _ _ _ _ _ _ _ _ _ _ _ _ _ _ hA hC _ _ _ _ _ _ _ _)
        isplitl [HS1]
        · unfold owns; iexists _; isplitr
          swap; · iexact HS1
          ipureintro
          exact (View.read_writes_eq_canon _ _ _ (coverL_B c (grid1.coords t) _ _ _ _ _ _ _ _ _ _ _ _ _ _ _ _ hA hC _ _ _ _ _ _ _ _)).trans (pieceL_B c (grid1.coords t) _ _ _ _ _ _ _ _ _ _ _ _ _ _ _ _ hA hC _ _ _ _ _ _ _ _)
        unfold owns; iexists _; isplitr
        swap; · iexact HS2
        ipureintro
        exact (View.read_writes_eq_canon _ _ _ (coverAcc_B c (grid1.coords t) _ _ _ _ _ _ _ _ _ _ _ _ _ _ _ _ hA hC _ _ _ _ _ _ _ _)).trans (pieceAcc_B c (grid1.coords t) _ _ _ _ _ _ _ _ _ _ _ _ _ _ _ _ hA hC _ _ _ _ _ _ _ _)
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- After the last point the invariant gives back what the region handed in: the scratch contents are forgotten. -/
theorem Phi_out1 (c : Dev nD) : (dat1 V c).Φ (Fin.last cfg1.N) ⊢ Pipeline.ΦA spec1 c := by
  rw [show (dat1 V c).Φ (Fin.last cfg1.N) = PhiS V c (Fin.last cfg1.N).val (Nat.le_of_lt_succ (Fin.last cfg1.N).isLt) from rfl,
    PhiS_pos V c _ _ (by rw [Fin.val_last]; have : cfg1.N = 256 := N_1; omega), PhiA1_eq]
  iintro ⟨⟨R1, R2, R3, R4, R5, R6, R7, R8, R9, R10, R11, HS0, HS1, HS2⟩, Hg⟩
  isplitr [Hg]
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  isplitl [R9]; · iexact R9
  isplitl [R10]; · iexact R10
  isplitl [R11]; · iexact R11
  isplitl [HS0]; · iexists _; iexact HS0
  isplitl [HS1]; · iexists _; iexact HS1
  iexists _; iexact HS2
  iexact Hg

end Region1

end Cert.Kernel.Fr

end
-- ==== Proof.FrBRun.lean ====
/-
  The run of the whole program: the contents of the core's buffers at each boundary between a stretch of host
  operations and a kernel region (a fold from the launch memory: a stretch applies its operations, a region leaves
  its arrays at what its write-backs make of them), the two regions as segments over the thread state "every
  unscoped buffer at the boundary's contents", and the run from the launch to the return: it terminates, faults
  nowhere, leaves the four arguments as launched and the result array at what the attention region's write-backs
  make of it.
-/
import proofs.«110892_j22204980920987_1_alg».proof.Proof.Gen.Kernel.Launch
import proofs.«110892_j22204980920987_1_alg».proof.Proof.Gen.Kernel.Skeleton
import proofs.«110892_j22204980920987_1_alg».proof.Proof.Gen.Kernel.Points
import proofs.«110892_j22204980920987_1_alg».proof.Proof.Gen.Kernel.Regions
import proofs.«110892_j22204980920987_1_alg».proof.Proof.FrB0
import proofs.«110892_j22204980920987_1_alg».proof.Proof.FrB1b
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core c's buffers at launch. -/
abbrev W0 : Dev nD → Valuation τ sig (Elt F) := fun c b => (s₀ m ρ).mem ((c : Dev nD), b)
/-- After the first host stretch (the transposes and the flattening): the projection region's entry. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the projection region's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch (the three reshapes): the attention region's entry. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At the attention region's exit. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ## The arguments end as launched, and the result is the attention region's array -/

/-- A buffer neither stretch writes and the projection region does not stage keeps its launch contents up to the
    attention region's entry. -/
theorem W3_of_untouched (c : Dev nD) (b : Ref sig .tc) (h0 : b ∉ hostOps0_W) (h1 : b ∉ hostOps1_W) (hs : ∀ w, Pipeline.arrRef spec0 w ≠ b) :
    W3 m ρ c (Proc.devRef .tc b) = m ((c : Thread nD τ).loc b) :=
  calc W3 m ρ c (Proc.devRef .tc b)
    _ = W2 m ρ c (Proc.devRef .tc b) := StableHlo.after_of_writes_sub hostOps1 _ hostOps1_writes h1
    _ = W1 m ρ c (Proc.devRef .tc b) := W2_of_ne m ρ c b hs
    _ = W0 m ρ c (Proc.devRef .tc b) := StableHlo.after_of_writes_sub hostOps0 _ hostOps0_writes h0
    _ = m ((c : Thread nD τ).loc b) := rfl

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := (W4_arr m ρ c 3).trans (((dat1 (V3 m ρ) c).arrAt_in 3 rfl _).trans (A_eq1 (V3 m ρ) c 3))
    _ = m ((c : Thread nD τ).loc main_arg0) := W3_of_untouched m ρ c main_arg0 (by decide) (by decide) (by decide)
theorem W4_main_arg1 (c : Dev nD) : W4 m ρ c (Proc.devRef .tc main_arg1) = m ((c : Thread nD τ).loc main_arg1) :=
  (W4_of_ne m ρ c main_arg1 (by decide)).trans (W3_of_untouched m ρ c main_arg1 (by decide) (by decide) (by decide))
theorem W4_main_arg2 (c : Dev nD) : W4 m ρ c (Proc.devRef .tc main_arg2) = m ((c : Thread nD τ).loc main_arg2) :=
  (W4_of_ne m ρ c main_arg2 (by decide)).trans (W3_of_untouched m ρ c main_arg2 (by decide) (by decide) (by decide))
theorem W4_main_arg3 (c : Dev nD) : W4 m ρ c (Proc.devRef .tc main_arg3) = m ((c : Thread nD τ).loc main_arg3) :=
  (W4_of_ne m ρ c main_arg3 (by decide)).trans (W3_of_untouched m ρ c main_arg3 (by decide) (by decide) (by decide))
/-- The result array at the end is what the attention region's write-backs leave. -/
theorem W4_main_v8 (c : Dev nD) : W4 m ρ c (Proc.devRef .tc main_v8) = (dat1 (V3 m ρ) c).arrAt 4 cfg1.N :=
  W4_arr m ρ c 4

/-! ## The proof data family and the thread state -/

abbrev adm' : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm' p) c
  | ⟨0, _⟩ => fun c => dat0 (V1 m ρ) c
  | ⟨1, _⟩ => fun c => dat1 (V3 m ρ) c
abbrev 𝒱₀ : Variants := Variants.none
abbrev L₀ : GSem nD τ sig → Finset Unit := fun _ => ∅
abbrev lv₀ : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L₀ lv₀ :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- The projection region over the thread state: entered from every unscoped buffer at W1, left at W2. -/
def reg0 : Pipeline.RegionSeg (pcfgs (F := F)) adm' (pdats m ρ) () defs₀ 𝒱₀ L₀ lv₀ 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L₀ lv₀ 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm' (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm' (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention region over the thread state: entered from every unscoped buffer at W3, left at W4; its invariant
    starts at what the region hands in and gives that back after the last point. -/
def reg1 : Pipeline.RegionSeg (pcfgs (F := F)) adm' (pdats m ρ) () defs₀ 𝒱₀ L₀ lv₀ 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L₀ lv₀ 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm' (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m ρ 1 c).Φ (Fin.last _) ⊢ Pipeline.ΦA spec1 c from Phi_out1 (V3 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm' (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the run -/

abbrev segs : List (Pipeline.Seg (pcfgs (F := F)) adm' (pdats m ρ) () defs₀ 𝒱₀ L₀ lv₀) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (segs m ρ) := (main_chain c).trans (by chain_rfl)

set_option backward.isDefEq.respectTransparency.types false in
/-- THE RUN. From any memory with zero counters every weakly fair execution of the program terminates, nothing
    faulting, and every final state has the result array at what the attention region's write-backs leave and the
    four argument arrays as launched. -/
theorem run_all : θ_run defs (onTc (τ := τ) (main (F := F))) ⟨m, fun _ => 0, ρ⟩ (fun r => ∀ c : Dev nD,
      r.2.mem ((c.tc : Thread nD τ).loc main_v8) = (dat1 (V3 m ρ) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm' (pdats m ρ) () cellOf_inj emb₁ defs₀ 𝒱₀ L₀ lv₀ m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L₀ lv₀ fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨(h c _ (mem_uc main_v8 (by decide))).trans (W4_main_v8 m ρ c),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c)⟩)

/-- The frame claim's post from the run's. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => (h c).2) (run_all m ρ)

end Cert.Kernel.Fr

end
-- ==== Proof.FrI0.lean ====
/-
  The projection kernel's half of the frame, at any contents V of the core's buffers when the region is entered.
  A grid point reads one block of 512 rows of the flattened input and the three whole transposed weight
  matrices, and writes the three products' blocks of 512 rows; nothing is carried from point to point.
  Stated here: each window's block at a point, what the body leaves in each output block as a function of
  the input blocks, the body's triple, the proof data and the body obligation at every point.
-/
import proofs.«110892_j22204980920987_1_alg».proof.Proof.Gen.KernelIdeal.Launch
import proofs.«110892_j22204980920987_1_alg».proof.Proof.Gen.KernelIdeal.Skeleton
import proofs.«110892_j22204980920987_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, whether or not it was fetched there
    (a block index that has not moved keeps the buffer's contents). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- The whole rectangle of a [512,1024] block and of a [1024,1024] matrix: the body's every access. -/
abbrev rX : Rect S512x1024 := Rect.unit (s := S512x1024) ![0, 0] S512x1024.size inb_S512x1024_S512x1024_0_0
abbrev rW : Rect S1024x1024 := Rect.unit (s := S1024x1024) ![0, 0] S1024x1024.size inb_S1024x1024_S1024x1024_0_0

/-- What the body leaves in the three output blocks: one whole store each, of the input block against a weight. -/
def out0_4 (x0 : Vec F S512x1024 .f32) (x1 : Vec F S1024x1024 .f32) : Vec F S512x1024 .bf16 :=
  View.canon [⟨rX, k0_pay2 (View.ld x0 rX) (View.ld x1 rW)⟩]
def out0_5 (x0 : Vec F S512x1024 .f32) (x2 : Vec F S1024x1024 .f32) : Vec F S512x1024 .bf16 :=
  View.canon [⟨rX, k0_pay3 (View.ld x0 rX) (View.ld x2 rW)⟩]
def out0_6 (x0 : Vec F S512x1024 .f32) (x3 : Vec F S1024x1024 .f32) : Vec F S512x1024 .bf16 :=
  View.canon [⟨rX, k0_pay4 (View.ld x0 rX) (View.ld x3 rW)⟩]

/-- One whole store covers the block. -/
theorem cover0 (p0 : Vec F S512x1024 .bf16) (y : S512x1024.Idx) :
    ∃ pc ∈ ([⟨rX, p0⟩] : List (View.Piece (Elt F) S512x1024 .bf16)), y ∈ pc.1.set :=
  View.cover_of_tiled [⟨rX, p0⟩] S512x1024.size (by rfl) y

set_option maxHeartbeats 2000000 in
/-- The body on whole staging memrefs: the inputs' at their contents and the outputs' at anything; it ends with the
    inputs' as they were and each output's at the product of the input block with its weight. -/
theorem sound_kernel0 (c : Dev nD) (E : Set ℕ) (i : grid0.Coords)
    (arg1 : Memref sig .tc .vmem S512x1024 .f32) (harg1 : arg1.IsWhole) (arg2 : Memref sig .tc .vmem S1024x1024 .f32) (harg2 : arg2.IsWhole)
    (arg3 : Memref sig .tc .vmem S1024x1024 .f32) (harg3 : arg3.IsWhole) (arg4 : Memref sig .tc .vmem S1024x1024 .f32) (harg4 : arg4.IsWhole)
    (arg5 : Memref sig .tc .vmem S512x1024 .bf16) (harg5 : arg5.IsWhole) (arg6 : Memref sig .tc .vmem S512x1024 .bf16) (harg6 : arg6.IsWhole)
    (arg7 : Memref sig .tc .vmem S512x1024 .bf16) (harg7 : arg7.IsWhole)
    (x0 : Vec F S512x1024 .f32) (x1 x2 x3 : Vec F S1024x1024 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3
        ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3
            ∗ owns (c : Thread nD τ) arg5 fullShare (out0_4 x0 x1) ∗ owns (c : Thread nD τ) arg6 fullShare (out0_5 x0 x2)
            ∗ owns (c : Thread nD τ) arg7 fullShare (out0_6 x0 x3)) -∗ K ⟨⟩))
      ⊢ wp frame (wpE (defs₀ (F := F)) Variants.none c none) E (cc0__proj_kernel i arg1 harg1 arg2 harg2 arg3 harg3 arg4 harg4 arg5 harg5 arg6 harg6 arg7 harg7) K := by
  simp only [cc0__proj_kernel_eq_skeleton]; unfold cc0__proj_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover0 _)
  isplitl [H5]
  · iexists _; isplitr
    swap; · iexact H5
    ipureintro
    exact View.read_writes_eq_canon _ _ _ (cover0 _)
  iexists _; isplitr
  swap; · iexact H6
  ipureintro
  exact View.read_writes_eq_canon _ _ _ (cover0 _)

/-! ## The proof data and the body obligation -/

/-- The proof data of the projection pipeline on core c: the arrays as the region finds them; after the body at a
    point each input's buffer at its block and each output's at the product of the point's input blocks; the
    invariant holds only what the body never touches; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t)
    | ⟨5, _⟩ => out0_5 (iblk0 V c 0 t) (iblk0 V c 2 t)
    | ⟨6, _⟩ => out0_6 (iblk0 V c 0 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 0 t) (iblk0 V c 1 t) := by dsimp only [dat0]
theorem after0_5 (c : Dev nD) (t : Fin cfg0.N) : (dat0 V c).after 5 t = out0_5 (iblk0 V c 0 t) (iblk0 V c 2 t) := by dsimp only [dat0]
theorem after0_6 (c : Dev nD) (t : Fin cfg0.N) : (dat0 V c).after 6 t = out0_6 (iblk0 V c 0 t) (iblk0 V c 3 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-- What the body is called with at point t, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' memrefs hold their blocks, so the body's triple applies; the invariant and
    the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.Fr

end
-- ==== Proof.FrI1a.lean ====
/-
  The attention kernel's runs. A grid point (b, qi, ki) handles query tile qi of batch b against key tile ki; the
  running maximum, denominator and weighted sum live in three scratch buffers carried from one key tile to the
  next. The body's two conditions — "first key tile" (reset the state) and "last key tile" (write the
  normalised block) — are decided from the point's position: ki = position mod 8. The output block is stored
  only at the last key tile and is left as found elsewhere. Per case, the body's triple with the stored pieces
  found by running it.
-/
import proofs.«110892_j22204980920987_1_alg».proof.Proof.Gen.KernelIdeal.Launch
import proofs.«110892_j22204980920987_1_alg».proof.Proof.Gen.KernelIdeal.Skeleton
import proofs.«110892_j22204980920987_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The body's two conditions, from the grid point -/

/-- "This is the row's first key tile." -/
abbrev condA (i : grid1.Coords) : Prop := (Scalar.cmpi .ne (Scalar.extui (Scalar.cmpi .eq (BitVec.ofNat 32 (i 2).val) 0#32)) 0#32) = 1#1
/-- "This is the row's last key tile." -/
abbrev condC (i : grid1.Coords) : Prop := k1_cond2 i = 1#1

theorem hcondA : ∀ t : Fin cfg1.N, condA (grid1.coords t) ↔ t.val % 8 = 0 :=
  (by decide +kernel : ∀ t : Fin grid1.N, condA (grid1.coords t) ↔ t.val % 8 = 0)
theorem hcondC : ∀ t : Fin cfg1.N, condC (grid1.coords t) ↔ t.val % 8 = 7 :=
  (by decide +kernel : ∀ t : Fin grid1.N, condC (grid1.coords t) ↔ t.val % 8 = 7)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
/-- Away from the last key tile the output window is idle and is not written back; at it, it is live. -/
theorem idleAt1_4 : ∀ t : Fin cfg1.N, ¬condC (grid1.coords t) → cfg1.idle 4 (grid1.coords t) = true := by decide +kernel
theorem noFlush1_4 : ∀ t : Fin cfg1.N, ¬condC (grid1.coords t) → (cfg1.win 4).flush t = false := by decide +kernel
theorem liveAt1_4 : ∀ t : Fin cfg1.N, condC (grid1.coords t) → cfg1.idle 4 (grid1.coords t) = false := by decide +kernel

/-! ## The runs -/

set_option maxHeartbeats 4000000 in
/-- The body's stores as pieces (last first), with the proof that on whole memrefs — the four input blocks at their
    contents, the output block left as found, the carried state at anything (it is reset first) —
    the body runs to the continuation holding the inputs as they were and each stored buffer with its pieces written:
    a row's FIRST key tile. -/
noncomputable def kernelRun1_A (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S1x512x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (hA : condA i) (hC : ¬condC i)
    (q k v : Vec F S1x512x1024 .bf16) (x : Vec F S1x512x1024 .f32) (d7 : Vec F S1x512x1024 .f32) :
    Σ' (LM : List (View.Piece (Elt F) S512x1 .f32)) (LL : List (View.Piece (Elt F) S512x1 .f32)), { LA : List (View.Piece (Elt F) S512x1024 .f32) //
      ∀ (E : Set ℕ) (K : PUnit → sProp 𝕄),
        iprop(owns (c : Thread nD τ) arg3 fullShare q ∗ owns (c : Thread nD τ) arg4 fullShare k ∗ owns (c : Thread nD τ) arg5 fullShare v ∗ owns (c : Thread nD τ) arg6 fullShare x ∗ owns (c : Thread nD τ) arg7 fullShare d7
            ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg3 fullShare q ∗ owns (c : Thread nD τ) arg4 fullShare k ∗ owns (c : Thread nD τ) arg5 fullShare v ∗ owns (c : Thread nD τ) arg6 fullShare x ∗ owns (c : Thread nD τ) arg7 fullShare d7
                ∗ (∃ f, arg8.view.loc (c : Thread nD τ) ↦[arg8.view.set]{fullShare} arg8.view.writes (Elt F) f LM) ∗ (∃ f, arg9.view.loc (c : Thread nD τ) ↦[arg9.view.set]{fullShare} arg9.view.writes (Elt F) f LL) ∗ (∃ f, arg10.view.loc (c : Thread nD τ) ↦[arg10.view.set]{fullShare} arg10.view.writes (Elt F) f LA)) -∗ K ⟨⟩))
          ⊢ wp frame (wpE (defs₀ (F := F)) Variants.none c none) E (cc1__attn_kernel i arg3 harg3 arg4 harg4 arg5 harg5 arg6 harg6 arg7 harg7 arg8 harg8 arg9 harg9 arg10 harg10) K } := by
  refine ⟨?_, ?_, ?_, fun E K => ?run⟩
  case run =>
    simp only [cc1__attn_kernel_eq_skeleton]; unfold cc1__attn_kernel_skel
    simp only [k1_part1_eq_skeleton]; unfold k1_part1_skel
    unfold owns
    iintro ⟨⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, Hk⟩
    obtain rfl := harg3.eq_unread hf3; obtain rfl := harg4.eq_unread hf4; obtain rfl := harg5.eq_unread hf5; obtain rfl := harg6.eq_unread hf6
    sl_exec (disch := first | exact hA | exact hC)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists f7; isplitr; · ipureintro; exact hf7
      iexact H7
    isplitl [H8]; · iexists _; iexact H8
    isplitl [H9]; · iexists _; iexact H9
    iexists _; iexact H10

set_option maxHeartbeats 4000000 in
/-- The body's stores as pieces (last first), with the proof that on whole memrefs — the four input blocks at their
    contents, the output block left as found, the carried state at what the tile before left —
    the body runs to the continuation holding the inputs as they were and each stored buffer with its pieces written:
    a key tile that is neither first nor last. -/
noncomputable def kernelRun1_B (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S1x512x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (hA : ¬condA i) (hC : ¬condC i)
    (q k v : Vec F S1x512x1024 .bf16) (x : Vec F S1x512x1024 .f32) (d7 : Vec F S1x512x1024 .f32) (pm pl : Vec F S512x1 .f32) (pa : Vec F S512x1024 .f32) :
    Σ' (LM : List (View.Piece (Elt F) S512x1 .f32)) (LL : List (View.Piece (Elt F) S512x1 .f32)), { LA : List (View.Piece (Elt F) S512x1024 .f32) //
      ∀ (E : Set ℕ) (K : PUnit → sProp 𝕄),
        iprop(owns (c : Thread nD τ) arg3 fullShare q ∗ owns (c : Thread nD τ) arg4 fullShare k ∗ owns (c : Thread nD τ) arg5 fullShare v ∗ owns (c : Thread nD τ) arg6 fullShare x ∗ owns (c : Thread nD τ) arg7 fullShare d7
            ∗ owns (c : Thread nD τ) arg8 fullShare pm ∗ owns (c : Thread nD τ) arg9 fullShare pl ∗ owns (c : Thread nD τ) arg10 fullShare pa
            ∗ (iprop(owns (c : Thread nD τ) arg3 fullShare q ∗ owns (c : Thread nD τ) arg4 fullShare k ∗ owns (c : Thread nD τ) arg5 fullShare v ∗ owns (c : Thread nD τ) arg6 fullShare x ∗ owns (c : Thread nD τ) arg7 fullShare d7
                ∗ (∃ f, arg8.view.loc (c : Thread nD τ) ↦[arg8.view.set]{fullShare} arg8.view.writes (Elt F) f LM) ∗ (∃ f, arg9.view.loc (c : Thread nD τ) ↦[arg9.view.set]{fullShare} arg9.view.writes (Elt F) f LL) ∗ (∃ f, arg10.view.loc (c : Thread nD τ) ↦[arg10.view.set]{fullShare} arg10.view.writes (Elt F) f LA)) -∗ K ⟨⟩))
          ⊢ wp frame (wpE (defs₀ (F := F)) Variants.none c none) E (cc1__attn_kernel i arg3 harg3 arg4 harg4 arg5 harg5 arg6 harg6 arg7 harg7 arg8 harg8 arg9 harg9 arg10 harg10) K } := by
  refine ⟨?_, ?_, ?_, fun E K => ?run⟩
  case run =>
    simp only [cc1__attn_kernel_eq_skeleton]; unfold cc1__attn_kernel_skel
    simp only [k1_part1_eq_skeleton]; unfold k1_part1_skel
    unfold owns
    iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
    obtain rfl := harg3.eq_unread hf3; obtain rfl := harg4.eq_unread hf4; obtain rfl := harg5.eq_unread hf5; obtain rfl := harg6.eq_unread hf6
    obtain rfl := harg8.eq_unread hf8; obtain rfl := harg9.eq_unread hf9; obtain rfl := harg10.eq_unread hf10
    sl_exec (disch := first | exact hA | exact hC)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists f7; isplitr; · ipureintro; exact hf7
      iexact H7
    isplitl [H8]; · iexists _; iexact H8
    isplitl [H9]; · iexists _; iexact H9
    iexists _; iexact H10

set_option maxHeartbeats 4000000 in
/-- The body's stores as pieces (last first), with the proof that on whole memrefs — the four input blocks at their
    contents, the output block at anything, the carried state at what the tile before left —
    the body runs to the continuation holding the inputs as they were and each stored buffer with its pieces written:
    a row's LAST key tile. -/
noncomputable def kernelRun1_C (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S1x512x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (hA : ¬condA i) (hC : condC i)
    (q k v : Vec F S1x512x1024 .bf16) (x : Vec F S1x512x1024 .f32) (pm pl : Vec F S512x1 .f32) (pa : Vec F S512x1024 .f32) :
    Σ' (L7 : List (View.Piece (Elt F) S1x512x1024 .f32)) (LM : List (View.Piece (Elt F) S512x1 .f32)) (LL : List (View.Piece (Elt F) S512x1 .f32)), { LA : List (View.Piece (Elt F) S512x1024 .f32) //
      ∀ (E : Set ℕ) (K : PUnit → sProp 𝕄),
        iprop(owns (c : Thread nD τ) arg3 fullShare q ∗ owns (c : Thread nD τ) arg4 fullShare k ∗ owns (c : Thread nD τ) arg5 fullShare v ∗ owns (c : Thread nD τ) arg6 fullShare x ∗ (∃ d, owns (c : Thread nD τ) arg7 fullShare d)
            ∗ owns (c : Thread nD τ) arg8 fullShare pm ∗ owns (c : Thread nD τ) arg9 fullShare pl ∗ owns (c : Thread nD τ) arg10 fullShare pa
            ∗ (iprop(owns (c : Thread nD τ) arg3 fullShare q ∗ owns (c : Thread nD τ) arg4 fullShare k ∗ owns (c : Thread nD τ) arg5 fullShare v ∗ owns (c : Thread nD τ) arg6 fullShare x ∗ (∃ f, arg7.view.loc (c : Thread nD τ) ↦[arg7.view.set]{fullShare} arg7.view.writes (Elt F) f L7)
                ∗ (∃ f, arg8.view.loc (c : Thread nD τ) ↦[arg8.view.set]{fullShare} arg8.view.writes (Elt F) f LM) ∗ (∃ f, arg9.view.loc (c : Thread nD τ) ↦[arg9.view.set]{fullShare} arg9.view.writes (Elt F) f LL) ∗ (∃ f, arg10.view.loc (c : Thread nD τ) ↦[arg10.view.set]{fullShare} arg10.view.writes (Elt F) f LA)) -∗ K ⟨⟩))
          ⊢ wp frame (wpE (defs₀ (F := F)) Variants.none c none) E (cc1__attn_kernel i arg3 harg3 arg4 harg4 arg5 harg5 arg6 harg6 arg7 harg7 arg8 harg8 arg9 harg9 arg10 harg10) K } := by
  refine ⟨?_, ?_, ?_, ?_, fun E K => ?run⟩
  case run =>
    simp only [cc1__attn_kernel_eq_skeleton]; unfold cc1__attn_kernel_skel
    simp only [k1_part1_eq_skeleton]; unfold k1_part1_skel
    unfold owns
    iintro ⟨⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, ⟨%f10, %hf10, H10⟩, Hk⟩
    obtain rfl := harg3.eq_unread hf3; obtain rfl := harg4.eq_unread hf4; obtain rfl := harg5.eq_unread hf5; obtain rfl := harg6.eq_unread hf6
    obtain rfl := harg8.eq_unread hf8; obtain rfl := harg9.eq_unread hf9; obtain rfl := harg10.eq_unread hf10
    sl_exec (disch := first | exact hA | exact hC)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]; · iexists _; iexact H7
    isplitl [H8]; · iexists _; iexact H8
    isplitl [H9]; · iexists _; iexact H9
    iexists _; iexact H10

end Cert.KernelIdeal.Fr

end
-- ==== Proof.RecurI.lean ====
/-
  The state the attention kernel carries from one key tile to the next, as a pure recurrence over the
  body's arithmetic: the running row maximum, the running sum of weights and the running weighted sum of
  value rows, each taken at the previous tile's value (or at the start values -∞, 0, 0 at a row's first
  tile), and the block the last tile writes from the final state.
-/
import proofs.«110892_j22204980920987_1_alg».proof.Proof.Gen.KernelIdeal.Skeleton

noncomputable section

namespace Cert.KernelIdeal.Rec

open Idealize.ShloMosaic Cert.KernelIdeal Cert.KernelIdeal.Gen

variable {F : FTy → Type} [FloatOps F]

/-- The carried state: running maximum [512,1], running denominator [512,1], running weighted sum [512,1024]. -/
abbrev St (F : FTy → Type) : Type := Vec F S512x1 .f32 × Vec F S512x1 .f32 × Vec F S512x1024 .f32

/-- The state a query tile starts from: maximum -∞, denominator 0, weighted sum 0. -/
def st0 : St F := (k1_pay4, k1_pay5, k1_pay6)

/-- One key tile: the new maximum, the denominator rescaled and extended, the weighted sum rescaled and extended. -/
def step (q k v : Vec F S1x512x1024 .bf16) (p : St F) : St F :=
  (k1_pay2 (k1_pay9 q k p.1),
   k1_pay12 q k p.1 p.1 p.2.1,
   k1_pay1 (k1_pay7 v) (k1_pay10 q k p.1 p.1) (k1_pay13 q k p.1) (constant S512x1024 .f32 0x00000000#32) p.2.2)

/-- The block written after the last key tile: the weighted sum over the denominator, the input block added, the rows normalised. -/
def fin (p : St F) (x : Vec F S1x512x1024 .f32) : Vec F S1x512x1024 .f32 :=
  k1_pay3 p.2.2 p.2.1 x

end Cert.KernelIdeal.Rec

end
-- ==== Proof.FrI1b.lean ====
/-
  The attention kernel's half of the frame, at any contents V of the core's buffers when the region is entered:
  the stored pieces read back as the carried-state recurrence, the state point by point, the region invariant that
  tracks the three scratch buffers, the proof data and the body obligation.
-/
import proofs.«110892_j22204980920987_1_alg».proof.Proof.Gen.KernelIdeal.Launch
import proofs.«110892_j22204980920987_1_alg».proof.Proof.Gen.KernelIdeal.Skeleton
import proofs.«110892_j22204980920987_1_alg».proof.Proof.Gen.KernelIdeal.Points
import proofs.«110892_j22204980920987_1_alg».proof.Proof.FrI1a
import proofs.«110892_j22204980920987_1_alg».proof.Proof.RecurI
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

theorem hz2 : (![0, 0] : Fin 2 → Nat) = fun _ => 0 := funext fun a => by fin_cases a <;> rfl
theorem hz3 : (![0, 0, 0] : Fin 3 → Nat) = fun _ => 0 := funext fun a => by fin_cases a <;> rfl

/-! ## The stored pieces cover their buffers, and read back as one step of the recurrence -/

theorem coverM_A (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S1x512x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (hA : condA i) (hC : ¬condC i)
    (q k v : Vec F S1x512x1024 .bf16) (x : Vec F S1x512x1024 .f32) (d7 : Vec F S1x512x1024 .f32) (y : S512x1.Idx) :
    ∃ pc ∈ (kernelRun1_A c i arg3 harg3 arg4 harg4 arg5 harg5 arg6 harg6 arg7 harg7 arg8 harg8 arg9 harg9 arg10 harg10 hA hC q k v x d7).1, y ∈ pc.1.set :=
  View.cover_of_tiledL _ S512x1.size (by sl_kernel_rfl) y

theorem coverL_A (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S1x512x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (hA : condA i) (hC : ¬condC i)
    (q k v : Vec F S1x512x1024 .bf16) (x : Vec F S1x512x1024 .f32) (d7 : Vec F S1x512x1024 .f32) (y : S512x1.Idx) :
    ∃ pc ∈ (kernelRun1_A c i arg3 harg3 arg4 harg4 arg5 harg5 arg6 harg6 arg7 harg7 arg8 harg8 arg9 harg9 arg10 harg10 hA hC q k v x d7).2.1, y ∈ pc.1.set :=
  View.cover_of_tiledL _ S512x1.size (by sl_kernel_rfl) y

theorem coverAcc_A (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S1x512x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (hA : condA i) (hC : ¬condC i)
    (q k v : Vec F S1x512x1024 .bf16) (x : Vec F S1x512x1024 .f32) (d7 : Vec F S1x512x1024 .f32) (y : S512x1024.Idx) :
    ∃ pc ∈ (kernelRun1_A c i arg3 harg3 arg4 harg4 arg5 harg5 arg6 harg6 arg7 harg7 arg8 harg8 arg9 harg9 arg10 harg10 hA hC q k v x d7).2.2.1, y ∈ pc.1.set :=
  View.cover_of_tiledL _ S512x1024.size (by sl_kernel_rfl) y

theorem coverM_B (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S1x512x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (hA : ¬condA i) (hC : ¬condC i)
    (q k v : Vec F S1x512x1024 .bf16) (x : Vec F S1x512x1024 .f32) (d7 : Vec F S1x512x1024 .f32) (pm pl : Vec F S512x1 .f32) (pa : Vec F S512x1024 .f32) (y : S512x1.Idx) :
    ∃ pc ∈ (kernelRun1_B c i arg3 harg3 arg4 harg4 arg5 harg5 arg6 harg6 arg7 harg7 arg8 harg8 arg9 harg9 arg10 harg10 hA hC q k v x d7 pm pl pa).1, y ∈ pc.1.set :=
  View.cover_of_tiledL _ S512x1.size (by sl_kernel_rfl) y

theorem coverL_B (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S1x512x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (hA : ¬condA i) (hC : ¬condC i)
    (q k v : Vec F S1x512x1024 .bf16) (x : Vec F S1x512x1024 .f32) (d7 : Vec F S1x512x1024 .f32) (pm pl : Vec F S512x1 .f32) (pa : Vec F S512x1024 .f32) (y : S512x1.Idx) :
    ∃ pc ∈ (kernelRun1_B c i arg3 harg3 arg4 harg4 arg5 harg5 arg6 harg6 arg7 harg7 arg8 harg8 arg9 harg9 arg10 harg10 hA hC q k v x d7 pm pl pa).2.1, y ∈ pc.1.set :=
  View.cover_of_tiledL _ S512x1.size (by sl_kernel_rfl) y

theorem coverAcc_B (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S1x512x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (hA : ¬condA i) (hC : ¬condC i)
    (q k v : Vec F S1x512x1024 .bf16) (x : Vec F S1x512x1024 .f32) (d7 : Vec F S1x512x1024 .f32) (pm pl : Vec F S512x1 .f32) (pa : Vec F S512x1024 .f32) (y : S512x1024.Idx) :
    ∃ pc ∈ (kernelRun1_B c i arg3 harg3 arg4 harg4 arg5 harg5 arg6 harg6 arg7 harg7 arg8 harg8 arg9 harg9 arg10 harg10 hA hC q k v x d7 pm pl pa).2.2.1, y ∈ pc.1.set :=
  View.cover_of_tiledL _ S512x1024.size (by sl_kernel_rfl) y

theorem coverO_C (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S1x512x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (hA : ¬condA i) (hC : condC i)
    (q k v : Vec F S1x512x1024 .bf16) (x : Vec F S1x512x1024 .f32) (pm pl : Vec F S512x1 .f32) (pa : Vec F S512x1024 .f32) (y : S1x512x1024.Idx) :
    ∃ pc ∈ (kernelRun1_C c i arg3 harg3 arg4 harg4 arg5 harg5 arg6 harg6 arg7 harg7 arg8 harg8 arg9 harg9 arg10 harg10 hA hC q k v x pm pl pa).1, y ∈ pc.1.set :=
  View.cover_of_tiledL _ S1x512x1024.size (by sl_kernel_rfl) y

theorem coverM_C (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S1x512x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (hA : ¬condA i) (hC : condC i)
    (q k v : Vec F S1x512x1024 .bf16) (x : Vec F S1x512x1024 .f32) (pm pl : Vec F S512x1 .f32) (pa : Vec F S512x1024 .f32) (y : S512x1.Idx) :
    ∃ pc ∈ (kernelRun1_C c i arg3 harg3 arg4 harg4 arg5 harg5 arg6 harg6 arg7 harg7 arg8 harg8 arg9 harg9 arg10 harg10 hA hC q k v x pm pl pa).2.1, y ∈ pc.1.set :=
  View.cover_of_tiledL _ S512x1.size (by sl_kernel_rfl) y

theorem coverL_C (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S1x512x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (hA : ¬condA i) (hC : condC i)
    (q k v : Vec F S1x512x1024 .bf16) (x : Vec F S1x512x1024 .f32) (pm pl : Vec F S512x1 .f32) (pa : Vec F S512x1024 .f32) (y : S512x1.Idx) :
    ∃ pc ∈ (kernelRun1_C c i arg3 harg3 arg4 harg4 arg5 harg5 arg6 harg6 arg7 harg7 arg8 harg8 arg9 harg9 arg10 harg10 hA hC q k v x pm pl pa).2.2.1, y ∈ pc.1.set :=
  View.cover_of_tiledL _ S512x1.size (by sl_kernel_rfl) y

theorem coverAcc_C (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S1x512x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (hA : ¬condA i) (hC : condC i)
    (q k v : Vec F S1x512x1024 .bf16) (x : Vec F S1x512x1024 .f32) (pm pl : Vec F S512x1 .f32) (pa : Vec F S512x1024 .f32) (y : S512x1024.Idx) :
    ∃ pc ∈ (kernelRun1_C c i arg3 harg3 arg4 harg4 arg5 harg5 arg6 harg6 arg7 harg7 arg8 harg8 arg9 harg9 arg10 harg10 hA hC q k v x pm pl pa).2.2.2.1, y ∈ pc.1.set :=
  View.cover_of_tiledL _ S512x1024.size (by sl_kernel_rfl) y

theorem pieceM_A (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S1x512x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (hA : condA i) (hC : ¬condC i) (q k v : Vec F S1x512x1024 .bf16) (x : Vec F S1x512x1024 .f32) (d7 : Vec F S1x512x1024 .f32) :
    View.canon (kernelRun1_A c i arg3 harg3 arg4 harg4 arg5 harg5 arg6 harg6 arg7 harg7 arg8 harg8 arg9 harg9 arg10 harg10 hA hC q k v x d7).1 = (Rec.step q k v Rec.st0).1 := by
  unfold kernelRun1_A
  dsimp only
  sl_unfold_words
  simp only [View.canon_cons_unit_zero (S := S512x1) hz2, View.canon_cons_unit_zero (S := S512x1024) hz2, View.canon_cons_unit_zero (S := S1x512x1024) hz3,
    View.readCov_unit_zero (S := S512x1) _ hz2, View.readCov_unit_zero (S := S512x1024) _ hz2,
    View.readAt_eq_ld, harg3.read_unread, harg4.read_unread, harg5.read_unread, harg6.read_unread, harg8.read_unread, harg9.read_unread, harg10.read_unread,
    View.ld_unit_zero (S := S1x512x1024) hz3, View.ld_unit_zero (S := S512x1) hz2, View.ld_unit_zero (S := S512x1024) hz2]
  rfl

theorem pieceL_A (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S1x512x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (hA : condA i) (hC : ¬condC i) (q k v : Vec F S1x512x1024 .bf16) (x : Vec F S1x512x1024 .f32) (d7 : Vec F S1x512x1024 .f32) :
    View.canon (kernelRun1_A c i arg3 harg3 arg4 harg4 arg5 harg5 arg6 harg6 arg7 harg7 arg8 harg8 arg9 harg9 arg10 harg10 hA hC q k v x d7).2.1 = (Rec.step q k v Rec.st0).2.1 := by
  unfold kernelRun1_A
  dsimp only
  sl_unfold_words
  simp only [View.canon_cons_unit_zero (S := S512x1) hz2, View.canon_cons_unit_zero (S := S512x1024) hz2, View.canon_cons_unit_zero (S := S1x512x1024) hz3,
    View.readCov_unit_zero (S := S512x1) _ hz2, View.readCov_unit_zero (S := S512x1024) _ hz2,
    View.readAt_eq_ld, harg3.read_unread, harg4.read_unread, harg5.read_unread, harg6.read_unread, harg8.read_unread, harg9.read_unread, harg10.read_unread,
    View.ld_unit_zero (S := S1x512x1024) hz3, View.ld_unit_zero (S := S512x1) hz2, View.ld_unit_zero (S := S512x1024) hz2]
  rfl

theorem pieceAcc_A (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S1x512x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (hA : condA i) (hC : ¬condC i) (q k v : Vec F S1x512x1024 .bf16) (x : Vec F S1x512x1024 .f32) (d7 : Vec F S1x512x1024 .f32) :
    View.canon (kernelRun1_A c i arg3 harg3 arg4 harg4 arg5 harg5 arg6 harg6 arg7 harg7 arg8 harg8 arg9 harg9 arg10 harg10 hA hC q k v x d7).2.2.1 = (Rec.step q k v Rec.st0).2.2 := by
  unfold kernelRun1_A
  dsimp only
  sl_unfold_words
  simp only [View.canon_cons_unit_zero (S := S512x1) hz2, View.canon_cons_unit_zero (S := S512x1024) hz2, View.canon_cons_unit_zero (S := S1x512x1024) hz3,
    View.readCov_unit_zero (S := S512x1) _ hz2, View.readCov_unit_zero (S := S512x1024) _ hz2,
    View.readAt_eq_ld, harg3.read_unread, harg4.read_unread, harg5.read_unread, harg6.read_unread, harg8.read_unread, harg9.read_unread, harg10.read_unread,
    View.ld_unit_zero (S := S1x512x1024) hz3, View.ld_unit_zero (S := S512x1) hz2, View.ld_unit_zero (S := S512x1024) hz2]
  rfl

theorem pieceM_B (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S1x512x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (hA : ¬condA i) (hC : ¬condC i) (q k v : Vec F S1x512x1024 .bf16) (x : Vec F S1x512x1024 .f32) (d7 : Vec F S1x512x1024 .f32) (pm pl : Vec F S512x1 .f32) (pa : Vec F S512x1024 .f32) :
    View.canon (kernelRun1_B c i arg3 harg3 arg4 harg4 arg5 harg5 arg6 harg6 arg7 harg7 arg8 harg8 arg9 harg9 arg10 harg10 hA hC q k v x d7 pm pl pa).1 = (Rec.step q k v (pm, pl, pa)).1 := by
  unfold kernelRun1_B
  dsimp only
  sl_unfold_words
  simp only [View.canon_cons_unit_zero (S := S512x1) hz2, View.canon_cons_unit_zero (S := S512x1024) hz2, View.canon_cons_unit_zero (S := S1x512x1024) hz3,
    View.readCov_unit_zero (S := S512x1) _ hz2, View.readCov_unit_zero (S := S512x1024) _ hz2,
    View.readAt_eq_ld, harg3.read_unread, harg4.read_unread, harg5.read_unread, harg6.read_unread, harg8.read_unread, harg9.read_unread, harg10.read_unread,
    View.ld_unit_zero (S := S1x512x1024) hz3, View.ld_unit_zero (S := S512x1) hz2, View.ld_unit_zero (S := S512x1024) hz2]
  rfl

theorem pieceL_B (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S1x512x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (hA : ¬condA i) (hC : ¬condC i) (q k v : Vec F S1x512x1024 .bf16) (x : Vec F S1x512x1024 .f32) (d7 : Vec F S1x512x1024 .f32) (pm pl : Vec F S512x1 .f32) (pa : Vec F S512x1024 .f32) :
    View.canon (kernelRun1_B c i arg3 harg3 arg4 harg4 arg5 harg5 arg6 harg6 arg7 harg7 arg8 harg8 arg9 harg9 arg10 harg10 hA hC q k v x d7 pm pl pa).2.1 = (Rec.step q k v (pm, pl, pa)).2.1 := by
  unfold kernelRun1_B
  dsimp only
  sl_unfold_words
  simp only [View.canon_cons_unit_zero (S := S512x1) hz2, View.canon_cons_unit_zero (S := S512x1024) hz2, View.canon_cons_unit_zero (S := S1x512x1024) hz3,
    View.readCov_unit_zero (S := S512x1) _ hz2, View.readCov_unit_zero (S := S512x1024) _ hz2,
    View.readAt_eq_ld, harg3.read_unread, harg4.read_unread, harg5.read_unread, harg6.read_unread, harg8.read_unread, harg9.read_unread, harg10.read_unread,
    View.ld_unit_zero (S := S1x512x1024) hz3, View.ld_unit_zero (S := S512x1) hz2, View.ld_unit_zero (S := S512x1024) hz2]
  rfl

theorem pieceAcc_B (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S1x512x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (hA : ¬condA i) (hC : ¬condC i) (q k v : Vec F S1x512x1024 .bf16) (x : Vec F S1x512x1024 .f32) (d7 : Vec F S1x512x1024 .f32) (pm pl : Vec F S512x1 .f32) (pa : Vec F S512x1024 .f32) :
    View.canon (kernelRun1_B c i arg3 harg3 arg4 harg4 arg5 harg5 arg6 harg6 arg7 harg7 arg8 harg8 arg9 harg9 arg10 harg10 hA hC q k v x d7 pm pl pa).2.2.1 = (Rec.step q k v (pm, pl, pa)).2.2 := by
  unfold kernelRun1_B
  dsimp only
  sl_unfold_words
  simp only [View.canon_cons_unit_zero (S := S512x1) hz2, View.canon_cons_unit_zero (S := S512x1024) hz2, View.canon_cons_unit_zero (S := S1x512x1024) hz3,
    View.readCov_unit_zero (S := S512x1) _ hz2, View.readCov_unit_zero (S := S512x1024) _ hz2,
    View.readAt_eq_ld, harg3.read_unread, harg4.read_unread, harg5.read_unread, harg6.read_unread, harg8.read_unread, harg9.read_unread, harg10.read_unread,
    View.ld_unit_zero (S := S1x512x1024) hz3, View.ld_unit_zero (S := S512x1) hz2, View.ld_unit_zero (S := S512x1024) hz2]
  rfl

theorem pieceO_C (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S1x512x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (hA : ¬condA i) (hC : condC i) (q k v : Vec F S1x512x1024 .bf16) (x : Vec F S1x512x1024 .f32) (pm pl : Vec F S512x1 .f32) (pa : Vec F S512x1024 .f32) :
    View.canon (kernelRun1_C c i arg3 harg3 arg4 harg4 arg5 harg5 arg6 harg6 arg7 harg7 arg8 harg8 arg9 harg9 arg10 harg10 hA hC q k v x pm pl pa).1 = Rec.fin (Rec.step q k v (pm, pl, pa)) x := by
  unfold kernelRun1_C
  dsimp only
  sl_unfold_words
  simp only [View.canon_cons_unit_zero (S := S512x1) hz2, View.canon_cons_unit_zero (S := S512x1024) hz2, View.canon_cons_unit_zero (S := S1x512x1024) hz3,
    View.readCov_unit_zero (S := S512x1) _ hz2, View.readCov_unit_zero (S := S512x1024) _ hz2,
    View.readAt_eq_ld, harg3.read_unread, harg4.read_unread, harg5.read_unread, harg6.read_unread, harg8.read_unread, harg9.read_unread, harg10.read_unread,
    View.ld_unit_zero (S := S1x512x1024) hz3, View.ld_unit_zero (S := S512x1) hz2, View.ld_unit_zero (S := S512x1024) hz2]
  rfl

theorem pieceM_C (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S1x512x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (hA : ¬condA i) (hC : condC i) (q k v : Vec F S1x512x1024 .bf16) (x : Vec F S1x512x1024 .f32) (pm pl : Vec F S512x1 .f32) (pa : Vec F S512x1024 .f32) :
    View.canon (kernelRun1_C c i arg3 harg3 arg4 harg4 arg5 harg5 arg6 harg6 arg7 harg7 arg8 harg8 arg9 harg9 arg10 harg10 hA hC q k v x pm pl pa).2.1 = (Rec.step q k v (pm, pl, pa)).1 := by
  unfold kernelRun1_C
  dsimp only
  sl_unfold_words
  simp only [View.canon_cons_unit_zero (S := S512x1) hz2, View.canon_cons_unit_zero (S := S512x1024) hz2, View.canon_cons_unit_zero (S := S1x512x1024) hz3,
    View.readCov_unit_zero (S := S512x1) _ hz2, View.readCov_unit_zero (S := S512x1024) _ hz2,
    View.readAt_eq_ld, harg3.read_unread, harg4.read_unread, harg5.read_unread, harg6.read_unread, harg8.read_unread, harg9.read_unread, harg10.read_unread,
    View.ld_unit_zero (S := S1x512x1024) hz3, View.ld_unit_zero (S := S512x1) hz2, View.ld_unit_zero (S := S512x1024) hz2]
  rfl

theorem pieceL_C (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S1x512x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (hA : ¬condA i) (hC : condC i) (q k v : Vec F S1x512x1024 .bf16) (x : Vec F S1x512x1024 .f32) (pm pl : Vec F S512x1 .f32) (pa : Vec F S512x1024 .f32) :
    View.canon (kernelRun1_C c i arg3 harg3 arg4 harg4 arg5 harg5 arg6 harg6 arg7 harg7 arg8 harg8 arg9 harg9 arg10 harg10 hA hC q k v x pm pl pa).2.2.1 = (Rec.step q k v (pm, pl, pa)).2.1 := by
  unfold kernelRun1_C
  dsimp only
  sl_unfold_words
  simp only [View.canon_cons_unit_zero (S := S512x1) hz2, View.canon_cons_unit_zero (S := S512x1024) hz2, View.canon_cons_unit_zero (S := S1x512x1024) hz3,
    View.readCov_unit_zero (S := S512x1) _ hz2, View.readCov_unit_zero (S := S512x1024) _ hz2,
    View.readAt_eq_ld, harg3.read_unread, harg4.read_unread, harg5.read_unread, harg6.read_unread, harg8.read_unread, harg9.read_unread, harg10.read_unread,
    View.ld_unit_zero (S := S1x512x1024) hz3, View.ld_unit_zero (S := S512x1) hz2, View.ld_unit_zero (S := S512x1024) hz2]
  rfl

theorem pieceAcc_C (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S1x512x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (hA : ¬condA i) (hC : condC i) (q k v : Vec F S1x512x1024 .bf16) (x : Vec F S1x512x1024 .f32) (pm pl : Vec F S512x1 .f32) (pa : Vec F S512x1024 .f32) :
    View.canon (kernelRun1_C c i arg3 harg3 arg4 harg4 arg5 harg5 arg6 harg6 arg7 harg7 arg8 harg8 arg9 harg9 arg10 harg10 hA hC q k v x pm pl pa).2.2.2.1 = (Rec.step q k v (pm, pl, pa)).2.2 := by
  unfold kernelRun1_C
  dsimp only
  sl_unfold_words
  simp only [View.canon_cons_unit_zero (S := S512x1) hz2, View.canon_cons_unit_zero (S := S512x1024) hz2, View.canon_cons_unit_zero (S := S1x512x1024) hz3,
    View.readCov_unit_zero (S := S512x1) _ hz2, View.readCov_unit_zero (S := S512x1024) _ hz2,
    View.readAt_eq_ld, harg3.read_unread, harg4.read_unread, harg5.read_unread, harg6.read_unread, harg8.read_unread, harg9.read_unread, harg10.read_unread,
    View.ld_unit_zero (S := S1x512x1024) hz3, View.ld_unit_zero (S := S512x1) hz2, View.ld_unit_zero (S := S512x1024) hz2]
  rfl

section Region1

variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not (the query and
    input blocks keep their index along the key-tile axis). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The carried state, point by point -/

/-- The carried state after the body at position n: one step from the start state at a row's first key tile,
    otherwise from what the position before left. -/
def scr (c : Dev nD) : (n : ℕ) → n < cfg1.N → Rec.St F
  | 0, h => Rec.step (iblk1 V c 0 ⟨0, h⟩) (iblk1 V c 1 ⟨0, h⟩) (iblk1 V c 2 ⟨0, h⟩) Rec.st0
  | n + 1, h => Rec.step (iblk1 V c 0 ⟨n + 1, h⟩) (iblk1 V c 1 ⟨n + 1, h⟩) (iblk1 V c 2 ⟨n + 1, h⟩)
      (if (n + 1) % 8 = 0 then Rec.st0 else scr c n (Nat.lt_of_succ_lt h))

theorem scr_first (c : Dev nD) (t : Fin cfg1.N) (h : t.val % 8 = 0) :
    scr V c t.val t.isLt = Rec.step (iblk1 V c 0 t) (iblk1 V c 1 t) (iblk1 V c 2 t) Rec.st0 := by
  obtain ⟨n, hn⟩ := t
  cases n with
  | zero => rfl
  | succ n =>
    show Rec.step _ _ _ (if (n + 1) % 8 = 0 then _ else _) = _
    rw [if_pos h]

theorem scr_next (c : Dev nD) (t : Fin cfg1.N) (h : ¬t.val % 8 = 0) :
    scr V c t.val t.isLt = Rec.step (iblk1 V c 0 t) (iblk1 V c 1 t) (iblk1 V c 2 t)
      (scr V c (t.val - 1) (Nat.lt_of_le_of_lt (Nat.sub_le _ _) t.isLt)) := by
  obtain ⟨n, hn⟩ := t
  cases n with
  | zero => exact absurd (Nat.zero_mod _) h
  | succ n =>
    show Rec.step _ _ _ (if (n + 1) % 8 = 0 then _ else _) = _
    rw [if_neg h]; rfl

/-! ## The invariant: the three scratch buffers at the carried state -/

abbrev scM0 : Memref sig .tc .vmem S512x1 .f32 := Memref.whole cc1_scratch0
abbrev scM1 : Memref sig .tc .vmem S512x1 .f32 := Memref.whole cc1_scratch1
abbrev scM2 : Memref sig .tc .vmem S512x1024 .f32 := Memref.whole cc1_scratch2

/-- A scoped buffer the kernel never touches (the projection kernel's staging buffers), whole at some contents. -/
abbrev oth (c : Dev nD) (b : Ref sig .tc) : sProp 𝕄 :=
  iprop(∃ f : Buf (Elt F) ((c : Thread nD τ).loc b), ((c : Thread nD τ).loc b) ↦{fullShare} f)

/-- What the region hands the body before the first point: every scoped buffer that is no staging buffer of this
    pipeline at anything — the scratch buffers as memrefs — and the generator register. -/
theorem PhiA1_eq (c : Dev nD) :
    (Pipeline.ΦA spec1 c : sProp 𝕄)
      = iprop((oth c cc0_stg0_0 ∗ oth c cc0_stg0_1 ∗ oth c cc0_stg1_0 ∗ oth c cc0_stg2_0 ∗ oth c cc0_stg3_0 ∗ oth c cc0_stg4_0 ∗ oth c cc0_stg4_1 ∗ oth c cc0_stg5_0 ∗ oth c cc0_stg5_1 ∗ oth c cc0_stg6_0 ∗ oth c cc0_stg6_1 ∗ (∃ d, owns (c : Thread nD τ) scM0 fullShare d) ∗ (∃ d, owns (c : Thread nD τ) scM1 fullShare d) ∗ (∃ d, owns (c : Thread nD τ) scM2 fullShare d)) ∗ (∃ r, prngReg c r)) := by
  unfold Pipeline.ΦA; rw [scopedRest1_eq]; simp only [scM0, scM1, scM2, owns_whole]; try rfl

/-- The region invariant before position n: before the first point what the region hands in; afterwards the scratch
    buffers at the state the position before left, the other scoped buffers at anything, the generator register. -/
def PhiS (c : Dev nD) : (n : ℕ) → n ≤ cfg1.N → sProp 𝕄
  | 0, _ => Pipeline.ΦA spec1 c
  | n + 1, hn => iprop((oth c cc0_stg0_0 ∗ oth c cc0_stg0_1 ∗ oth c cc0_stg1_0 ∗ oth c cc0_stg2_0 ∗ oth c cc0_stg3_0 ∗ oth c cc0_stg4_0 ∗ oth c cc0_stg4_1 ∗ oth c cc0_stg5_0 ∗ oth c cc0_stg5_1 ∗ oth c cc0_stg6_0 ∗ oth c cc0_stg6_1 ∗ owns (c : Thread nD τ) scM0 fullShare (scr V c n hn).1 ∗ owns (c : Thread nD τ) scM1 fullShare (scr V c n hn).2.1 ∗ owns (c : Thread nD τ) scM2 fullShare (scr V c n hn).2.2) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop((oth c cc0_stg0_0 ∗ oth c cc0_stg0_1 ∗ oth c cc0_stg1_0 ∗ oth c cc0_stg2_0 ∗ oth c cc0_stg3_0 ∗ oth c cc0_stg4_0 ∗ oth c cc0_stg4_1 ∗ oth c cc0_stg5_0 ∗ oth c cc0_stg5_1 ∗ oth c cc0_stg6_0 ∗ oth c cc0_stg6_1 ∗ owns (c : Thread nD τ) scM0 fullShare (scr V c n hn).1 ∗ owns (c : Thread nD τ) scM1 fullShare (scr V c n hn).2.1 ∗ owns (c : Thread nD τ) scM2 fullShare (scr V c n hn).2.2) ∗ (∃ r, prngReg c r)) := rfl

theorem PhiS_pos (c : Dev nD) (n : ℕ) (h : n ≤ cfg1.N) (hz : n ≠ 0) :
    PhiS V c n h = iprop((oth c cc0_stg0_0 ∗ oth c cc0_stg0_1 ∗ oth c cc0_stg1_0 ∗ oth c cc0_stg2_0 ∗ oth c cc0_stg3_0 ∗ oth c cc0_stg4_0 ∗ oth c cc0_stg4_1 ∗ oth c cc0_stg5_0 ∗ oth c cc0_stg5_1 ∗ oth c cc0_stg6_0 ∗ oth c cc0_stg6_1 ∗ owns (c : Thread nD τ) scM0 fullShare (scr V c (n - 1) (by omega)).1 ∗ owns (c : Thread nD τ) scM1 fullShare (scr V c (n - 1) (by omega)).2.1 ∗ owns (c : Thread nD τ) scM2 fullShare (scr V c (n - 1) (by omega)).2.2) ∗ (∃ r, prngReg c r)) := by
  cases n with
  | zero => exact absurd rfl hz
  | succ n => rfl

/-! ## The proof data -/

/-- The proof data of the attention pipeline on core c: the arrays as the region finds them; after the body each
    input's buffer at its block and the output's at the block written from the carried state (meaningful at a
    row's last key tile, the only point that writes it back); the invariant tracks the scratch buffers. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => Rec.fin (scr V c t.val t.isLt) (iblk1 V c 3 t)
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = Rec.fin (scr V c t.val t.isLt) (iblk1 V c 3 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation -/

/-- What the body is called with at point t, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 8000000 in
/-- The body at any point. The position mod 8 says which key tile this is. The input windows hold their blocks; the
    invariant hands the body the scratch buffers at the state the position before left (at anything before the first
    point; a row's first key tile overwrites them without reading) and takes them back at this position's state; away
    from the last key tile the output block is handed back as found, at it the block is the one written from the state. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS V c (t.val + 1) t.isLt from rfl, PhiS_succ]
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  rw [show (dat1 V c).leavesExact 2 t = owns (c : Thread nD τ) (st1_2 t) fullShare ((dat1 V c).after 2 t) from by
    unfold Dat.leavesExact; rw [liveAt1_2 t], after1_2]
  rw [show (dat1 V c).leavesExact 3 t = owns (c : Thread nD τ) (st1_3 t) fullShare ((dat1 V c).after 3 t) from by
    unfold Dat.leavesExact; rw [liveAt1_3 t], after1_3]
  have hN : t.val < 256 := lt_of_lt_of_eq t.isLt (show cfg1.N = 256 from N_1)
  by_cases h0 : t.val % 8 = 0
  · have hA : condA (grid1.coords t) := (hcondA t).mpr h0
    have hC : ¬condC (grid1.coords t) := fun h => by have := (hcondC t).mp h; omega
    rw [Dat.leavesExact_idle (dat1 V c) 4 t (idleAt1_4 t hC) (noFlush1_4 t hC)]
    rw [scr_first V c t h0]
    by_cases hz : t.val = 0
    · rw [PhiS_castSucc V c t, PhiS_zero V c _ _ hz, PhiA1_eq]
      iintro ⟨⟨⟨R1, R2, R3, R4, R5, R6, R7, R8, R9, R10, R11, ⟨%e0, HS0⟩, ⟨%e1, HS1⟩, ⟨%e2, HS2⟩⟩, Hg⟩, Ho, ⟨%d0, H0⟩, ⟨%d1, H1⟩, ⟨%d2, H2⟩, ⟨%d3, H3⟩, ⟨%d4, H4⟩⟩
      iapply ((kernelRun1_A c (grid1.coords t) _ _ _ _ _ _ _ _ _ _ _ _ _ _ _ _ hA hC (iblk1 V c 0 t) (iblk1 V c 1 t) (iblk1 V c 2 t) (iblk1 V c 3 t) ((dat1 V c).before 4 t d4)).2.2.2 Set.univ _)
      isplitl [H0]; · iexact H0
      isplitl [H1]; · iexact H1
      isplitl [H2]; · iexact H2
      isplitl [H3]; · iexact H3
      isplitl [H4]; · iexact H4
      isplitl [HS0]; · iexists _; iexact HS0
      isplitl [HS1]; · iexists _; iexact HS1
      isplitl [HS2]; · iexists _; iexact HS2
      iintro ⟨H0, H1, H2, H3, H4, ⟨%g0, HS0⟩, ⟨%g1, HS1⟩, ⟨%g2, HS2⟩⟩
      isplitl [R1 R2 R3 R4 R5 R6 R7 R8 R9 R10 R11 HS0 HS1 HS2 Hg]
      · isplitr [Hg]
        isplitl [R1]; · iexact R1
        isplitl [R2]; · iexact R2
        isplitl [R3]; · iexact R3
        isplitl [R4]; · iexact R4
        isplitl [R5]; · iexact R5
        isplitl [R6]; · iexact R6
        isplitl [R7]; · iexact R7
        isplitl [R8]; · iexact R8
        isplitl [R9]; · iexact R9
        isplitl [R10]; · iexact R10
        isplitl [R11]; · iexact R11
        isplitl [HS0]
        · unfold owns; iexists _; isplitr
          swap; · iexact HS0
          ipureintro
          exact (View.read_writes_eq_canon _ _ _ (coverM_A c (grid1.coords t) _ _ _ _ _ _ _ _ _ _ _ _ _ _ _ _ hA hC _ _ _ _ _)).trans (pieceM_A c (grid1.coords t) _ _ _ _ _ _ _ _ _ _ _ _ _ _ _ _ hA hC _ _ _ _ _)
        isplitl [HS1]
        · unfold owns; iexists _; isplitr
          swap; · iexact HS1
          ipureintro
          exact (View.read_writes_eq_canon _ _ _ (coverL_A c (grid1.coords t) _ _ _ _ _ _ _ _ _ _ _ _ _ _ _ _ hA hC _ _ _ _ _)).trans (pieceL_A c (grid1.coords t) _ _ _ _ _ _ _ _ _ _ _ _ _ _ _ _ hA hC _ _ _ _ _)
        unfold owns; iexists _; isplitr
        swap; · iexact HS2
        ipureintro
        exact (View.read_writes_eq_canon _ _ _ (coverAcc_A c (grid1.coords t) _ _ _ _ _ _ _ _ _ _ _ _ _ _ _ _ hA hC _ _ _ _ _)).trans (pieceAcc_A c (grid1.coords t) _ _ _ _ _ _ _ _ _ _ _ _ _ _ _ _ hA hC _ _ _ _ _)
        iexact Hg
      isplitl [Ho]; · iexact Ho
      isplitl [H0]; · iexact H0
      isplitl [H1]; · iexact H1
      isplitl [H2]; · iexact H2
      isplitl [H3]; · iexact H3
      iexists _; iexact H4
    · rw [PhiS_castSucc V c t, PhiS_pos V c _ _ hz]
      iintro ⟨⟨⟨R1, R2, R3, R4, R5, R6, R7, R8, R9, R10, R11, HS0, HS1, HS2⟩, Hg⟩, Ho, ⟨%d0, H0⟩, ⟨%d1, H1⟩, ⟨%d2, H2⟩, ⟨%d3, H3⟩, ⟨%d4, H4⟩⟩
      iapply ((kernelRun1_A c (grid1.coords t) _ _ _ _ _ _ _ _ _ _ _ _ _ _ _ _ hA hC (iblk1 V c 0 t) (iblk1 V c 1 t) (iblk1 V c 2 t) (iblk1 V c 3 t) ((dat1 V c).before 4 t d4)).2.2.2 Set.univ _)
      isplitl [H0]; · iexact H0
      isplitl [H1]; · iexact H1
      isplitl [H2]; · iexact H2
      isplitl [H3]; · iexact H3
      isplitl [H4]; · iexact H4
      isplitl [HS0]; · iexists _; iexact HS0
      isplitl [HS1]; · iexists _; iexact HS1
      isplitl [HS2]; · iexists _; iexact HS2
      iintro ⟨H0, H1, H2, H3, H4, ⟨%g0, HS0⟩, ⟨%g1, HS1⟩, ⟨%g2, HS2⟩⟩
      isplitl [R1 R2 R3 R4 R5 R6 R7 R8 R9 R10 R11 HS0 HS1 HS2 Hg]
      · isplitr [Hg]
        isplitl [R1]; · iexact R1
        isplitl [R2]; · iexact R2
        isplitl [R3]; · iexact R3
        isplitl [R4]; · iexact R4
        isplitl [R5]; · iexact R5
        isplitl [R6]; · iexact R6
        isplitl [R7]; · iexact R7
        isplitl [R8]; · iexact R8
        isplitl [R9]; · iexact R9
        isplitl [R10]; · iexact R10
        isplitl [R11]; · iexact R11
        isplitl [HS0]
        · unfold owns; iexists _; isplitr
          swap; · iexact HS0
          ipureintro
          exact (View.read_writes_eq_canon _ _ _ (coverM_A c (grid1.coords t) _ _ _ _ _ _ _ _ _ _ _ _ _ _ _ _ hA hC _ _ _ _ _)).trans (pieceM_A c (grid1.coords t) _ _ _ _ _ _ _ _ _ _ _ _ _ _ _ _ hA hC _ _ _ _ _)
        isplitl [HS1]
        · unfold owns; iexists _; isplitr
          swap; · iexact HS1
          ipureintro
          exact (View.read_writes_eq_canon _ _ _ (coverL_A c (grid1.coords t) _ _ _ _ _ _ _ _ _ _ _ _ _ _ _ _ hA hC _ _ _ _ _)).trans (pieceL_A c (grid1.coords t) _ _ _ _ _ _ _ _ _ _ _ _ _ _ _ _ hA hC _ _ _ _ _)
        unfold owns; iexists _; isplitr
        swap; · iexact HS2
        ipureintro
        exact (View.read_writes_eq_canon _ _ _ (coverAcc_A c (grid1.coords t) _ _ _ _ _ _ _ _ _ _ _ _ _ _ _ _ hA hC _ _ _ _ _)).trans (pieceAcc_A c (grid1.coords t) _ _ _ _ _ _ _ _ _ _ _ _ _ _ _ _ hA hC _ _ _ _ _)
        iexact Hg
      isplitl [Ho]; · iexact Ho
      isplitl [H0]; · iexact H0
      isplitl [H1]; · iexact H1
      isplitl [H2]; · iexact H2
      isplitl [H3]; · iexact H3
      iexists _; iexact H4
  · have hA : ¬condA (grid1.coords t) := fun h => h0 ((hcondA t).mp h)
    have hz : t.val ≠ 0 := fun h => h0 (by rw [h])
    by_cases h7 : t.val % 8 = 7
    · have hC : condC (grid1.coords t) := (hcondC t).mpr h7
      rw [show (dat1 V c).leavesExact 4 t = owns (c : Thread nD τ) (st1_4 t) fullShare ((dat1 V c).after 4 t) from by
        unfold Dat.leavesExact; rw [liveAt1_4 t hC], after1_4]
      rw [scr_next V c t h0]
      rw [PhiS_castSucc V c t, PhiS_pos V c _ _ hz]
      iintro ⟨⟨⟨R1, R2, R3, R4, R5, R6, R7, R8, R9, R10, R11, HS0, HS1, HS2⟩, Hg⟩, Ho, ⟨%d0, H0⟩, ⟨%d1, H1⟩, ⟨%d2, H2⟩, ⟨%d3, H3⟩, ⟨%d4, H4⟩⟩
      iapply ((kernelRun1_C c (grid1.coords t) _ _ _ _ _ _ _ _ _ _ _ _ _ _ _ _ hA hC (iblk1 V c 0 t) (iblk1 V c 1 t) (iblk1 V c 2 t) (iblk1 V c 3 t) (scr V c (t.val - 1) (Nat.lt_of_le_of_lt (Nat.sub_le _ _) t.isLt)).1 (scr V c (t.val - 1) (Nat.lt_of_le_of_lt (Nat.sub_le _ _) t.isLt)).2.1 (scr V c (t.val - 1) (Nat.lt_of_le_of_lt (Nat.sub_le _ _) t.isLt)).2.2).2.2.2.2 Set.univ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      isplitl [HS2]; · iexact HS2
      iintro ⟨H0, H1, H2, H3, ⟨%g7, H4⟩, ⟨%g0, HS0⟩, ⟨%g1, HS1⟩, ⟨%g2, HS2⟩⟩
      isplitl [R1 R2 R3 R4 R5 R6 R7 R8 R9 R10 R11 HS0 HS1 HS2 Hg]
      · isplitr [Hg]
        isplitl [R1]; · iexact R1
        isplitl [R2]; · iexact R2
        isplitl [R3]; · iexact R3
        isplitl [R4]; · iexact R4
        isplitl [R5]; · iexact R5
        isplitl [R6]; · iexact R6
        isplitl [R7]; · iexact R7
        isplitl [R8]; · iexact R8
        isplitl [R9]; · iexact R9
        isplitl [R10]; · iexact R10
        isplitl [R11]; · iexact R11
        isplitl [HS0]
        · unfold owns; iexists _; isplitr
          swap; · iexact HS0
          ipureintro
          exact (View.read_writes_eq_canon _ _ _ (coverM_C c (grid1.coords t) _ _ _ _ _ _ _ _ _ _ _ _ _ _ _ _ hA hC _ _ _ _ _ _ _)).trans (pieceM_C c (grid1.coords t) _ _ _ _ _ _ _ _ _ _ _ _ _ _ _ _ hA hC _ _ _ _ _ _ _)
        isplitl [HS1]
        · unfold owns; iexists _; isplitr
          swap; · iexact HS1
          ipureintro
          exact (View.read_writes_eq_canon _ _ _ (coverL_C c (grid1.coords t) _ _ _ _ _ _ _ _ _ _ _ _ _ _ _ _ hA hC _ _ _ _ _ _ _)).trans (pieceL_C c (grid1.coords t) _ _ _ _ _ _ _ _ _ _ _ _ _ _ _ _ hA hC _ _ _ _ _ _ _)
        unfold owns; iexists _; isplitr
        swap; · iexact HS2
        ipureintro
        exact (View.read_writes_eq_canon _ _ _ (coverAcc_C c (grid1.coords t) _ _ _ _ _ _ _ _ _ _ _ _ _ _ _ _ hA hC _ _ _ _ _ _ _)).trans (pieceAcc_C c (grid1.coords t) _ _ _ _ _ _ _ _ _ _ _ _ _ _ _ _ hA hC _ _ _ _ _ _ _)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro
      exact (View.read_writes_eq_canon _ _ _ (coverO_C c (grid1.coords t) _ _ _ _ _ _ _ _ _ _ _ _ _ _ _ _ hA hC _ _ _ _ _ _ _)).trans (pieceO_C c (grid1.coords t) _ _ _ _ _ _ _ _ _ _ _ _ _ _ _ _ hA hC _ _ _ _ _ _ _)
    · have hC : ¬condC (grid1.coords t) := fun h => h7 ((hcondC t).mp h)
      rw [Dat.leavesExact_idle (dat1 V c) 4 t (idleAt1_4 t hC) (noFlush1_4 t hC)]
      rw [scr_next V c t h0]
      rw [PhiS_castSucc V c t, PhiS_pos V c _ _ hz]
      iintro ⟨⟨⟨R1, R2, R3, R4, R5, R6, R7, R8, R9, R10, R11, HS0, HS1, HS2⟩, Hg⟩, Ho, ⟨%d0, H0⟩, ⟨%d1, H1⟩, ⟨%d2, H2⟩, ⟨%d3, H3⟩, ⟨%d4, H4⟩⟩
      iapply ((kernelRun1_B c (grid1.coords t) _ _ _ _ _ _ _ _ _ _ _ _ _ _ _ _ hA hC (iblk1 V c 0 t) (iblk1 V c 1 t) (iblk1 V c 2 t) (iblk1 V c 3 t) ((dat1 V c).before 4 t d4) (scr V c (t.val - 1) (Nat.lt_of_le_of_lt (Nat.sub_le _ _) t.isLt)).1 (scr V c (t.val - 1) (Nat.lt_of_le_of_lt (Nat.sub_le _ _) t.isLt)).2.1 (scr V c (t.val - 1) (Nat.lt_of_le_of_lt (Nat.sub_le _ _) t.isLt)).2.2).2.2.2 Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      iintro ⟨H0, H1, H2, H3, H4, ⟨%g0, HS0⟩, ⟨%g1, HS1⟩, ⟨%g2, HS2⟩⟩
      isplitl [R1 R2 R3 R4 R5 R6 R7 R8 R9 R10 R11 HS0 HS1 HS2 Hg]
      · isplitr [Hg]
        isplitl [R1]; · iexact R1
        isplitl [R2]; · iexact R2
        isplitl [R3]; · iexact R3
        isplitl [R4]; · iexact R4
        isplitl [R5]; · iexact R5
        isplitl [R6]; · iexact R6
        isplitl [R7]; · iexact R7
        isplitl [R8]; · iexact R8
        isplitl [R9]; · iexact R9
        isplitl [R10]; · iexact R10
        isplitl [R11]; · iexact R11
        isplitl [HS0]
        · unfold owns; iexists _; isplitr
          swap; · iexact HS0
          ipureintro
          exact (View.read_writes_eq_canon _ _ _ (coverM_B c (grid1.coords t) _ _ _ _ _ _ _ _ _ _ _ _ _ _ _ _ hA hC _ _ _ _ _ _ _ _)).trans (pieceM_B c (grid1.coords t) _ _ _ _ _ _ _ _ _ _ _ _ _ _ _ _ hA hC _ _ _ _ _ _ _ _)
        isplitl [HS1]
        · unfold owns; iexists _; isplitr
          swap; · iexact HS1
          ipureintro
          exact (View.read_writes_eq_canon _ _ _ (coverL_B c (grid1.coords t) _ _ _ _ _ _ _ _ _ _ _ _ _ _ _ _ hA hC _ _ _ _ _ _ _ _)).trans (pieceL_B c (grid1.coords t) _ _ _ _ _ _ _ _ _ _ _ _ _ _ _ _ hA hC _ _ _ _ _ _ _ _)
        unfold owns; iexists _; isplitr
        swap; · iexact HS2
        ipureintro
        exact (View.read_writes_eq_canon _ _ _ (coverAcc_B c (grid1.coords t) _ _ _ _ _ _ _ _ _ _ _ _ _ _ _ _ hA hC _ _ _ _ _ _ _ _)).trans (pieceAcc_B c (grid1.coords t) _ _ _ _ _ _ _ _ _ _ _ _ _ _ _ _ hA hC _ _ _ _ _ _ _ _)
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- After the last point the invariant gives back what the region handed in: the scratch contents are forgotten. -/
theorem Phi_out1 (c : Dev nD) : (dat1 V c).Φ (Fin.last cfg1.N) ⊢ Pipeline.ΦA spec1 c := by
  rw [show (dat1 V c).Φ (Fin.last cfg1.N) = PhiS V c (Fin.last cfg1.N).val (Nat.le_of_lt_succ (Fin.last cfg1.N).isLt) from rfl,
    PhiS_pos V c _ _ (by rw [Fin.val_last]; have : cfg1.N = 256 := N_1; omega), PhiA1_eq]
  iintro ⟨⟨R1, R2, R3, R4, R5, R6, R7, R8, R9, R10, R11, HS0, HS1, HS2⟩, Hg⟩
  isplitr [Hg]
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  isplitl [R9]; · iexact R9
  isplitl [R10]; · iexact R10
  isplitl [R11]; · iexact R11
  isplitl [HS0]; · iexists _; iexact HS0
  isplitl [HS1]; · iexists _; iexact HS1
  iexists _; iexact HS2
  iexact Hg

end Region1

end Cert.KernelIdeal.Fr

end
-- ==== Proof.FrIRun.lean ====
/-
  The run of the whole program: the contents of the core's buffers at each boundary between a stretch of host
  operations and a kernel region (a fold from the launch memory: a stretch applies its operations, a region leaves
  its arrays at what its write-backs make of them), the two regions as segments over the thread state "every
  unscoped buffer at the boundary's contents", and the run from the launch to the return: it terminates, faults
  nowhere, leaves the four arguments as launched and the result array at what the attention region's write-backs
  make of it.
-/
import proofs.«110892_j22204980920987_1_alg».proof.Proof.Gen.KernelIdeal.Launch
import proofs.«110892_j22204980920987_1_alg».proof.Proof.Gen.KernelIdeal.Skeleton
import proofs.«110892_j22204980920987_1_alg».proof.Proof.Gen.KernelIdeal.Points
import proofs.«110892_j22204980920987_1_alg».proof.Proof.Gen.KernelIdeal.Regions
import proofs.«110892_j22204980920987_1_alg».proof.Proof.FrI0
import proofs.«110892_j22204980920987_1_alg».proof.Proof.FrI1b
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core c's buffers at launch. -/
abbrev W0 : Dev nD → Valuation τ sig (Elt F) := fun c b => (s₀ m ρ).mem ((c : Dev nD), b)
/-- After the first host stretch (the transposes and the flattening): the projection region's entry. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the projection region's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch (the three reshapes): the attention region's entry. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At the attention region's exit. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ## The arguments end as launched, and the result is the attention region's array -/

/-- A buffer neither stretch writes and the projection region does not stage keeps its launch contents up to the
    attention region's entry. -/
theorem W3_of_untouched (c : Dev nD) (b : Ref sig .tc) (h0 : b ∉ hostOps0_W) (h1 : b ∉ hostOps1_W) (hs : ∀ w, Pipeline.arrRef spec0 w ≠ b) :
    W3 m ρ c (Proc.devRef .tc b) = m ((c : Thread nD τ).loc b) :=
  calc W3 m ρ c (Proc.devRef .tc b)
    _ = W2 m ρ c (Proc.devRef .tc b) := StableHlo.after_of_writes_sub hostOps1 _ hostOps1_writes h1
    _ = W1 m ρ c (Proc.devRef .tc b) := W2_of_ne m ρ c b hs
    _ = W0 m ρ c (Proc.devRef .tc b) := StableHlo.after_of_writes_sub hostOps0 _ hostOps0_writes h0
    _ = m ((c : Thread nD τ).loc b) := rfl

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := (W4_arr m ρ c 3).trans (((dat1 (V3 m ρ) c).arrAt_in 3 rfl _).trans (A_eq1 (V3 m ρ) c 3))
    _ = m ((c : Thread nD τ).loc main_arg0) := W3_of_untouched m ρ c main_arg0 (by decide) (by decide) (by decide)
theorem W4_main_arg1 (c : Dev nD) : W4 m ρ c (Proc.devRef .tc main_arg1) = m ((c : Thread nD τ).loc main_arg1) :=
  (W4_of_ne m ρ c main_arg1 (by decide)).trans (W3_of_untouched m ρ c main_arg1 (by decide) (by decide) (by decide))
theorem W4_main_arg2 (c : Dev nD) : W4 m ρ c (Proc.devRef .tc main_arg2) = m ((c : Thread nD τ).loc main_arg2) :=
  (W4_of_ne m ρ c main_arg2 (by decide)).trans (W3_of_untouched m ρ c main_arg2 (by decide) (by decide) (by decide))
theorem W4_main_arg3 (c : Dev nD) : W4 m ρ c (Proc.devRef .tc main_arg3) = m ((c : Thread nD τ).loc main_arg3) :=
  (W4_of_ne m ρ c main_arg3 (by decide)).trans (W3_of_untouched m ρ c main_arg3 (by decide) (by decide) (by decide))
/-- The result array at the end is what the attention region's write-backs leave. -/
theorem W4_main_v8 (c : Dev nD) : W4 m ρ c (Proc.devRef .tc main_v8) = (dat1 (V3 m ρ) c).arrAt 4 cfg1.N :=
  W4_arr m ρ c 4

/-! ## The proof data family and the thread state -/

abbrev adm' : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm' p) c
  | ⟨0, _⟩ => fun c => dat0 (V1 m ρ) c
  | ⟨1, _⟩ => fun c => dat1 (V3 m ρ) c
abbrev 𝒱₀ : Variants := Variants.none
abbrev L₀ : GSem nD τ sig → Finset Unit := fun _ => ∅
abbrev lv₀ : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L₀ lv₀ :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- The projection region over the thread state: entered from every unscoped buffer at W1, left at W2. -/
def reg0 : Pipeline.RegionSeg (pcfgs (F := F)) adm' (pdats m ρ) () defs₀ 𝒱₀ L₀ lv₀ 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L₀ lv₀ 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm' (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm' (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention region over the thread state: entered from every unscoped buffer at W3, left at W4; its invariant
    starts at what the region hands in and gives that back after the last point. -/
def reg1 : Pipeline.RegionSeg (pcfgs (F := F)) adm' (pdats m ρ) () defs₀ 𝒱₀ L₀ lv₀ 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L₀ lv₀ 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm' (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m ρ 1 c).Φ (Fin.last _) ⊢ Pipeline.ΦA spec1 c from Phi_out1 (V3 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm' (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the run -/

abbrev segs : List (Pipeline.Seg (pcfgs (F := F)) adm' (pdats m ρ) () defs₀ 𝒱₀ L₀ lv₀) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (segs m ρ) := (main_chain c).trans (by chain_rfl)

set_option backward.isDefEq.respectTransparency.types false in
/-- THE RUN. From any memory with zero counters every weakly fair execution of the program terminates, nothing
    faulting, and every final state has the result array at what the attention region's write-backs leave and the
    four argument arrays as launched. -/
theorem run_all : θ_run defs (onTc (τ := τ) (main (F := F))) ⟨m, fun _ => 0, ρ⟩ (fun r => ∀ c : Dev nD,
      r.2.mem ((c.tc : Thread nD τ).loc main_v8) = (dat1 (V3 m ρ) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm' (pdats m ρ) () cellOf_inj emb₁ defs₀ 𝒱₀ L₀ lv₀ m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L₀ lv₀ fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨(h c _ (mem_uc main_v8 (by decide))).trans (W4_main_v8 m ρ c),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c)⟩)

/-- The frame claim's post from the run's. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => (h c).2) (run_all m ρ)

end Cert.KernelIdeal.Fr

end
-- ==== Proof.Spec.lean ====
/-
  The function both programs compute, written once over the reals with explicit coordinates
  (batch b < 4, sequence positions s, t < 4096, features d, e < 1024).

  Each of the three projections is a row of x against a row of the weight, q = x Wqᵀ, k = x Wkᵀ, v = x Wvᵀ.
  A score is a query row against a key row. A row of scores is turned into weights by subtracting the
  row's maximum and exponentiating; the weights are divided by their sum; the attended row is the
  weighted sum of the value rows; the input row is added back; and the row is divided by its Euclidean
  norm. Only the last division is kept on the extended reals (a zero row divides by zero, and both
  programs then perform that same division); everything before it is a real number when the inputs are.
-/
import Idealize.ShloMosaic.PureOps.Ideal
import Idealize.ShloMosaic.Lib.ValueIdx

noncomputable section

namespace Cert.Attn

open Idealize.ShloMosaic

variable (x : Fin 4 → Fin 4096 → Fin 1024 → ℝ) (wq wk wv : Fin 1024 → Fin 1024 → ℝ)

/-- Row `s` of batch `b` projected on row `e` of a weight matrix: `(x Wᵀ)[b, s, e]`. -/
def proj (w : Fin 1024 → Fin 1024 → ℝ) (b : Fin 4) (s : Fin 4096) (e : Fin 1024) : ℝ :=
  ∑ d : Fin 1024, x b s d * w e d

/-- The score of query position `s` against key position `t`. -/
def score (b : Fin 4) (s t : Fin 4096) : ℝ :=
  ∑ e : Fin 1024, proj x wq b s e * proj x wk b t e

/-- The largest score of a query row. -/
def rowMax (b : Fin 4) (s : Fin 4096) : ℝ :=
  Finset.univ.sup' Finset.univ_nonempty fun t : Fin 4096 => score x wq wk b s t

/-- The unnormalised weight of key `t` for query `s`: the exponential of the score less the row's maximum. -/
def weight (b : Fin 4) (s t : Fin 4096) : ℝ :=
  Real.exp (score x wq wk b s t - rowMax x wq wk b s)

/-- The sum of a query row's weights (at least 1: the maximal score contributes `exp 0`). -/
def denom (b : Fin 4) (s : Fin 4096) : ℝ :=
  ∑ t : Fin 4096, weight x wq wk b s t

/-- The attended row: the value rows averaged with the normalised weights. -/
def attended (b : Fin 4) (s : Fin 4096) (d : Fin 1024) : ℝ :=
  ∑ t : Fin 4096, weight x wq wk b s t / denom x wq wk b s * proj x wv b t d

/-- The attended row with the input row added back. -/
def resid (b : Fin 4) (s : Fin 4096) (d : Fin 1024) : ℝ :=
  attended x wq wk wv b s d + x b s d

/-- The squared Euclidean norm of that row. -/
def sumsq (b : Fin 4) (s : Fin 4096) : ℝ :=
  ∑ d : Fin 1024, resid x wq wk wv b s d * resid x wq wk wv b s d

/-- The result: the row divided by its norm, the one division kept on the extended reals. -/
def out (b : Fin 4) (s : Fin 4096) (d : Fin 1024) : EReal :=
  Ideal.div ((resid x wq wk wv b s d : ℝ) : EReal) (Ideal.sqrt ((sumsq x wq wk wv b s : ℝ) : EReal))

end Cert.Attn

end
-- ==== Proof.LibERealAlgebra.lean ====
/- General facts about the extended reals as the exact ("ideal") reading of float programs uses them: sums,
   quotients and square roots of finite values stay finite and are the real operations; a few float words as the
   exact reals they denote; and two finite-sum identities over the reals. -/
import Idealize.ShloMosaic.PureOps.Ideal
import Idealize.ShloMosaic.PureOps.Ideal.Laws
import Mathlib.Data.EReal.Inv
import Mathlib.Analysis.SpecialFunctions.Pow.Real
import Mathlib.Algebra.BigOperators.Group.Finset.Basic
import Mathlib.Tactic

noncomputable section

namespace Cert.LibEReal

open Idealize.ShloMosaic
open scoped BigOperators

/-- A finite sum of finite extended reals is the (finite) real sum. -/
theorem coe_sum {ι : Type*} (s : Finset ι) (f : ι → ℝ) :
    (∑ k ∈ s, ((f k : ℝ) : EReal)) = ((∑ k ∈ s, f k : ℝ) : EReal) := by
  classical
  induction s using Finset.induction_on with
  | empty => simp
  | insert a s ha ih => rw [Finset.sum_insert ha, Finset.sum_insert ha, ih, EReal.coe_add]

/-- The quotient of two finite values by a nonzero divisor is the real quotient. -/
theorem div_coe' (a b : ℝ) (hb : b ≠ 0) : Ideal.div (a : EReal) (b : EReal) = ((a / b : ℝ) : EReal) := by
  rw [Ideal.div_coe hb, ← EReal.coe_mul, mul_one_div]

/-- The square root of a nonnegative finite value is the real square root. -/
theorem sqrt_coe (x : ℝ) (hx : 0 ≤ x) : Ideal.sqrt (x : EReal) = ((Real.sqrt x : ℝ) : EReal) := by
  rw [Ideal.sqrt_coe, if_neg (not_lt.mpr hx)]

/-- The reciprocal square root of a positive finite value is the reciprocal of the real square root. -/
theorem rsqrt_coe (x : ℝ) (hx : 0 < x) : Ideal.rsqrt (x : EReal) = (((Real.sqrt x)⁻¹ : ℝ) : EReal) := by
  rw [Ideal.rsqrt_coe, if_neg (not_lt.mpr hx.le), if_neg hx.ne']

/-- Multiplying by the reciprocal square root of a positive value is dividing by its square root. -/
theorem mul_rsqrt_eq_div_sqrt (a x : ℝ) (hx : 0 < x) :
    (a : EReal) * Ideal.rsqrt (x : EReal) = Ideal.div (a : EReal) (Ideal.sqrt (x : EReal)) := by
  have hs : Real.sqrt x ≠ 0 := (Real.sqrt_pos.mpr hx).ne'
  rw [rsqrt_coe x hx, sqrt_coe x hx.le, div_coe' a _ hs, ← EReal.coe_mul, div_eq_mul_inv]

/-- The float word `0x3F800000` denotes `1`. -/
theorem ofBits_one : Ideal.ofBits .f32 0x3F800000#32 = 1 := by
  simp [Ideal.ofBits, Ideal.ieee, -EReal.coe_mul]; norm_num

/-- The float word `0x46800000` denotes `16384 = 2 ^ 14`. -/
theorem ofBits_16384 : Ideal.ofBits .f32 0x46800000#32 = ((16384 : ℝ) : EReal) := by
  simp [Ideal.ofBits, Ideal.ieee, -EReal.coe_mul]; norm_num

/-- The float word `0x3727C5AC` (the float nearest `1e-5`) denotes a positive real, `10995116 · 2 ^ (-40)`. -/
theorem ofBits_eps : ∃ e : ℝ, 0 < e ∧ Ideal.ofBits .f32 0x3727C5AC#32 = (e : EReal) := by
  refine ⟨(10995116 : ℝ) * (2 : ℝ) ^ (-40 : ℤ), by positivity, ?_⟩
  simp [Ideal.ofBits, Ideal.ieee, -EReal.coe_mul]

/-- The float word `0x3C23D70A` (the float nearest `0.01`) denotes a real, `10737418 · 2 ^ (-30)`. -/
theorem ofBits_slope : ∃ s : ℝ, Ideal.ofBits .f32 0x3C23D70A#32 = (s : EReal) := by
  refine ⟨(10737418 : ℝ) * (2 : ℝ) ^ (-30 : ℤ), ?_⟩
  simp [Ideal.ofBits, Ideal.ieee, -EReal.coe_mul]

/-- Adding a self-loop (a `1` on the diagonal) to row `i` raises its row sum by `1`. -/
theorem rowsum_selfloop {n : ℕ} (g : Fin n → ℝ) (i : Fin n) :
    ∑ j, (g j + if i = j then 1 else 0) = (∑ j, g j) + 1 := by
  rw [Finset.sum_add_distrib, Finset.sum_ite_eq Finset.univ i (fun _ => (1 : ℝ)), if_pos (Finset.mem_univ i)]

/-- Row `i` of the symmetrically normalised matrix `D (G + I) D` applied to `hp`: the scale `d i` comes out of the
    sum, and the diagonal `1` contributes the single term `d i * hp i`. -/
theorem normalized_product {n : ℕ} (g d hp : Fin n → ℝ) (i : Fin n) :
    ∑ j, (((g j + if i = j then 1 else 0) * d i) * d j) * hp j
      = d i * ((∑ j, g j * (d j * hp j)) + d i * hp i) := by
  have h : ∀ j, (((g j + if i = j then 1 else 0) * d i) * d j) * hp j
      = d i * (g j * (d j * hp j)) + (if i = j then d i * (d j * hp j) else 0) := by
    intro j
    split_ifs <;> ring
  rw [Finset.sum_congr rfl (fun j _ => h j), Finset.sum_add_distrib, ← Finset.mul_sum,
    Finset.sum_ite_eq Finset.univ i (fun j => d i * (d j * hp j)), if_pos (Finset.mem_univ i)]
  ring

/-- The sum of two finite values is the real sum (the coercion pushed outward). -/
theorem coe_add (a b : ℝ) : (a : EReal) + (b : EReal) = ((a + b : ℝ) : EReal) := (EReal.coe_add a b).symm

/-- The difference of two finite values is the real difference (the coercion pushed outward). -/
theorem coe_sub (a b : ℝ) : (a : EReal) - (b : EReal) = ((a - b : ℝ) : EReal) := (EReal.coe_sub a b).symm

/-- The product of two finite values is the real product (the coercion pushed outward). -/
theorem coe_mul (a b : ℝ) : (a : EReal) * (b : EReal) = ((a * b : ℝ) : EReal) := (EReal.coe_mul a b).symm

/-- The negative of a finite value is the real negative (the coercion pushed outward). -/
theorem coe_neg (a : ℝ) : -(a : EReal) = ((-a : ℝ) : EReal) := (EReal.coe_neg a).symm

/-- A mean of squares (over `16384` terms' worth) is nonnegative. -/
theorem sum_sq_div_nonneg {n : ℕ} (f : Fin n → ℝ) : 0 ≤ (∑ k, f k * f k) / 16384 :=
  div_nonneg (Finset.sum_nonneg fun k _ => mul_self_nonneg (f k)) (by norm_num)

/-- A mean of squares plus a positive constant is positive. -/
theorem sum_sq_div_add_pos {n : ℕ} (f : Fin n → ℝ) {e : ℝ} (he : 0 < e) : 0 < (∑ k, f k * f k) / 16384 + e :=
  add_pos_of_nonneg_of_pos (sum_sq_div_nonneg f) he

end Cert.LibEReal

end
-- ==== Proof.RefValue.lean ====
/-
  The reference's result, read one operation at a time at an index, is the common function of Spec.lean.
-/
import proofs.«110892_j22204980920987_1_alg».proof.Defs
import proofs.«110892_j22204980920987_1_alg».proof.Proof.Gen.ReferenceIdeal.Run
import proofs.«110892_j22204980920987_1_alg».proof.Proof.Gen.ReferenceIdeal.Read
import proofs.«110892_j22204980920987_1_alg».proof.Proof.Spec
import proofs.«110892_j22204980920987_1_alg».proof.Proof.LibERealAlgebra
import Idealize.ShloMosaic.PureOps.Ideal.Laws
import Idealize.ShloMosaic.Lib.ValueIdx
import Idealize.ShloMosaic.Lib.StableHlo.Run

noncomputable section

namespace Cert.ReferenceIdeal.RefValue

open Cert.ReferenceIdeal Cert.ReferenceIdeal.Read Idealize.ShloMosaic Idealize.ShloMosaic.TcCoe Idealize.SL.Sem Idealize.ShloMosaic.StableHlo
open Idealize.ShloMosaic.ValueIdx
open scoped BigOperators

section Stages

variable (x : Fin 4 → Fin 4096 → Fin 1024 → ℝ) (wq wk wv : Fin 1024 → Fin 1024 → ℝ)
  (X : (⟨S4x4096x1024, .f32⟩ : BufTy).Contents (Elt Ideal))
  (WQ WK WV : (⟨S1024x1024, .f32⟩ : BufTy).Contents (Elt Ideal))

/-- A finite sum of products of finite values is the real sum of products. -/
theorem sum_mul_coe {ι : Type*} [Fintype ι] (f g : ι → ℝ) :
    (∑ k, ((f k : ℝ) : EReal) * ((g k : ℝ) : EReal)) = ((∑ k, f k * g k : ℝ) : EReal) := by
  rw [← Cert.LibEReal.coe_sum]
  exact Finset.sum_congr rfl fun k _ => Cert.LibEReal.coe_mul _ _

/-- A projection at (b, s, e): row s of batch b against row e of the weight. -/
theorem proj_at (W : (⟨S1024x1024, .f32⟩ : BufTy).Contents (Elt Ideal)) (w : Fin 1024 → Fin 1024 → ℝ)
    (hX : ∀ b s d, X (ix3 b s d) = ((x b s d : ℝ) : EReal))
    (hW : ∀ e d, W (ix2 e d) = ((w e d : ℝ) : EReal))
    (b : Fin 4) (s : Fin 4096) (e : Fin 1024) :
    val_main_v0 (F := Ideal) X W (ix3 b s e) = ((Cert.Attn.proj x w b s e : ℝ) : EReal) := by
  rw [val_main_v0_apply]
  unfold Cert.Attn.proj
  rw [← sum_mul_coe]
  refine Finset.sum_congr rfl fun k _ => ?_
  have el : lidx_main_v0 (ix3 b s e) k = ix3 b s k :=
    funext fun a => Fin.ext (by match a with | ⟨0, _⟩ => rfl | ⟨1, _⟩ => rfl | ⟨2, _⟩ => rfl)
  have er : ridx_main_v0 (ix3 b s e) k = ix2 e k :=
    funext fun a => Fin.ext (by match a with | ⟨0, _⟩ => rfl | ⟨1, _⟩ => rfl)
  rw [el, er, hX, hW]

/-- The score at (b, s, t): the query row s against the key row t. -/
theorem score_at (hX : ∀ b s d, X (ix3 b s d) = ((x b s d : ℝ) : EReal))
    (hQ : ∀ e d, WQ (ix2 e d) = ((wq e d : ℝ) : EReal)) (hK : ∀ e d, WK (ix2 e d) = ((wk e d : ℝ) : EReal))
    (b : Fin 4) (s t : Fin 4096) :
    val_main_v3 (F := Ideal) X WQ WK (ix3 b s t) = ((Cert.Attn.score x wq wk b s t : ℝ) : EReal) := by
  rw [val_main_v3_apply]
  unfold Cert.Attn.score
  rw [← sum_mul_coe]
  refine Finset.sum_congr rfl fun k _ => ?_
  have el : lidx_main_v3 (ix3 b s t) k = ix3 b s k :=
    funext fun a => Fin.ext (by match a with | ⟨0, _⟩ => rfl | ⟨1, _⟩ => rfl | ⟨2, _⟩ => rfl)
  have er : ridx_main_v3 (ix3 b s t) k = ix3 b t k :=
    funext fun a => Fin.ext (by match a with | ⟨0, _⟩ => rfl | ⟨1, _⟩ => rfl | ⟨2, _⟩ => rfl)
  rw [el, er, proj_at x X WQ wq hX hQ]
  exact congrArg (_ * ·) (proj_at x X WK wk hX hK b t k)

/-- The scaled score (times the constant one) at (b, s, t). -/
theorem scaled_at (hX : ∀ b s d, X (ix3 b s d) = ((x b s d : ℝ) : EReal))
    (hQ : ∀ e d, WQ (ix2 e d) = ((wq e d : ℝ) : EReal)) (hK : ∀ e d, WK (ix2 e d) = ((wk e d : ℝ) : EReal))
    (b : Fin 4) (s t : Fin 4096) :
    val_main_v5 (F := Ideal) X WQ WK (ix3 b s t) = ((Cert.Attn.score x wq wk b s t : ℝ) : EReal) := by
  rw [val_main_v5_apply, val_main_v4_apply, val_main_cst_apply, score_at x wq wk X WQ WK hX hQ hK]
  show Ideal.ofBits .f32 0x3F800000#32 * _ = _
  rw [Cert.LibEReal.ofBits_one, one_mul]

/-- The fold of max from the bottom over a nonempty finite set of finite values is the greatest of them. -/
theorem fold_max_coe {ι : Type*} (s : Finset ι) (hs : s.Nonempty) (f : ι → ℝ) :
    s.fold max (⊥ : EReal) (fun k => ((f k : ℝ) : EReal)) = ((s.sup' hs f : ℝ) : EReal) := by
  induction hs using Finset.Nonempty.cons_induction with
  | singleton a => simp
  | cons a s ha hs ih =>
    rw [Finset.fold_cons, ih, Finset.sup'_cons hs]
    exact (EReal.coe_strictMono.monotone.map_max).symm

/-- The float word of negative infinity denotes the bottom of the extended reals. -/
theorem ofBits_neg_inf : Ideal.ofBits .f32 0xFF800000#32 = (⊥ : EReal) := by
  simp [Ideal.ofBits, Ideal.ieee]

/-- The reduced index (b, s) with the coordinate k put back on the last axis is (b, s, k). -/
theorem lift_last {A B C : ℕ} (h : (⟨3, ![A, B, C]⟩ : Shape).Reduces [2] ⟨2, ![A, B]⟩) (b : Fin A) (s : Fin B) (k : Fin C) :
    h.lift (ix2 b s) k = ix3 b s k := by
  funext c
  apply Fin.ext
  show h.liftVal (ix2 b s) k.val c = (ix3 b s k c).val
  unfold Shape.Reduces.liftVal
  match c with
  | ⟨0, _⟩ => simp
  | ⟨1, _⟩ => simp
  | ⟨2, _⟩ => simp

/-- The max-reduce of a query row from negative infinity is the row's largest score. -/
theorem rowmax_at (hX : ∀ b s d, X (ix3 b s d) = ((x b s d : ℝ) : EReal))
    (hQ : ∀ e d, WQ (ix2 e d) = ((wq e d : ℝ) : EReal)) (hK : ∀ e d, WK (ix2 e d) = ((wk e d : ℝ) : EReal))
    (b : Fin 4) (s : Fin 4096) :
    val_main_v6 (F := Ideal) X WQ WK (ix2 b s) = ((Cert.Attn.rowMax x wq wk b s : ℝ) : EReal) := by
  unfold val_main_v6
  have h : S4x4096x4096.Reduces [2] S4x4096 := by decide
  rw [Host.reduce_eq_fold_single FloatOps.maximumf _ _ Gen.reducesTo_S4x4096x4096_S4x4096_d2 h Gen.h_S_]
  unfold Cert.Attn.rowMax
  rw [← fold_max_coe]
  have hf : (val_main_v5 (F := Ideal) X WQ WK ∘ h.lift (ix2 b s))
      = fun t : Fin 4096 => ((Cert.Attn.score x wq wk b s t : ℝ) : EReal) :=
    funext fun t => (congrArg (val_main_v5 (F := Ideal) X WQ WK) (lift_last h b s t)).trans
      (scaled_at x wq wk X WQ WK hX hQ hK b s t)
  rw [hf, val_main_cst_0_apply]
  exact congrArg (fun i => (Finset.univ : Finset (Fin 4096)).fold max i _) ofBits_neg_inf

/-- The row maximum, joined with negative infinity and read through the two broadcasts at (b, s, t). -/
theorem rowmax_bcast_at (hX : ∀ b s d, X (ix3 b s d) = ((x b s d : ℝ) : EReal))
    (hQ : ∀ e d, WQ (ix2 e d) = ((wq e d : ℝ) : EReal)) (hK : ∀ e d, WK (ix2 e d) = ((wk e d : ℝ) : EReal))
    (b : Fin 4) (s t : Fin 4096) :
    val_main_v10 (F := Ideal) X WQ WK (ix3 b s t) = ((Cert.Attn.rowMax x wq wk b s : ℝ) : EReal) := by
  rw [val_main_v10_apply, val_main_v9_apply]
  have e : idx_main_v9 (idx_main_v10 (ix3 b s t)) = ix2 b s := funext fun a => Fin.ext (by match a with | ⟨0, _⟩ => rfl | ⟨1, _⟩ => rfl)
  rw [e, val_main_v8_apply, val_main_v7_apply, val_main_cst_1_apply, rowmax_at x wq wk X WQ WK hX hQ hK]
  show max (Ideal.ofBits .f32 0xFF800000#32) _ = _
  rw [ofBits_neg_inf]
  exact max_eq_right bot_le

/-- The exponential of the score less the row maximum at (b, s, t). -/
theorem weight_at (hX : ∀ b s d, X (ix3 b s d) = ((x b s d : ℝ) : EReal))
    (hQ : ∀ e d, WQ (ix2 e d) = ((wq e d : ℝ) : EReal)) (hK : ∀ e d, WK (ix2 e d) = ((wk e d : ℝ) : EReal))
    (b : Fin 4) (s t : Fin 4096) :
    val_main_v12 (F := Ideal) X WQ WK (ix3 b s t) = ((Cert.Attn.weight x wq wk b s t : ℝ) : EReal) := by
  rw [val_main_v12_apply, val_main_v11_apply, scaled_at x wq wk X WQ WK hX hQ hK, rowmax_bcast_at x wq wk X WQ WK hX hQ hK]
  rw [Ideal.hostUnary_exp_def, Ideal.subf_def, Cert.LibEReal.coe_sub, Ideal.exp_coe]
  rfl

/-- The sum of a query row's weights at (b, s). -/
theorem denom_at (hX : ∀ b s d, X (ix3 b s d) = ((x b s d : ℝ) : EReal))
    (hQ : ∀ e d, WQ (ix2 e d) = ((wq e d : ℝ) : EReal)) (hK : ∀ e d, WK (ix2 e d) = ((wk e d : ℝ) : EReal))
    (b : Fin 4) (s : Fin 4096) :
    val_main_v13 (F := Ideal) X WQ WK (ix2 b s) = ((Cert.Attn.denom x wq wk b s : ℝ) : EReal) := by
  rw [val_main_v13_apply, val_main_cst_2_apply]
  show Ideal.ofBits .f32 0x00000000#32 + _ = _
  rw [Ideal.ofBits_zero_f32, zero_add]
  unfold Cert.Attn.denom
  rw [← Cert.LibEReal.coe_sum]
  refine Finset.sum_congr rfl fun k _ => ?_
  have e : idx_main_v13 (ix2 b s) k = ix3 b s k := funext fun a => Fin.ext (by match a with | ⟨0, _⟩ => rfl | ⟨1, _⟩ => rfl | ⟨2, _⟩ => rfl)
  rw [e]
  exact weight_at x wq wk X WQ WK hX hQ hK b s k

/-- A sum of exponentials is positive. -/
theorem denom_pos (b : Fin 4) (s : Fin 4096) : 0 < Cert.Attn.denom x wq wk b s :=
  Finset.sum_pos (fun _ _ => Real.exp_pos _) Finset.univ_nonempty

/-- The normalised weight at (b, s, t): a quotient of reals, the divisor being positive. -/
theorem normw_at (hX : ∀ b s d, X (ix3 b s d) = ((x b s d : ℝ) : EReal))
    (hQ : ∀ e d, WQ (ix2 e d) = ((wq e d : ℝ) : EReal)) (hK : ∀ e d, WK (ix2 e d) = ((wk e d : ℝ) : EReal))
    (b : Fin 4) (s t : Fin 4096) :
    val_main_v16 (F := Ideal) X WQ WK (ix3 b s t)
      = ((Cert.Attn.weight x wq wk b s t / Cert.Attn.denom x wq wk b s : ℝ) : EReal) := by
  rw [val_main_v16_apply, val_main_v15_apply, val_main_v14_apply]
  have e : idx_main_v14 (idx_main_v15 (ix3 b s t)) = ix2 b s := funext fun a => Fin.ext (by match a with | ⟨0, _⟩ => rfl | ⟨1, _⟩ => rfl)
  rw [e, weight_at x wq wk X WQ WK hX hQ hK, denom_at x wq wk X WQ WK hX hQ hK]
  show Ideal.div _ _ = _
  exact Cert.LibEReal.div_coe' _ _ (denom_pos x wq wk b s).ne'

/-- The attended row at (b, s, d). -/
theorem attended_at (hX : ∀ b s d, X (ix3 b s d) = ((x b s d : ℝ) : EReal))
    (hQ : ∀ e d, WQ (ix2 e d) = ((wq e d : ℝ) : EReal)) (hK : ∀ e d, WK (ix2 e d) = ((wk e d : ℝ) : EReal))
    (hV : ∀ e d, WV (ix2 e d) = ((wv e d : ℝ) : EReal))
    (b : Fin 4) (s : Fin 4096) (d : Fin 1024) :
    val_main_v17 (F := Ideal) X WQ WK WV (ix3 b s d) = ((Cert.Attn.attended x wq wk wv b s d : ℝ) : EReal) := by
  rw [val_main_v17_apply]
  unfold Cert.Attn.attended
  rw [← sum_mul_coe]
  refine Finset.sum_congr rfl fun k _ => ?_
  have el : lidx_main_v17 (ix3 b s d) k = ix3 b s k := funext fun a => Fin.ext (by match a with | ⟨0, _⟩ => rfl | ⟨1, _⟩ => rfl | ⟨2, _⟩ => rfl)
  have er : ridx_main_v17 (ix3 b s d) k = ix3 b k d := funext fun a => Fin.ext (by match a with | ⟨0, _⟩ => rfl | ⟨1, _⟩ => rfl | ⟨2, _⟩ => rfl)
  rw [el, er, normw_at x wq wk X WQ WK hX hQ hK]
  exact congrArg (_ * ·) (proj_at x X WV wv hX hV b k d)

/-- The attended row with the input row added back at (b, s, d). -/
theorem resid_at (hX : ∀ b s d, X (ix3 b s d) = ((x b s d : ℝ) : EReal))
    (hQ : ∀ e d, WQ (ix2 e d) = ((wq e d : ℝ) : EReal)) (hK : ∀ e d, WK (ix2 e d) = ((wk e d : ℝ) : EReal))
    (hV : ∀ e d, WV (ix2 e d) = ((wv e d : ℝ) : EReal))
    (b : Fin 4) (s : Fin 4096) (d : Fin 1024) :
    val_main_v18 (F := Ideal) X WQ WK WV (ix3 b s d) = ((Cert.Attn.resid x wq wk wv b s d : ℝ) : EReal) := by
  rw [val_main_v18_apply, attended_at x wq wk wv X WQ WK WV hX hQ hK hV, hX]
  exact Cert.LibEReal.coe_add _ _

/-- The squared Euclidean norm of the row at (b, s). -/
theorem sumsq_at (hX : ∀ b s d, X (ix3 b s d) = ((x b s d : ℝ) : EReal))
    (hQ : ∀ e d, WQ (ix2 e d) = ((wq e d : ℝ) : EReal)) (hK : ∀ e d, WK (ix2 e d) = ((wk e d : ℝ) : EReal))
    (hV : ∀ e d, WV (ix2 e d) = ((wv e d : ℝ) : EReal))
    (b : Fin 4) (s : Fin 4096) :
    val_main_call0_v1 (F := Ideal) X WQ WK WV (ix2 b s) = ((Cert.Attn.sumsq x wq wk wv b s : ℝ) : EReal) := by
  rw [val_main_call0_v1_apply, val_main_call0_cst_apply]
  show Ideal.ofBits .f32 0x00000000#32 + _ = _
  rw [Ideal.ofBits_zero_f32, zero_add]
  unfold Cert.Attn.sumsq
  rw [← sum_mul_coe]
  refine Finset.sum_congr rfl fun k _ => ?_
  have e : idx_main_call0_v1 (ix2 b s) k = ix3 b s k := funext fun a => Fin.ext (by match a with | ⟨0, _⟩ => rfl | ⟨1, _⟩ => rfl | ⟨2, _⟩ => rfl)
  rw [e, val_main_call0_v0_apply, resid_at x wq wk wv X WQ WK WV hX hQ hK hV]
  rfl

end Stages

/-- The reference's result at (b, s, d) is the common function. -/
theorem val_eq_out (x : Fin 4 → Fin 4096 → Fin 1024 → ℝ) (wq wk wv : Fin 1024 → Fin 1024 → ℝ)
    (X : (⟨Cert.ReferenceIdeal.S4x4096x1024, .f32⟩ : BufTy).Contents (Elt Ideal))
    (WQ WK WV : (⟨Cert.ReferenceIdeal.S1024x1024, .f32⟩ : BufTy).Contents (Elt Ideal))
    (hX : ∀ b s d, X (ValueIdx.ix3 b s d) = ((x b s d : ℝ) : EReal))
    (hQ : ∀ e d, WQ (ValueIdx.ix2 e d) = ((wq e d : ℝ) : EReal))
    (hK : ∀ e d, WK (ValueIdx.ix2 e d) = ((wk e d : ℝ) : EReal))
    (hV : ∀ e d, WV (ValueIdx.ix2 e d) = ((wv e d : ℝ) : EReal))
    (b : Fin 4) (s : Fin 4096) (d : Fin 1024) :
    Cert.ReferenceIdeal.Read.val_main_v21 (F := Ideal) X WQ WK WV (ValueIdx.ix3 b s d) = Cert.Attn.out x wq wk wv b s d := by
  rw [val_main_v21_apply, val_main_v20_apply, val_main_v19_apply, val_main_call0_v2_apply]
  have e : idx_main_call0_v2 (idx_main_v20 (ix3 b s d)) = ix2 b s := funext fun a => Fin.ext (by match a with | ⟨0, _⟩ => rfl | ⟨1, _⟩ => rfl)
  rw [e, resid_at x wq wk wv X WQ WK WV hX hQ hK hV, sumsq_at x wq wk wv X WQ WK WV hX hQ hK hV]
  rfl

/-- Every weakly fair execution of the reference from a state whose four arguments hold real arrays ends with the
    common function in the result and the arguments unchanged. -/
theorem run_out (m' : (ℓ : Loc nD τ sig) → Buf (Elt Ideal) ℓ) (ρ' : Dev nD → PrngReg)
    (x : Fin 4 → Fin 4096 → Fin 1024 → ℝ) (wq wk wv : Fin 1024 → Fin 1024 → ℝ)
    (h0 : ∀ (c : Dev nD) b s d, m' ((c.tc : Thread nD τ).loc main_arg0) (ValueIdx.ix3 b s d) = ((x b s d : ℝ) : EReal))
    (h1 : ∀ (c : Dev nD) e d, m' ((c.tc : Thread nD τ).loc main_arg1) (ValueIdx.ix2 e d) = ((wq e d : ℝ) : EReal))
    (h2 : ∀ (c : Dev nD) e d, m' ((c.tc : Thread nD τ).loc main_arg2) (ValueIdx.ix2 e d) = ((wk e d : ℝ) : EReal))
    (h3 : ∀ (c : Dev nD) e d, m' ((c.tc : Thread nD τ).loc main_arg3) (ValueIdx.ix2 e d) = ((wv e d : ℝ) : EReal)) :
    θ_run (Cert.ReferenceIdeal.defs (F := Ideal)) (onTc (τ := τ) (Cert.ReferenceIdeal.main (F := Ideal)))
      ⟨m', fun _ => 0, ρ'⟩ (fun r => ∀ c : Dev nD,
        (∀ b s d, r.2.mem ((c.tc : Thread nD τ).loc main_v21) (ValueIdx.ix3 b s d) = Cert.Attn.out x wq wk wv b s d)
        ∧ r.2.mem ((c.tc : Thread nD τ).loc main_arg0) = m' ((c.tc : Thread nD τ).loc main_arg0)
        ∧ r.2.mem ((c.tc : Thread nD τ).loc main_arg1) = m' ((c.tc : Thread nD τ).loc main_arg1)
        ∧ r.2.mem ((c.tc : Thread nD τ).loc main_arg2) = m' ((c.tc : Thread nD τ).loc main_arg2)
        ∧ r.2.mem ((c.tc : Thread nD τ).loc main_arg3) = m' ((c.tc : Thread nD τ).loc main_arg3)) := by
  refine (θ_run (Cert.ReferenceIdeal.defs (F := Ideal)) _ _).mono (fun _ h c => ⟨fun b s d => ?_, (h c).2⟩)
    (Cert.ReferenceIdeal.Value.run (F := Ideal) m' ρ')
  rw [(h c).1, Cert.ReferenceIdeal.Read.val_main_v21_eq]
  exact val_eq_out x wq wk wv _ _ _ _ (h0 c) (h1 c) (h2 c) (h3 c) b s d

/-- Every weakly fair execution of the reference ends with its four arguments unchanged. -/
theorem run_frame (m : (ℓ : Loc nD τ sig) → Buf (Elt Ideal) ℓ) (g : Dev nD → PrngReg) :
    θ_run (Cert.ReferenceIdeal.defs (F := Ideal)) (onTc (τ := τ) (Cert.ReferenceIdeal.main (F := Ideal)))
      ⟨m, fun _ => 0, g⟩ (fun r => ∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)) :=
  (θ_run (Cert.ReferenceIdeal.defs (F := Ideal)) _ _).mono (fun _ h c => (h c).2)
    (Cert.ReferenceIdeal.Value.run (F := Ideal) m g)

end Cert.ReferenceIdeal.RefValue

end
-- ==== Proof.FiniteArgs.lean ====
/-
Finite inputs are real numbers.

The precondition states, for each of the four argument arrays, that every entry `x` satisfies
`|x| < +∞` in the extended reals (the conjunction over all entries, for all four arrays, is true).
An extended real whose absolute value `max x (-x)` lies strictly below `⊤` is neither `⊤` nor `⊥`,
hence is (the coercion of) a real number.  So the four argument arrays are given by real-valued
functions of their coordinates (`real_args`).
-/
import proofs.«110892_j22204980920987_1_alg».proof.Defs
import proofs.«110892_j22204980920987_1_alg».proof.Proof.Gen.Pre_finite_inputs
import Idealize.ShloMosaic.Lib.ReduceAll
import Idealize.ShloMosaic.Lib.ValueIdx

noncomputable section

namespace Cert.FiniteArgs

open Idealize.ShloMosaic Idealize.SL.Sem Idealize.ShloMosaic.ValueIdx

/-- The scalar shape has exactly one index. -/
instance : Subsingleton Cert.Pre_finite_inputs.S_.Idx := ⟨fun a b => funext fun d => d.elim0⟩

/-- The bit pattern `0x7F800000` of the 32-bit format denotes `+∞`. -/
theorem inf_bits : Ideal.ofBits .f32 0x7F800000#32 = (⊤ : EReal) := by
  simp [Ideal.ofBits, Ideal.ieee]

/-- An extended real with `|x| < +∞` is a real number. -/
theorem real_of_abs_lt (x : EReal)
    (h : Ideal.cmp .olt (max x (-x)) (Ideal.ofBits .f32 0x7F800000#32) = 1#1) :
    ∃ r : ℝ, x = (r : EReal) := by
  rw [inf_bits] at h
  induction x using EReal.rec with
  | bot => simp [Ideal.cmp] at h
  | top => simp [Ideal.cmp] at h
  | coe r => exact ⟨r, rfl⟩

/-- Under the precondition every entry of every argument array is a real number. -/
theorem entries_real (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, ∃ r : ℝ, m ((c.tc : Thread Cert.KernelIdeal.nD Cert.KernelIdeal.τ).loc Cert.KernelIdeal.main_arg0) i = ((r : ℝ) : EReal)) ∧
    (∀ i, ∃ r : ℝ, m ((c.tc : Thread Cert.KernelIdeal.nD Cert.KernelIdeal.τ).loc Cert.KernelIdeal.main_arg1) i = ((r : ℝ) : EReal)) ∧
    (∀ i, ∃ r : ℝ, m ((c.tc : Thread Cert.KernelIdeal.nD Cert.KernelIdeal.τ).loc Cert.KernelIdeal.main_arg2) i = ((r : ℝ) : EReal)) ∧
    (∀ i, ∃ r : ℝ, m ((c.tc : Thread Cert.KernelIdeal.nD Cert.KernelIdeal.τ).loc Cert.KernelIdeal.main_arg3) i = ((r : ℝ) : EReal)) := by
  have h0 := congrFun (h c) ValueIdx.ix0
  dsimp only [Cert.Pre_finite_inputs.fn, Cert.Pre_finite_inputs.fn_part1] at h0
  obtain ⟨h012, e3⟩ := IntOp.andi_eq_one.1 h0
  obtain ⟨h01, e2⟩ := IntOp.andi_eq_one.1 h012
  obtain ⟨e0, e1⟩ := IntOp.andi_eq_one.1 h01
  exact ⟨fun i => real_of_abs_lt _ (Host.reduce_andi_all _ _ _ _ _ e0 i),
    fun i => real_of_abs_lt _ (Host.reduce_andi_all _ _ _ _ _ e1 i),
    fun i => real_of_abs_lt _ (Host.reduce_andi_all _ _ _ _ _ e2 i),
    fun i => real_of_abs_lt _ (Host.reduce_andi_all _ _ _ _ _ e3 i)⟩

/-- Under the precondition the four argument arrays are real-valued functions of their coordinates. -/
theorem real_args (m : (ℓ : Loc Cert.KernelIdeal.nD Cert.KernelIdeal.τ Cert.KernelIdeal.sig) → Buf (Elt Ideal) ℓ)
    (h : Cert.Pre_KernelIdeal m) (c : Dev Cert.KernelIdeal.nD) :
    ∃ (x : Fin 4 → Fin 4096 → Fin 1024 → ℝ) (wq wk wv : Fin 1024 → Fin 1024 → ℝ),
      (∀ b s d, m ((c.tc : Thread Cert.KernelIdeal.nD Cert.KernelIdeal.τ).loc Cert.KernelIdeal.main_arg0) (ValueIdx.ix3 b s d) = ((x b s d : ℝ) : EReal)) ∧
      (∀ e d, m ((c.tc : Thread Cert.KernelIdeal.nD Cert.KernelIdeal.τ).loc Cert.KernelIdeal.main_arg1) (ValueIdx.ix2 e d) = ((wq e d : ℝ) : EReal)) ∧
      (∀ e d, m ((c.tc : Thread Cert.KernelIdeal.nD Cert.KernelIdeal.τ).loc Cert.KernelIdeal.main_arg2) (ValueIdx.ix2 e d) = ((wk e d : ℝ) : EReal)) ∧
      (∀ e d, m ((c.tc : Thread Cert.KernelIdeal.nD Cert.KernelIdeal.τ).loc Cert.KernelIdeal.main_arg3) (ValueIdx.ix2 e d) = ((wv e d : ℝ) : EReal)) := by
  obtain ⟨H0, H1, H2, H3⟩ := entries_real m h c
  choose x hx using fun (b : Fin 4) (s : Fin 4096) (d : Fin 1024) => H0 (ValueIdx.ix3 b s d)
  choose wq hq using fun (e : Fin 1024) (d : Fin 1024) => H1 (ValueIdx.ix2 e d)
  choose wk hk using fun (e : Fin 1024) (d : Fin 1024) => H2 (ValueIdx.ix2 e d)
  choose wv hv using fun (e : Fin 1024) (d : Fin 1024) => H3 (ValueIdx.ix2 e d)
  exact ⟨x, wq, wk, wv, hx, hq, hk, hv⟩

end Cert.FiniteArgs
-- ==== Proof.HostI.lean ====
/-
  The kernel program's two stretches of host operations, read at an index: the three weight matrices transposed, the
  input reshaped from [4, 4096, 1024] to [16384, 1024] (row b * 4096 + s is row s of batch b), and the three results
  reshaped back.
-/
import proofs.«110892_j22204980920987_1_alg».proof.Proof.Gen.KernelIdeal.Launch
import Idealize.ShloMosaic.Lib.StableHlo.Run
import Idealize.ShloMosaic.Lib.Pipeline.Value
import Idealize.ShloMosaic.Lib.ValueIdx
import Idealize.ShloMosaic.Lib.ValueLayout

noncomputable section

namespace Cert.KernelIdeal.HostRd

open Cert.KernelIdeal Cert.KernelIdeal.Gen Idealize.ShloMosaic Idealize.ShloMosaic.ValueIdx Idealize.ShloMosaic.StableHlo

variable {F : FTy → Type} [FloatOps F]

/-- A [4, 4096, 1024] array reshaped to [16384, 1024]: row b * 4096 + s is row s of batch b. -/
theorem reshape_in_apply {α : Type} (x : S4x4096x1024.Idx → α) (h : S4x4096x1024.ShapeCasts S16384x1024)
    (b : Fin 4) (s : Fin 4096) (d : Fin 1024) :
    shapeCast S16384x1024 x h (ix2 (⟨b.val * 4096 + s.val, by omega⟩ : Fin 16384) d) = x (ix3 b s d) :=
  shapeCast_apply x h _ _ (by
    rw [Shape.rowMajor_val_three, Shape.rowMajor_val_two]
    rfl)

/-- A [16384, 1024] array reshaped to [4, 4096, 1024]: entry (b, s, e) is row b * 4096 + s, column e. -/
theorem reshape_out_apply {α : Type} (x : S16384x1024.Idx → α) (h : S16384x1024.ShapeCasts S4x4096x1024)
    (b : Fin 4) (s : Fin 4096) (e : Fin 1024) :
    shapeCast S4x4096x1024 x h (ix3 b s e) = x (ix2 (⟨b.val * 4096 + s.val, by omega⟩ : Fin 16384) e) :=
  shapeCast_apply x h _ _ (by
    rw [Shape.rowMajor_val_three, Shape.rowMajor_val_two]
    rfl)

/-- The input reshaped: row b * 4096 + s of the matrix is row s of batch b. -/
theorem host0_v3 (W : Valuation τ sig (Elt F)) (b : Fin 4) (s : Fin 4096) (d : Fin 1024) :
    StableHlo.after hostOps0 W (Proc.devRef .tc main_v3) (ix2 (⟨b.val * 4096 + s.val, by omega⟩ : Fin 16384) d)
      = W (Proc.devRef .tc main_arg0) (ix3 b s d) := by
  have h : StableHlo.after hostOps0 W (Proc.devRef .tc main_v3)
      = shapeCast S16384x1024 (W (Proc.devRef .tc main_arg0)) shapeCasts_S4x4096x1024_S16384x1024 := by
    dsimp only [hostOps0]; after_results; rfl
  rw [h]
  exact reshape_in_apply _ _ b s d

/-- The transposed weight at (d, e) is the weight at (e, d). -/
theorem host0_v0 (W : Valuation τ sig (Elt F)) (d e : Fin 1024) :
    StableHlo.after hostOps0 W (Proc.devRef .tc main_v0) (ix2 d e) = W (Proc.devRef .tc main_arg1) (ix2 e d) := by
  have h : StableHlo.after hostOps0 W (Proc.devRef .tc main_v0)
      = transpose S1024x1024 [1, 0] (W (Proc.devRef .tc main_arg1)) transposes_S1024x1024_S1024x1024_1_0 := by
    dsimp only [hostOps0]; after_results
  rw [h]
  exact transpose_ix2_apply _ _ d e

/-- The transposed weight at (d, e) is the weight at (e, d). -/
theorem host0_v1 (W : Valuation τ sig (Elt F)) (d e : Fin 1024) :
    StableHlo.after hostOps0 W (Proc.devRef .tc main_v1) (ix2 d e) = W (Proc.devRef .tc main_arg2) (ix2 e d) := by
  have h : StableHlo.after hostOps0 W (Proc.devRef .tc main_v1)
      = transpose S1024x1024 [1, 0] (W (Proc.devRef .tc main_arg2)) transposes_S1024x1024_S1024x1024_1_0 := by
    dsimp only [hostOps0]; after_results
  rw [h]
  exact transpose_ix2_apply _ _ d e

/-- The transposed weight at (d, e) is the weight at (e, d). -/
theorem host0_v2 (W : Valuation τ sig (Elt F)) (d e : Fin 1024) :
    StableHlo.after hostOps0 W (Proc.devRef .tc main_v2) (ix2 d e) = W (Proc.devRef .tc main_arg3) (ix2 e d) := by
  have h : StableHlo.after hostOps0 W (Proc.devRef .tc main_v2)
      = transpose S1024x1024 [1, 0] (W (Proc.devRef .tc main_arg3)) transposes_S1024x1024_S1024x1024_1_0 := by
    dsimp only [hostOps0]; after_results
  rw [h]
  exact transpose_ix2_apply _ _ d e

/-- The stretch does not write this buffer. -/
theorem host0_arg0 (W : Valuation τ sig (Elt F)) :
    StableHlo.after hostOps0 W (Proc.devRef .tc main_arg0) = W (Proc.devRef .tc main_arg0) :=
  StableHlo.after_of_forall_not_mem (b := Proc.devRef .tc main_arg0) _ _ (List.forall_iff_forall_mem.mp (by
    simp only [hostOps0, List.Forall, StableHlo.unary_writes, StableHlo.reshape_writes, Finset.mem_singleton]
    repeat' apply And.intro
    all_goals exact StableHlo.devRef_ne_of_ne (by decide)))

/-- The stretch does not write this buffer. -/
theorem host0_arg1 (W : Valuation τ sig (Elt F)) :
    StableHlo.after hostOps0 W (Proc.devRef .tc main_arg1) = W (Proc.devRef .tc main_arg1) :=
  StableHlo.after_of_forall_not_mem (b := Proc.devRef .tc main_arg1) _ _ (List.forall_iff_forall_mem.mp (by
    simp only [hostOps0, List.Forall, StableHlo.unary_writes, StableHlo.reshape_writes, Finset.mem_singleton]
    repeat' apply And.intro
    all_goals exact StableHlo.devRef_ne_of_ne (by decide)))

/-- The stretch does not write this buffer. -/
theorem host0_arg2 (W : Valuation τ sig (Elt F)) :
    StableHlo.after hostOps0 W (Proc.devRef .tc main_arg2) = W (Proc.devRef .tc main_arg2) :=
  StableHlo.after_of_forall_not_mem (b := Proc.devRef .tc main_arg2) _ _ (List.forall_iff_forall_mem.mp (by
    simp only [hostOps0, List.Forall, StableHlo.unary_writes, StableHlo.reshape_writes, Finset.mem_singleton]
    repeat' apply And.intro
    all_goals exact StableHlo.devRef_ne_of_ne (by decide)))

/-- The stretch does not write this buffer. -/
theorem host0_arg3 (W : Valuation τ sig (Elt F)) :
    StableHlo.after hostOps0 W (Proc.devRef .tc main_arg3) = W (Proc.devRef .tc main_arg3) :=
  StableHlo.after_of_forall_not_mem (b := Proc.devRef .tc main_arg3) _ _ (List.forall_iff_forall_mem.mp (by
    simp only [hostOps0, List.Forall, StableHlo.unary_writes, StableHlo.reshape_writes, Finset.mem_singleton]
    repeat' apply And.intro
    all_goals exact StableHlo.devRef_ne_of_ne (by decide)))

/-- The result reshaped back: entry (b, s, e) is row b * 4096 + s, column e. -/
theorem host1_v5 (W : Valuation τ sig (Elt F)) (b : Fin 4) (s : Fin 4096) (e : Fin 1024) :
    StableHlo.after hostOps1 W (Proc.devRef .tc main_v5) (ix3 b s e)
      = W (Proc.devRef .tc main_v4_0) (ix2 (⟨b.val * 4096 + s.val, by omega⟩ : Fin 16384) e) := by
  have h : StableHlo.after hostOps1 W (Proc.devRef .tc main_v5)
      = shapeCast S4x4096x1024 (W (Proc.devRef .tc main_v4_0)) shapeCasts_S16384x1024_S4x4096x1024 := by
    dsimp only [hostOps1]; after_results; rfl
  rw [h]
  exact reshape_out_apply _ _ b s e

/-- The result reshaped back: entry (b, s, e) is row b * 4096 + s, column e. -/
theorem host1_v6 (W : Valuation τ sig (Elt F)) (b : Fin 4) (s : Fin 4096) (e : Fin 1024) :
    StableHlo.after hostOps1 W (Proc.devRef .tc main_v6) (ix3 b s e)
      = W (Proc.devRef .tc main_v4_1) (ix2 (⟨b.val * 4096 + s.val, by omega⟩ : Fin 16384) e) := by
  have h : StableHlo.after hostOps1 W (Proc.devRef .tc main_v6)
      = shapeCast S4x4096x1024 (W (Proc.devRef .tc main_v4_1)) shapeCasts_S16384x1024_S4x4096x1024 := by
    dsimp only [hostOps1]; after_results; rfl
  rw [h]
  exact reshape_out_apply _ _ b s e

/-- The result reshaped back: entry (b, s, e) is row b * 4096 + s, column e. -/
theorem host1_v7 (W : Valuation τ sig (Elt F)) (b : Fin 4) (s : Fin 4096) (e : Fin 1024) :
    StableHlo.after hostOps1 W (Proc.devRef .tc main_v7) (ix3 b s e)
      = W (Proc.devRef .tc main_v4_2) (ix2 (⟨b.val * 4096 + s.val, by omega⟩ : Fin 16384) e) := by
  have h : StableHlo.after hostOps1 W (Proc.devRef .tc main_v7)
      = shapeCast S4x4096x1024 (W (Proc.devRef .tc main_v4_2)) shapeCasts_S16384x1024_S4x4096x1024 := by
    dsimp only [hostOps1]; after_results; rfl
  rw [h]
  exact reshape_out_apply _ _ b s e

/-- The stretch does not write this buffer. -/
theorem host1_arg0 (W : Valuation τ sig (Elt F)) :
    StableHlo.after hostOps1 W (Proc.devRef .tc main_arg0) = W (Proc.devRef .tc main_arg0) :=
  StableHlo.after_of_forall_not_mem (b := Proc.devRef .tc main_arg0) _ _ (List.forall_iff_forall_mem.mp (by
    simp only [hostOps1, List.Forall, StableHlo.unary_writes, StableHlo.reshape_writes, Finset.mem_singleton]
    repeat' apply And.intro
    all_goals exact StableHlo.devRef_ne_of_ne (by decide)))

/-- The stretch does not write this buffer. -/
theorem host1_arg1 (W : Valuation τ sig (Elt F)) :
    StableHlo.after hostOps1 W (Proc.devRef .tc main_arg1) = W (Proc.devRef .tc main_arg1) :=
  StableHlo.after_of_forall_not_mem (b := Proc.devRef .tc main_arg1) _ _ (List.forall_iff_forall_mem.mp (by
    simp only [hostOps1, List.Forall, StableHlo.unary_writes, StableHlo.reshape_writes, Finset.mem_singleton]
    repeat' apply And.intro
    all_goals exact StableHlo.devRef_ne_of_ne (by decide)))

/-- The stretch does not write this buffer. -/
theorem host1_arg2 (W : Valuation τ sig (Elt F)) :
    StableHlo.after hostOps1 W (Proc.devRef .tc main_arg2) = W (Proc.devRef .tc main_arg2) :=
  StableHlo.after_of_forall_not_mem (b := Proc.devRef .tc main_arg2) _ _ (List.forall_iff_forall_mem.mp (by
    simp only [hostOps1, List.Forall, StableHlo.unary_writes, StableHlo.reshape_writes, Finset.mem_singleton]
    repeat' apply And.intro
    all_goals exact StableHlo.devRef_ne_of_ne (by decide)))

/-- The stretch does not write this buffer. -/
theorem host1_arg3 (W : Valuation τ sig (Elt F)) :
    StableHlo.after hostOps1 W (Proc.devRef .tc main_arg3) = W (Proc.devRef .tc main_arg3) :=
  StableHlo.after_of_forall_not_mem (b := Proc.devRef .tc main_arg3) _ _ (List.forall_iff_forall_mem.mp (by
    simp only [hostOps1, List.Forall, StableHlo.unary_writes, StableHlo.reshape_writes, Finset.mem_singleton]
    repeat' apply And.intro
    all_goals exact StableHlo.devRef_ne_of_ne (by decide)))

end Cert.KernelIdeal.HostRd

end
-- ==== Proof.LibMatmulRows.lean ====
/-
  A plain matrix product into a zero accumulator, read at a row and a column.

  For dimension numbers that contract the left operand's axis 1 against the right operand's axis 0, with no batch axis,
  the product of an [M, K] and a [K, N] array into the zero splat reads at (p, c) as the sum over a < K of
  l(p, a) · r(a, c): the product's sum over the contraction shape's indices, re-indexed through that shape's one axis.
-/
import Idealize.ShloMosaic.PureOps.Ideal.Laws
import Idealize.ShloMosaic.Lib.ValueIdx

noncomputable section

namespace Cert.LibMatmulRows

open Idealize.ShloMosaic Idealize.ShloMosaic.ValueIdx

/-- The product into the zero accumulator at (p, c), from the four facts that say which operand index the dimension
    numbers read at an output index and a contraction index. -/
theorem matmul_zero_ix2 {M K N : Nat} {φ₁ φ₂ : FTy} (d : DotDims ⟨2, ![M, K]⟩ ⟨2, ![K, N]⟩ ⟨2, ![M, N]⟩)
    (hr : d.contr.rank = 1) (hs : d.contr.size ⟨0, by omega⟩ = K)
    (hl0 : ∀ (i : (⟨2, ![M, N]⟩ : Shape).Idx) (q : d.contr.Idx), (d.lhsIdx i q 0).val = (i 0).val)
    (hl1 : ∀ (i : (⟨2, ![M, N]⟩ : Shape).Idx) (q : d.contr.Idx), (d.lhsIdx i q 1).val = (q ⟨0, by omega⟩).val)
    (hr0 : ∀ (i : (⟨2, ![M, N]⟩ : Shape).Idx) (q : d.contr.Idx), (d.rhsIdx i q 0).val = (q ⟨0, by omega⟩).val)
    (hr1 : ∀ (i : (⟨2, ![M, N]⟩ : Shape).Idx) (q : d.contr.Idx), (d.rhsIdx i q 1).val = (i 1).val)
    (prec : Option ContractPrecision) (l : FVec Ideal ⟨2, ![M, K]⟩ φ₁) (r : FVec Ideal ⟨2, ![K, N]⟩ φ₂) (p : Fin M) (c : Fin N) :
    matmul d prec l r (constant ⟨2, ![M, N]⟩ .f32 0x00000000#32) (ix2 p c) = ∑ a : Fin K, l (ix2 p a) * r (ix2 a c) := by
  show FloatOps.matmul d prec l r (constant ⟨2, ![M, N]⟩ .f32 0x00000000#32) (ix2 p c) = _
  rw [Ideal.matmul_constant_zero_apply, ← Equiv.sum_comp (contrEquiv1 d K hr hs).symm]
  refine Finset.sum_congr rfl fun a _ => ?_
  have hk := contrEquiv1_symm_val d K hr hs a
  have el : d.lhsIdx (ix2 p c) ((contrEquiv1 d K hr hs).symm a) = ix2 p a := funext fun x => Fin.ext (by
    match x with
    | ⟨0, _⟩ => exact hl0 _ _
    | ⟨1, _⟩ => exact (hl1 _ _).trans hk)
  have er : d.rhsIdx (ix2 p c) ((contrEquiv1 d K hr hs).symm a) = ix2 a c := funext fun x => Fin.ext (by
    match x with
    | ⟨0, _⟩ => exact (hr0 _ _).trans hk
    | ⟨1, _⟩ => exact hr1 _ _)
  rw [el, er]

end Cert.LibMatmulRows

end
-- ==== Proof.ValI0.lean ====
/-
The projection kernel's three output arrays as functions of the input arrays.

Each grid point t multiplies rows 512·t … 512·t+511 of the flattened input (a [16384,1024] array) by a whole
[1024,1024] transposed weight matrix and writes the product's 512 rows to the same rows of an output array.
Hence, when the input and the weight hold real numbers, entry (r, e) of the output array ends holding
the real number  ∑_d x(r, d) · wT(d, e)  for every row r and column e: the 32 blocks of 512 rows tile the array.
-/
import proofs.«110892_j22204980920987_1_alg».proof.Proof.FrI0
import proofs.«110892_j22204980920987_1_alg».proof.Proof.LibMatmulRows
import proofs.«110892_j22204980920987_1_alg».proof.Proof.LibERealAlgebra
import Idealize.ShloMosaic.Lib.Pipeline.Value
import Idealize.ShloMosaic.Lib.ValueIdx
import Idealize.ShloMosaic.PureOps.Ideal.Laws

noncomputable section

namespace Cert.KernelIdeal.Val0

open Idealize.ShloMosaic Idealize.ShloMosaic.TcCoe Idealize.SL.Sem
open Idealize.ShloMosaic.Pipeline (Dat)
open Cert.KernelIdeal Cert.KernelIdeal.Gen Cert.KernelIdeal.Fr

variable (V : (c : Dev nD) → (b : Ref sig .tc) → Buf (Elt Ideal) ((c : Thread nD τ).loc b))

/-- The zero offsets of a whole-block access. -/
theorem hz : (![0, 0] : Fin 2 → Nat) = fun _ => 0 := funext fun a => by fin_cases a <;> rfl

/-! ## The product at a row and a column -/

/-- The body's dimension numbers: contract the left operand's columns against the right operand's rows. -/
abbrev dd := dot_S512x1024_S1024x1024_S512x1024_1_0_0_1_n_n

theorem dd_l0 (i : S512x1024.Idx) (q : dd.contr.Idx) : (dd.lhsIdx i q 0).val = (i 0).val := by
  unfold DotDims.lhsIdx
  rw [dif_neg (show ¬(0 : Fin S512x1024.rank) ∈ dd.lhsBatch by decide), dif_pos (show (0 : Fin S512x1024.rank) ∈ dd.lhsNonContracting by decide)]
  rfl
theorem dd_l1 (i : S512x1024.Idx) (q : dd.contr.Idx) : (dd.lhsIdx i q 1).val = (q ⟨0, by decide⟩).val :=
  dd.lhsIdx_val_of_single rfl i q
theorem dd_r0 (i : S512x1024.Idx) (q : dd.contr.Idx) : (dd.rhsIdx i q 0).val = (q ⟨0, by decide⟩).val :=
  dd.rhsIdx_val_of_single rfl i q
theorem dd_r1 (i : S512x1024.Idx) (q : dd.contr.Idx) : (dd.rhsIdx i q 1).val = (i 1).val := by
  unfold DotDims.rhsIdx
  rw [dif_neg (show ¬(1 : Fin S1024x1024.rank) ∈ dd.rhsBatch by decide), dif_pos (show (1 : Fin S1024x1024.rank) ∈ dd.rhsNonContracting by decide)]
  rfl

/-- Each of the three payloads at (p, e): row p of the input block against column e of the weight. -/
theorem pay2_apply (x0 : Vec Ideal S512x1024 .f32) (x1 : Vec Ideal S1024x1024 .f32) (p : Fin 512) (e : Fin 1024) :
    k0_pay2 (F := Ideal) x0 x1 (ValueIdx.ix2 p e) = ∑ a : Fin 1024, x0 (ValueIdx.ix2 p a) * x1 (ValueIdx.ix2 a e) := by
  unfold k0_pay2 k0_pay1
  dsimp only
  simp only [shapeCast_self]
  exact Cert.LibMatmulRows.matmul_zero_ix2 dd rfl rfl dd_l0 dd_l1 dd_r0 dd_r1 none _ _ p e
theorem pay3_apply (x0 : Vec Ideal S512x1024 .f32) (x1 : Vec Ideal S1024x1024 .f32) (p : Fin 512) (e : Fin 1024) :
    k0_pay3 (F := Ideal) x0 x1 (ValueIdx.ix2 p e) = ∑ a : Fin 1024, x0 (ValueIdx.ix2 p a) * x1 (ValueIdx.ix2 a e) := by
  unfold k0_pay3 k0_pay1
  dsimp only
  simp only [shapeCast_self]
  exact Cert.LibMatmulRows.matmul_zero_ix2 dd rfl rfl dd_l0 dd_l1 dd_r0 dd_r1 none _ _ p e
theorem pay4_apply (x0 : Vec Ideal S512x1024 .f32) (x1 : Vec Ideal S1024x1024 .f32) (p : Fin 512) (e : Fin 1024) :
    k0_pay4 (F := Ideal) x0 x1 (ValueIdx.ix2 p e) = ∑ a : Fin 1024, x0 (ValueIdx.ix2 p a) * x1 (ValueIdx.ix2 a e) := by
  unfold k0_pay4 k0_pay1
  dsimp only
  simp only [shapeCast_self]
  exact Cert.LibMatmulRows.matmul_zero_ix2 dd rfl rfl dd_l0 dd_l1 dd_r0 dd_r1 none _ _ p e

/-- The same sum once the operands' entries are known to be real numbers. -/
theorem real_dot (f g : Fin 1024 → EReal) (f' g' : Fin 1024 → ℝ) (hf : ∀ a, f a = ((f' a : ℝ) : EReal))
    (hg : ∀ a, g a = ((g' a : ℝ) : EReal)) : ∑ a : Fin 1024, f a * g a = ((∑ a : Fin 1024, f' a * g' a : ℝ) : EReal) := by
  rw [← Cert.LibEReal.coe_sum]
  refine Finset.sum_congr rfl fun a _ => ?_
  rw [hf, hg, Cert.LibEReal.coe_mul]

/-! ## The index maps, decided over the 32 grid points -/

theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-! ## The input blocks as entries of their arrays -/

/-- The input window's block at point t is rows 512·t … 512·t + 511 of the flattened input. -/
theorem iblk0_0_apply (c : Dev nD) (t : Fin cfg0.N) (y : S512x1024.Idx) (k : S16384x1024.Idx)
    (hk0 : (k 0).val = 512 * t.val + (y 0).val) (hk1 : (k 1).val = (y 1).val) :
    (iblk0 V c 0 t : Vec Ideal S512x1024 .f32) y = (V c main_v3 : S16384x1024.Idx → EReal) k := by
  obtain ⟨e0, e1, -⟩ := idx_facts t
  unfold iblk0
  rw [View.read_apply]
  show V c main_v3 _ = V c main_v3 _
  congr 1
  funext a
  apply Fin.ext
  match a with
  | ⟨0, _⟩ => show win0_0.index t 0 * 512 + 1 * (y 0).val = (k 0).val; rw [e0, hk0]; omega
  | ⟨1, _⟩ => show win0_0.index t 1 * 1024 + 1 * (y 1).val = (k 1).val; rw [e1, hk1]; omega

/-- A weight window's block at every point is the whole transposed weight matrix. -/
theorem iblk0_1_apply (c : Dev nD) (t : Fin cfg0.N) (y : S1024x1024.Idx) :
    (iblk0 V c 1 t : Vec Ideal S1024x1024 .f32) y = (V c main_v0 : S1024x1024.Idx → EReal) y := by
  obtain ⟨-, -, e0, e1, -⟩ := idx_facts t
  unfold iblk0
  rw [View.read_apply]
  show V c main_v0 _ = V c main_v0 _
  congr 1
  funext a
  apply Fin.ext
  match a with
  | ⟨0, _⟩ => show win0_1.index t 0 * 1024 + 1 * (y 0).val = (y 0).val; rw [e0]; omega
  | ⟨1, _⟩ => show win0_1.index t 1 * 1024 + 1 * (y 1).val = (y 1).val; rw [e1]; omega
theorem iblk0_2_apply (c : Dev nD) (t : Fin cfg0.N) (y : S1024x1024.Idx) :
    (iblk0 V c 2 t : Vec Ideal S1024x1024 .f32) y = (V c main_v1 : S1024x1024.Idx → EReal) y := by
  obtain ⟨-, -, -, -, e0, e1, -⟩ := idx_facts t
  unfold iblk0
  rw [View.read_apply]
  show V c main_v1 _ = V c main_v1 _
  congr 1
  funext a
  apply Fin.ext
  match a with
  | ⟨0, _⟩ => show win0_2.index t 0 * 1024 + 1 * (y 0).val = (y 0).val; rw [e0]; omega
  | ⟨1, _⟩ => show win0_2.index t 1 * 1024 + 1 * (y 1).val = (y 1).val; rw [e1]; omega
theorem iblk0_3_apply (c : Dev nD) (t : Fin cfg0.N) (y : S1024x1024.Idx) :
    (iblk0 V c 3 t : Vec Ideal S1024x1024 .f32) y = (V c main_v2 : S1024x1024.Idx → EReal) y := by
  obtain ⟨-, -, -, -, -, -, e0, e1, -⟩ := idx_facts t
  unfold iblk0
  rw [View.read_apply]
  show V c main_v2 _ = V c main_v2 _
  congr 1
  funext a
  apply Fin.ext
  match a with
  | ⟨0, _⟩ => show win0_3.index t 0 * 1024 + 1 * (y 0).val = (y 0).val; rw [e0]; omega
  | ⟨1, _⟩ => show win0_3.index t 1 * 1024 + 1 * (y 1).val = (y 1).val; rw [e1]; omega

/-! ## The whole-array function and its blocks -/

/-- The product array: entry (r, e) is row r of the input against column e of the transposed weight. -/
def G (xf : Fin 16384 → Fin 1024 → ℝ) (wT : Fin 1024 → Fin 1024 → ℝ) : S16384x1024.Idx → EReal :=
  fun j => ((∑ d : Fin 1024, xf (j 0) d * wT d (j 1) : ℝ) : EReal)

omit V in
theorem G_apply (xf : Fin 16384 → Fin 1024 → ℝ) (wT : Fin 1024 → Fin 1024 → ℝ) (j : S16384x1024.Idx) (r : Fin 16384) (e : Fin 1024)
    (h0 : (j 0).val = r.val) (h1 : (j 1).val = e.val) : G xf wT j = ((∑ d : Fin 1024, xf r d * wT d e : ℝ) : EReal) := by
  have hj : j = ValueIdx.ix2 r e := by
    funext a
    apply Fin.ext
    match a with
    | ⟨0, _⟩ => exact h0
    | ⟨1, _⟩ => exact h1
  subst hj
  rfl

/-! ## Window 4 -/

/-- What point t writes back to the first output array is block t of the product array. -/
theorem flushed4_eq (c : Dev nD) (xf : Fin 16384 → Fin 1024 → ℝ) (wT : Fin 1024 → Fin 1024 → ℝ)
    (hx : ∀ r d, V c main_v3 (ValueIdx.ix2 r d) = ((xf r d : ℝ) : EReal))
    (hw : ∀ d e, V c main_v0 (ValueIdx.ix2 d e) = ((wT d e : ℝ) : EReal)) (t : Fin cfg0.N) :
    (dat0 (F := Ideal) V c).flushed 4 t = ((cfg0.win 4).blk t).view.read (Elt Ideal) (G xf wT) := by
  show (cfg0.win 4).cut (grid0.coords t) ((dat0 V c).after 4 t) = _
  rw [after0_4]
  unfold out0_4
  rw [View.canon_unit_zero hz]
  simp only [View.ld_unit_zero (S := S512x1024) hz, View.ld_unit_zero (S := S1024x1024) hz]
  obtain ⟨-, -, -, -, -, -, -, -, e0, e1, -⟩ := idx_facts t
  have hN : cfg0.N = 32 := N_0
  funext j
  obtain ⟨p, e, rfl⟩ : ∃ (p : Fin 512) (e : Fin 1024), j = ValueIdx.ix2 p e := ⟨j 0, j 1, ValueIdx.eq_ix2 j⟩
  show k0_pay2 (F := Ideal) (iblk0 V c 0 t) (iblk0 V c 1 t) (ValueIdx.ix2 p e) = G xf wT (((cfg0.win 4).blk t).view.emb (ValueIdx.ix2 p e))
  have hlt : 512 * t.val + p.val < 16384 := by have := t.isLt; have := p.isLt; omega
  refine (pay2_apply _ _ p e).trans ?_
  refine (real_dot _ _ (fun a => xf ⟨_, hlt⟩ a) (fun a => wT a e) (fun a => ?_) (fun a => ?_)).trans ?_
  · exact (iblk0_0_apply V c t (ValueIdx.ix2 p a) (ValueIdx.ix2 ⟨_, hlt⟩ a) rfl rfl).trans (hx _ a)
  · exact (iblk0_1_apply V c t (ValueIdx.ix2 a e)).trans (hw a e)
  refine (G_apply xf wT _ ⟨_, hlt⟩ e ?_ ?_).symm
  · show win0_4.index t 0 * 512 + 1 * p.val = 512 * t.val + p.val; rw [e0]; omega
  · show win0_4.index t 1 * 1024 + 1 * e.val = e.val; rw [e1]; omega

/-- Every entry of the first output array is in the block of the point its row belongs to. -/
theorem cover4 (i : S16384x1024.Idx) :
    ∃ t : Fin cfg0.N, (cfg0.win 4).flush t = true ∧ i ∈ ((cfg0.win 4).blk t).view.set := by
  have hN : cfg0.N = 32 := N_0
  have hi0 : (i 0).val < 16384 := (i 0).isLt
  have hi1 : (i 1).val < 1024 := (i 1).isLt
  obtain ⟨t, ht⟩ : ∃ t : Fin cfg0.N, t.val = (i 0).val / 512 := ⟨⟨(i 0).val / 512, by rw [hN]; omega⟩, rfl⟩
  obtain ⟨-, -, -, -, -, -, -, -, e0, e1, -⟩ := idx_facts t
  refine ⟨t, flush0_4 t, ?_⟩
  show i ∈ ((View.whole main_v4_0).slice (win0_4.rect t)).set
  rw [View.set_slice_whole, Rect.mem_set_unit]
  intro a
  match a with
  | ⟨0, _⟩ => show win0_4.index t 0 * 512 ≤ (i 0).val ∧ (i 0).val < win0_4.index t 0 * 512 + 512; rw [e0, ht]; omega
  | ⟨1, _⟩ => show win0_4.index t 1 * 1024 ≤ (i 1).val ∧ (i 1).val < win0_4.index t 1 * 1024 + 1024; rw [e1]; omega

/-- The first output array after the region is the product array. -/
theorem final4 (c : Dev nD) (xf : Fin 16384 → Fin 1024 → ℝ) (wT : Fin 1024 → Fin 1024 → ℝ)
    (hx : ∀ r d, V c main_v3 (ValueIdx.ix2 r d) = ((xf r d : ℝ) : EReal))
    (hw : ∀ d e, V c main_v0 (ValueIdx.ix2 d e) = ((wT d e : ℝ) : EReal)) :
    (dat0 (F := Ideal) V c).arrAt 4 cfg0.N = G xf wT :=
  (dat0 (F := Ideal) V c).arrAt_eq_of_cover 4 (G xf wT) (fun t _ => flushed4_eq V c xf wT hx hw t) cover4

theorem arr4 (c : Dev nD) (xf : Fin 16384 → Fin 1024 → ℝ) (wT : Fin 1024 → Fin 1024 → ℝ)
    (hx : ∀ r d, V c main_v3 (ValueIdx.ix2 r d) = ((xf r d : ℝ) : EReal))
    (hw : ∀ d e, V c main_v0 (ValueIdx.ix2 d e) = ((wT d e : ℝ) : EReal)) :
    ∀ (r : Fin 16384) (e : Fin 1024),
      (dat0 (F := Ideal) V c).arrAt 4 cfg0.N (ValueIdx.ix2 r e) = ((∑ d : Fin 1024, xf r d * wT d e : ℝ) : EReal) :=
  fun r e => (congrFun (final4 V c xf wT hx hw) (ValueIdx.ix2 r e)).trans rfl

/-! ## Window 5 -/

/-- What point t writes back to the second output array is block t of the product array. -/
theorem flushed5_eq (c : Dev nD) (xf : Fin 16384 → Fin 1024 → ℝ) (wT : Fin 1024 → Fin 1024 → ℝ)
    (hx : ∀ r d, V c main_v3 (ValueIdx.ix2 r d) = ((xf r d : ℝ) : EReal))
    (hw : ∀ d e, V c main_v1 (ValueIdx.ix2 d e) = ((wT d e : ℝ) : EReal)) (t : Fin cfg0.N) :
    (dat0 (F := Ideal) V c).flushed 5 t = ((cfg0.win 5).blk t).view.read (Elt Ideal) (G xf wT) := by
  show (cfg0.win 5).cut (grid0.coords t) ((dat0 V c).after 5 t) = _
  rw [after0_5]
  unfold out0_5
  rw [View.canon_unit_zero hz]
  simp only [View.ld_unit_zero (S := S512x1024) hz, View.ld_unit_zero (S := S1024x1024) hz]
  obtain ⟨-, -, -, -, -, -, -, -, -, -, e0, e1, -⟩ := idx_facts t
  have hN : cfg0.N = 32 := N_0
  funext j
  obtain ⟨p, e, rfl⟩ : ∃ (p : Fin 512) (e : Fin 1024), j = ValueIdx.ix2 p e := ⟨j 0, j 1, ValueIdx.eq_ix2 j⟩
  show k0_pay3 (F := Ideal) (iblk0 V c 0 t) (iblk0 V c 2 t) (ValueIdx.ix2 p e) = G xf wT (((cfg0.win 5).blk t).view.emb (ValueIdx.ix2 p e))
  have hlt : 512 * t.val + p.val < 16384 := by have := t.isLt; have := p.isLt; omega
  refine (pay3_apply _ _ p e).trans ?_
  refine (real_dot _ _ (fun a => xf ⟨_, hlt⟩ a) (fun a => wT a e) (fun a => ?_) (fun a => ?_)).trans ?_
  · exact (iblk0_0_apply V c t (ValueIdx.ix2 p a) (ValueIdx.ix2 ⟨_, hlt⟩ a) rfl rfl).trans (hx _ a)
  · exact (iblk0_2_apply V c t (ValueIdx.ix2 a e)).trans (hw a e)
  refine (G_apply xf wT _ ⟨_, hlt⟩ e ?_ ?_).symm
  · show win0_5.index t 0 * 512 + 1 * p.val = 512 * t.val + p.val; rw [e0]; omega
  · show win0_5.index t 1 * 1024 + 1 * e.val = e.val; rw [e1]; omega

/-- Every entry of the second output array is in the block of the point its row belongs to. -/
theorem cover5 (i : S16384x1024.Idx) :
    ∃ t : Fin cfg0.N, (cfg0.win 5).flush t = true ∧ i ∈ ((cfg0.win 5).blk t).view.set := by
  have hN : cfg0.N = 32 := N_0
  have hi0 : (i 0).val < 16384 := (i 0).isLt
  have hi1 : (i 1).val < 1024 := (i 1).isLt
  obtain ⟨t, ht⟩ : ∃ t : Fin cfg0.N, t.val = (i 0).val / 512 := ⟨⟨(i 0).val / 512, by rw [hN]; omega⟩, rfl⟩
  obtain ⟨-, -, -, -, -, -, -, -, -, -, e0, e1, -⟩ := idx_facts t
  refine ⟨t, flush0_5 t, ?_⟩
  show i ∈ ((View.whole main_v4_1).slice (win0_5.rect t)).set
  rw [View.set_slice_whole, Rect.mem_set_unit]
  intro a
  match a with
  | ⟨0, _⟩ => show win0_5.index t 0 * 512 ≤ (i 0).val ∧ (i 0).val < win0_5.index t 0 * 512 + 512; rw [e0, ht]; omega
  | ⟨1, _⟩ => show win0_5.index t 1 * 1024 ≤ (i 1).val ∧ (i 1).val < win0_5.index t 1 * 1024 + 1024; rw [e1]; omega

/-- The second output array after the region is the product array. -/
theorem final5 (c : Dev nD) (xf : Fin 16384 → Fin 1024 → ℝ) (wT : Fin 1024 → Fin 1024 → ℝ)
    (hx : ∀ r d, V c main_v3 (ValueIdx.ix2 r d) = ((xf r d : ℝ) : EReal))
    (hw : ∀ d e, V c main_v1 (ValueIdx.ix2 d e) = ((wT d e : ℝ) : EReal)) :
    (dat0 (F := Ideal) V c).arrAt 5 cfg0.N = G xf wT :=
  (dat0 (F := Ideal) V c).arrAt_eq_of_cover 5 (G xf wT) (fun t _ => flushed5_eq V c xf wT hx hw t) cover5

theorem arr5 (c : Dev nD) (xf : Fin 16384 → Fin 1024 → ℝ) (wT : Fin 1024 → Fin 1024 → ℝ)
    (hx : ∀ r d, V c main_v3 (ValueIdx.ix2 r d) = ((xf r d : ℝ) : EReal))
    (hw : ∀ d e, V c main_v1 (ValueIdx.ix2 d e) = ((wT d e : ℝ) : EReal)) :
    ∀ (r : Fin 16384) (e : Fin 1024),
      (dat0 (F := Ideal) V c).arrAt 5 cfg0.N (ValueIdx.ix2 r e) = ((∑ d : Fin 1024, xf r d * wT d e : ℝ) : EReal) :=
  fun r e => (congrFun (final5 V c xf wT hx hw) (ValueIdx.ix2 r e)).trans rfl

/-! ## Window 6 -/

/-- What point t writes back to the third output array is block t of the product array. -/
theorem flushed6_eq (c : Dev nD) (xf : Fin 16384 → Fin 1024 → ℝ) (wT : Fin 1024 → Fin 1024 → ℝ)
    (hx : ∀ r d, V c main_v3 (ValueIdx.ix2 r d) = ((xf r d : ℝ) : EReal))
    (hw : ∀ d e, V c main_v2 (ValueIdx.ix2 d e) = ((wT d e : ℝ) : EReal)) (t : Fin cfg0.N) :
    (dat0 (F := Ideal) V c).flushed 6 t = ((cfg0.win 6).blk t).view.read (Elt Ideal) (G xf wT) := by
  show (cfg0.win 6).cut (grid0.coords t) ((dat0 V c).after 6 t) = _
  rw [after0_6]
  unfold out0_6
  rw [View.canon_unit_zero hz]
  simp only [View.ld_unit_zero (S := S512x1024) hz, View.ld_unit_zero (S := S1024x1024) hz]
  obtain ⟨-, -, -, -, -, -, -, -, -, -, -, -, e0, e1⟩ := idx_facts t
  have hN : cfg0.N = 32 := N_0
  funext j
  obtain ⟨p, e, rfl⟩ : ∃ (p : Fin 512) (e : Fin 1024), j = ValueIdx.ix2 p e := ⟨j 0, j 1, ValueIdx.eq_ix2 j⟩
  show k0_pay4 (F := Ideal) (iblk0 V c 0 t) (iblk0 V c 3 t) (ValueIdx.ix2 p e) = G xf wT (((cfg0.win 6).blk t).view.emb (ValueIdx.ix2 p e))
  have hlt : 512 * t.val + p.val < 16384 := by have := t.isLt; have := p.isLt; omega
  refine (pay4_apply _ _ p e).trans ?_
  refine (real_dot _ _ (fun a => xf ⟨_, hlt⟩ a) (fun a => wT a e) (fun a => ?_) (fun a => ?_)).trans ?_
  · exact (iblk0_0_apply V c t (ValueIdx.ix2 p a) (ValueIdx.ix2 ⟨_, hlt⟩ a) rfl rfl).trans (hx _ a)
  · exact (iblk0_3_apply V c t (ValueIdx.ix2 a e)).trans (hw a e)
  refine (G_apply xf wT _ ⟨_, hlt⟩ e ?_ ?_).symm
  · show win0_6.index t 0 * 512 + 1 * p.val = 512 * t.val + p.val; rw [e0]; omega
  · show win0_6.index t 1 * 1024 + 1 * e.val = e.val; rw [e1]; omega

/-- Every entry of the third output array is in the block of the point its row belongs to. -/
theorem cover6 (i : S16384x1024.Idx) :
    ∃ t : Fin cfg0.N, (cfg0.win 6).flush t = true ∧ i ∈ ((cfg0.win 6).blk t).view.set := by
  have hN : cfg0.N = 32 := N_0
  have hi0 : (i 0).val < 16384 := (i 0).isLt
  have hi1 : (i 1).val < 1024 := (i 1).isLt
  obtain ⟨t, ht⟩ : ∃ t : Fin cfg0.N, t.val = (i 0).val / 512 := ⟨⟨(i 0).val / 512, by rw [hN]; omega⟩, rfl⟩
  obtain ⟨-, -, -, -, -, -, -, -, -, -, -, -, e0, e1⟩ := idx_facts t
  refine ⟨t, flush0_6 t, ?_⟩
  show i ∈ ((View.whole main_v4_2).slice (win0_6.rect t)).set
  rw [View.set_slice_whole, Rect.mem_set_unit]
  intro a
  match a with
  | ⟨0, _⟩ => show win0_6.index t 0 * 512 ≤ (i 0).val ∧ (i 0).val < win0_6.index t 0 * 512 + 512; rw [e0, ht]; omega
  | ⟨1, _⟩ => show win0_6.index t 1 * 1024 ≤ (i 1).val ∧ (i 1).val < win0_6.index t 1 * 1024 + 1024; rw [e1]; omega

/-- The third output array after the region is the product array. -/
theorem final6 (c : Dev nD) (xf : Fin 16384 → Fin 1024 → ℝ) (wT : Fin 1024 → Fin 1024 → ℝ)
    (hx : ∀ r d, V c main_v3 (ValueIdx.ix2 r d) = ((xf r d : ℝ) : EReal))
    (hw : ∀ d e, V c main_v2 (ValueIdx.ix2 d e) = ((wT d e : ℝ) : EReal)) :
    (dat0 (F := Ideal) V c).arrAt 6 cfg0.N = G xf wT :=
  (dat0 (F := Ideal) V c).arrAt_eq_of_cover 6 (G xf wT) (fun t _ => flushed6_eq V c xf wT hx hw t) cover6

theorem arr6 (c : Dev nD) (xf : Fin 16384 → Fin 1024 → ℝ) (wT : Fin 1024 → Fin 1024 → ℝ)
    (hx : ∀ r d, V c main_v3 (ValueIdx.ix2 r d) = ((xf r d : ℝ) : EReal))
    (hw : ∀ d e, V c main_v2 (ValueIdx.ix2 d e) = ((wT d e : ℝ) : EReal)) :
    ∀ (r : Fin 16384) (e : Fin 1024),
      (dat0 (F := Ideal) V c).arrAt 6 cfg0.N (ValueIdx.ix2 r e) = ((∑ d : Fin 1024, xf r d * wT d e : ℝ) : EReal) :=
  fun r e => (congrFun (final6 V c xf wT hx hw) (ValueIdx.ix2 r e)).trans rfl

end Cert.KernelIdeal.Val0

end
-- ==== Proof.LibKeepdims.lean ====
/-
  Two layout operations read at an index given by coordinates, for the column that a sum over the LAST axis with
  `keepdims=True` leaves: a vector `[a]` re-shaped to a column `[a, 1]`, and a column `[a, 1]` broadcast along its
  unit axis to a matrix `[a, b]`. (The row forms `[a] → [1, a]` and `[1, b] → [a, b]` are in the library's
  Lib/ValueLayout.lean; these are their transposes, for any extents and any element type.)
-/
import Idealize.ShloMosaic.Lib.Pipeline.Value
import Idealize.ShloMosaic.Lib.ValueIdx

namespace Cert.LibKeepdims

open Idealize.ShloMosaic Idealize.ShloMosaic.ValueIdx

variable {α : Type}

/-- An `[a]` array cast to a column `[a, 1]` reads, at `(i, u)`, the operand at `i`, whatever the unit coordinate `u`:
    both indices have row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry in row `p`: the row coordinate is kept
    (also when `a = 1`, where it can only be `0`), the coordinate on the unit axis is `0`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdims
-- ==== Proof.LibPrefixMax.lean ====
/-
  Running maxima of a sequence of integers, and the signed maximum of machine words.

  * The greatest entry of a prefix a 0, ..., a j is pinned down by two facts (it bounds every entry of the prefix, and it is
    one of them): IsPrefMax, unique by antisymmetry. Two computations that each produce a value with these two facts
    produce the same value, however they arrange the comparisons.
  * THE DOUBLING SCAN. Start from the sequence itself (each entry is the greatest of the window of width 1 ending at it) and
    repeatedly replace entry j by the larger of itself and the entry w places before it (a fill value where there is no
    such place), w the current window width: the windows double. IsWinMax.double is one such step, stated for the
    positions below a bound N; once the width reaches N, and the fill is no larger than any entry, entry j is the
    greatest of the prefix ending at j (IsWinMax.isPrefMax).
  * The signed maximum of two words is the maximum of their signed values (toInt_maxsi); it commutes and associates; a
    left fold of it over a list is bounded below by the start and by every element and is one of them
    (foldl_maxsi_spec, isPrefMax_of_foldl_maxsi); and the signed values' maximum over a nonempty finite set, converted to an extended real, is the
    fold of the extended reals' max from bottom over the converted values (fold_max_coe_toInt).

  Nothing here mentions a program.
-/
import Mathlib
import Idealize.ShloMosaic.PureOps.Float

namespace Cert.PrefixMax

open Idealize.ShloMosaic

/-! ## The greatest entry of a prefix -/

/-- v is the greatest of a 0, ..., a j: it bounds them all and is one of them. -/
def IsPrefMax (a : ℕ → ℤ) (j : ℕ) (v : ℤ) : Prop := (∀ k, k ≤ j → a k ≤ v) ∧ ∃ k, k ≤ j ∧ v = a k

theorem IsPrefMax.unique {a : ℕ → ℤ} {j : ℕ} {v v' : ℤ} (h : IsPrefMax a j v) (h' : IsPrefMax a j v') : v = v' := by
  obtain ⟨k, hk, rfl⟩ := h.2
  obtain ⟨k', hk', rfl⟩ := h'.2
  exact le_antisymm (h'.1 k hk) (h.1 k' hk')

/-- The greatest of a prefix depends on the prefix's entries only. -/
theorem IsPrefMax.congr {a a' : ℕ → ℤ} {j : ℕ} {v : ℤ} (h : IsPrefMax a j v) (e : ∀ k, k ≤ j → a k = a' k) :
    IsPrefMax a' j v := by
  obtain ⟨hub, k, hk, rfl⟩ := h
  exact ⟨fun k' hk' => by rw [← e k' hk']; exact hub k' hk', k, hk, e k hk⟩

/-! ## The doubling scan -/

/-- The entry s places before j, or the fill f where the sequence has not started yet. -/
def back (a : ℕ → ℤ) (f : ℤ) (j s : ℕ) : ℤ := if s ≤ j then a (j - s) else f

/-- At every position j below N, b j is the greatest of the w entries ending at j, the fill standing in for the
    places before the start. -/
def IsWinMax (N : ℕ) (a : ℕ → ℤ) (f : ℤ) (w : ℕ) (b : ℕ → ℤ) : Prop :=
  ∀ j, j < N → (∀ s, s < w → back a f j s ≤ b j) ∧ ∃ s, s < w ∧ b j = back a f j s

/-- Width one: the sequence itself. -/
theorem isWinMax_one (N : ℕ) (a : ℕ → ℤ) (f : ℤ) : IsWinMax N a f 1 a := fun j _ =>
  ⟨fun s hs => by
      obtain rfl : s = 0 := by omega
      unfold back; rw [if_pos (Nat.zero_le _), Nat.sub_zero],
    0, Nat.one_pos, by unfold back; rw [if_pos (Nat.zero_le _), Nat.sub_zero]⟩

/-- ONE STEP: the larger of the window ending at j and the window ending w places earlier (the fill, when there is no
    such place) is the window of width w + w ending at j. -/
theorem IsWinMax.double {N : ℕ} {a : ℕ → ℤ} {f : ℤ} {w : ℕ} {b b' : ℕ → ℤ} (h : IsWinMax N a f w b) (hw : 0 < w)
    (hb : ∀ j, j < N → b' j = max (b j) (if w ≤ j then b (j - w) else f)) : IsWinMax N a f (w + w) b' := by
  intro j hj
  rw [hb j hj]
  obtain ⟨hub, s0, hs0, e0⟩ := h j hj
  by_cases hwj : w ≤ j
  · rw [if_pos hwj]
    obtain ⟨hub', s1, hs1, e1⟩ := h (j - w) (by omega)
    refine ⟨fun s hs => ?_, ?_⟩
    · by_cases hsw : s < w
      · exact le_trans (hub s hsw) (le_max_left _ _)
      · have e : back a f j s = back a f (j - w) (s - w) := by
          unfold back
          by_cases hsj : s ≤ j
          · rw [if_pos hsj, if_pos (by omega), show j - w - (s - w) = j - s by omega]
          · rw [if_neg hsj, if_neg (by omega)]
        rw [e]
        exact le_trans (hub' (s - w) (by omega)) (le_max_right _ _)
    · rcases max_cases (b j) (b (j - w)) with ⟨hm, _⟩ | ⟨hm, _⟩
      · exact ⟨s0, by omega, by rw [hm, e0]⟩
      · refine ⟨w + s1, by omega, ?_⟩
        rw [hm, e1]
        unfold back
        by_cases hsj : s1 ≤ j - w
        · rw [if_pos hsj, if_pos (by omega), show j - (w + s1) = j - w - s1 by omega]
        · rw [if_neg hsj, if_neg (by omega)]
  · rw [if_neg hwj]
    refine ⟨fun s hs => ?_, ?_⟩
    · by_cases hsw : s < w
      · exact le_trans (hub s hsw) (le_max_left _ _)
      · have e : back a f j s = f := by unfold back; rw [if_neg (by omega)]
        rw [e]; exact le_max_right _ _
    · rcases max_cases (b j) f with ⟨hm, _⟩ | ⟨hm, _⟩
      · exact ⟨s0, by omega, by rw [hm, e0]⟩
      · exact ⟨w, by omega, by rw [hm]; unfold back; rw [if_neg (by omega)]⟩

/-- Once the window is as wide as the sequence is long, and the fill is no larger than any entry, the window ending at j
    is the prefix ending at j. -/
theorem IsWinMax.isPrefMax {N : ℕ} {a : ℕ → ℤ} {f : ℤ} {w : ℕ} {b : ℕ → ℤ} (h : IsWinMax N a f w b) (hN : N ≤ w)
    (hf : ∀ k, k < N → f ≤ a k) (j : ℕ) (hj : j < N) : IsPrefMax a j (b j) := by
  obtain ⟨hub, s, hs, e⟩ := h j hj
  refine ⟨fun k hk => ?_, ?_⟩
  · have h1 := hub (j - k) (by omega)
    unfold back at h1
    rw [if_pos (by omega), show j - (j - k) = k by omega] at h1
    exact h1
  · by_cases hsj : s ≤ j
    · exact ⟨j - s, by omega, by rw [e]; unfold back; rw [if_pos hsj]⟩
    · refine ⟨j, le_rfl, ?_⟩
      have e' : b j = f := by rw [e]; unfold back; rw [if_neg hsj]
      have h1 := hub 0 (by omega)
      unfold back at h1
      rw [if_pos (Nat.zero_le _), Nat.sub_zero] at h1
      exact le_antisymm (by rw [e']; exact hf j hj) h1

/-! ## The signed maximum of words -/

theorem toInt_maxsi {w : ℕ} (x y : BitVec w) : (IntOp.maxsi x y).toInt = max x.toInt y.toInt := by
  unfold IntOp.maxsi
  split
  · rename_i h
    rw [BitVec.slt_iff_toInt_lt] at h
    rw [max_eq_left (le_of_lt h)]
  · rename_i h
    rw [BitVec.slt_iff_toInt_lt] at h
    rw [max_eq_right (not_lt.mp h)]

instance maxsi_comm {w : ℕ} : Std.Commutative (IntOp.maxsi : BitVec w → BitVec w → BitVec w) :=
  ⟨fun x y => BitVec.eq_of_toInt_eq (by rw [toInt_maxsi, toInt_maxsi, max_comm])⟩

instance maxsi_assoc {w : ℕ} : Std.Associative (IntOp.maxsi : BitVec w → BitVec w → BitVec w) :=
  ⟨fun x y z => BitVec.eq_of_toInt_eq (by simp only [toInt_maxsi, max_assoc])⟩

/-- A left fold of the signed maximum from v over the values g n, n in a list: at least v, at least every value,
    and one of them. -/
theorem foldl_maxsi_spec {ι : Type} {w : ℕ} (g : ι → BitVec w) : ∀ (l : List ι) (v : BitVec w),
    v.toInt ≤ (l.foldl (fun r n => IntOp.maxsi r (g n)) v).toInt
      ∧ (∀ n ∈ l, (g n).toInt ≤ (l.foldl (fun r n => IntOp.maxsi r (g n)) v).toInt)
      ∧ (l.foldl (fun r n => IntOp.maxsi r (g n)) v = v ∨ ∃ n ∈ l, l.foldl (fun r n => IntOp.maxsi r (g n)) v = g n)
  | [], v => ⟨le_rfl, fun _ h => absurd h (List.not_mem_nil), Or.inl rfl⟩
  | a :: l, v => by
    obtain ⟨h1, h2, h3⟩ := foldl_maxsi_spec g l (IntOp.maxsi v (g a))
    rw [toInt_maxsi] at h1
    rw [List.foldl_cons]
    refine ⟨le_trans (le_max_left _ _) h1, fun n hn => ?_, ?_⟩
    · rcases List.mem_cons.mp hn with rfl | hn
      · exact le_trans (le_max_right _ _) h1
      · exact h2 n hn
    · rcases h3 with h3 | ⟨n, hn, h3⟩
      · rw [h3]
        rcases max_cases v.toInt (g a).toInt with ⟨hm, _⟩ | ⟨hm, _⟩
        · exact Or.inl (BitVec.eq_of_toInt_eq (by rw [toInt_maxsi, hm]))
        · exact Or.inr ⟨a, List.mem_cons_self, BitVec.eq_of_toInt_eq (by rw [toInt_maxsi, hm])⟩
      · exact Or.inr ⟨n, List.mem_cons_of_mem _ hn, h3⟩

/-- A left fold of the signed maximum from a start no larger than a j, over elements each of which is the start or an
    entry of the prefix a 0, ..., a j, and among which every entry of the prefix occurs: the greatest of the prefix. -/
theorem isPrefMax_of_foldl_maxsi {ι : Type} {w : ℕ} (l : List ι) (E : ι → BitVec w) (v : BitVec w) (a : ℕ → ℤ) (j : ℕ)
    (hv : v.toInt ≤ a j)
    (hA : ∀ n ∈ l, E n = v ∨ ∃ k, k ≤ j ∧ (E n).toInt = a k)
    (hB : ∀ k, k ≤ j → ∃ n ∈ l, (E n).toInt = a k) :
    IsPrefMax a j (l.foldl (fun r n => IntOp.maxsi r (E n)) v).toInt := by
  obtain ⟨_, f2, f3⟩ := foldl_maxsi_spec E l v
  have hjj : a j ≤ (l.foldl (fun r n => IntOp.maxsi r (E n)) v).toInt := by
    obtain ⟨n, hn, e⟩ := hB j le_rfl
    rw [← e]; exact f2 n hn
  have hinit : l.foldl (fun r n => IntOp.maxsi r (E n)) v = v
      → ∃ k, k ≤ j ∧ (l.foldl (fun r n => IntOp.maxsi r (E n)) v).toInt = a k :=
    fun e0 => ⟨j, le_rfl, le_antisymm (by rw [e0]; exact hv) hjj⟩
  refine ⟨fun k hk => ?_, ?_⟩
  · obtain ⟨n, hn, e⟩ := hB k hk
    rw [← e]; exact f2 n hn
  · rcases f3 with e0 | ⟨n, hn, en⟩
    · exact hinit e0
    · rcases hA n hn with e1 | ⟨k, hk, e1⟩
      · exact hinit (en.trans e1)
      · exact ⟨k, hk, by rw [en, e1]⟩

/-- An integer as an extended real. -/
def toE (z : ℤ) : EReal := ((z : ℝ) : EReal)

theorem toE_mono : Monotone toE := fun _ _ h => EReal.coe_le_coe_iff.mpr (Int.cast_le.mpr h)

/-- Over a nonempty finite set, with a starting word no larger than any value: the signed maximum, converted, is the
    extended reals' maximum from bottom of the converted values. -/
theorem fold_max_coe_toInt {ι : Type} {w : ℕ} (s : Finset ι) (g : ι → BitVec w) (hs : s.Nonempty) (v : BitVec w)
    (hv : ∀ k ∈ s, v.toInt ≤ (g k).toInt) :
    s.fold max (⊥ : EReal) (fun k => toE (g k).toInt) = toE (s.fold IntOp.maxsi v g).toInt := by
  classical
  have key : ∀ t : Finset ι, max (toE v.toInt) (t.fold max (⊥ : EReal) (fun k => toE (g k).toInt))
      = toE (t.fold IntOp.maxsi v g).toInt := by
    intro t
    induction t using Finset.induction_on with
    | empty => rw [Finset.fold_empty, Finset.fold_empty, max_eq_left bot_le]
    | insert a t ha ih =>
      rw [Finset.fold_insert ha, Finset.fold_insert ha, max_left_comm, ih, toInt_maxsi, toE_mono.map_max]
  rw [← key s]
  obtain ⟨k, hk⟩ := hs
  refine (max_eq_right ?_).symm
  exact le_trans (toE_mono (hv k hk)) ((Finset.le_fold_max _).mpr (Or.inr ⟨k, hk, le_rfl⟩))

end Cert.PrefixMax
-- ==== Proof.LibReduceRead.lean ====
/-
  One-axis reductions of a matrix [A, B], read at coordinates.

  The library reads a reduction over one axis at a reduced index j as a sum (or a fold) over the dropped axis's
  coordinates k of the source at 'j with k inserted' (Shape.Reduces.lift). For a matrix that index is (r, k) when the
  columns are reduced and (k, c) when the rows are (lift_axis1, lift_axis0). With them: a float sum over either axis as a
  Fin-indexed sum of entries; a float maximum over the columns as the fold of max from the accumulator's value; and the
  host's one-operand reduce by signed maximum over the columns as the fold of the signed maximum from the initial word.
  The accumulator's proof arguments are left as variables of the type the printed operation carries.
-/
import proofs.«110892_j22204980920987_1_alg».proof.Proof.LibPrefixMax
import Idealize.ShloMosaic.PureOps.Ideal.Laws
import Idealize.ShloMosaic.Lib.ValueIdx

namespace Cert.ReduceRead

open Idealize.ShloMosaic Idealize.ShloMosaic.ValueIdx Cert.PrefixMax

variable {A B : ℕ}

/-- Reducing the columns: the source index over row r with column k inserted is (r, k). -/
theorem lift_axis1 (h : (⟨2, ![A, B]⟩ : Shape).Reduces [1] ⟨1, ![A]⟩) (r : Fin A) (k : Fin B) :
    h.lift (ix1 r) k = ix2 r k := by
  funext c
  apply Fin.ext
  show h.liftVal (ix1 r) k.val c = (ix2 r k c).val
  unfold Shape.Reduces.liftVal
  match c with
  | ⟨0, _⟩ => simp
  | ⟨1, _⟩ => simp

/-- Reducing the rows: the source index over column c with row k inserted is (k, c). -/
theorem lift_axis0 (h : (⟨2, ![A, B]⟩ : Shape).Reduces [0] ⟨1, ![B]⟩) (c : Fin B) (k : Fin A) :
    h.lift (ix1 c) k = ix2 k c := by
  funext d
  apply Fin.ext
  show h.liftVal (ix1 c) k.val d = (ix2 k c d).val
  unfold Shape.Reduces.liftVal
  match d with
  | ⟨0, _⟩ => simp
  | ⟨1, _⟩ => simp

/-- A float sum over the columns, at row r: the sum of the row's entries. -/
theorem add_axis1 {φ : FTy} (src : FVec Ideal (⟨2, ![A, B]⟩ : Shape) φ) (acc : BitVec φ.bits)
    (h : (⟨2, ![A, B]⟩ : Shape).Reduces [1] ⟨1, ![A]⟩) (hφ : FKind.Formats φ) (hacc : acc = FKind.add.neutral φ hφ) (r : Fin A) :
    multiReduction .add [1] ⟨1, ![A]⟩ src acc h hφ hacc (ix1 r) = ∑ k : Fin B, src (ix2 r k) :=
  (Ideal.multiReduction_add_single src acc h hφ hacc (ix1 r)).trans
    (Finset.sum_congr rfl fun k _ => congrArg src (lift_axis1 h r k))

/-- A float sum over the rows, at column c: the sum of the column's entries. -/
theorem add_axis0 {φ : FTy} (src : FVec Ideal (⟨2, ![A, B]⟩ : Shape) φ) (acc : BitVec φ.bits)
    (h : (⟨2, ![A, B]⟩ : Shape).Reduces [0] ⟨1, ![B]⟩) (hφ : FKind.Formats φ) (hacc : acc = FKind.add.neutral φ hφ) (c : Fin B) :
    multiReduction .add [0] ⟨1, ![B]⟩ src acc h hφ hacc (ix1 c) = ∑ k : Fin A, src (ix2 k c) :=
  (Ideal.multiReduction_add_single src acc h hφ hacc (ix1 c)).trans
    (Finset.sum_congr rfl fun k _ => congrArg src (lift_axis0 h c k))

/-- A float maximum over the columns, at row r: the fold of max over the row's entries from the accumulator's value. -/
theorem max_axis1 {φ : FTy} (src : FVec Ideal (⟨2, ![A, B]⟩ : Shape) φ) (acc : BitVec φ.bits)
    (h : (⟨2, ![A, B]⟩ : Shape).Reduces [1] ⟨1, ![A]⟩) (hφ : FKind.Formats φ) (hacc : acc = FKind.maximumf.neutral φ hφ) (r : Fin A) :
    multiReduction .maximumf [1] ⟨1, ![A]⟩ src acc h hφ hacc (ix1 r)
      = (Finset.univ : Finset (Fin B)).fold max (FloatOps.ofBits φ acc) (fun k => src (ix2 r k)) :=
  (Ideal.multiReduction_maximumf_single src acc h hφ hacc (ix1 r)).trans
    (congrArg (fun f => (Finset.univ : Finset (Fin B)).fold max (FloatOps.ofBits φ acc) f)
      (funext fun k => congrArg src (lift_axis1 h r k)))

/-- The host's reduce by signed maximum over the columns, at row r: the fold of the signed maximum over the row's entries
    from the initial word. -/
theorem hostMaxsi_axis1 {u : Shape} (x : (⟨2, ![A, B]⟩ : Shape).Idx → BitVec 32) (init : u.Idx → BitVec 32)
    (h' : (⟨2, ![A, B]⟩ : Shape).ReducesTo [1] ⟨1, ![A]⟩) (h : (⟨2, ![A, B]⟩ : Shape).Reduces [1] ⟨1, ![A]⟩)
    (hu : 0 < u.numel) (r : Fin A) :
    Host.reduce IntOp.maxsi x init h' hu (ix1 r)
      = (Finset.univ : Finset (Fin B)).fold IntOp.maxsi (init (Shape.Idx.first hu)) (fun k => x (ix2 r k)) :=
  (Host.reduce_eq_fold_single IntOp.maxsi x init h' h hu (ix1 r)).trans
    (congrArg (fun f => (Finset.univ : Finset (Fin B)).fold IntOp.maxsi (init (Shape.Idx.first hu)) f)
      (funext fun k => congrArg x (lift_axis1 h r k)))

end Cert.ReduceRead
-- ==== Proof.LibOnlineSoftmax.lean ====
/-
Online softmax.

For a score sequence `g` and a value sequence `u`, both indexed by a flat position
`t = j * n + k` (tile `j`, offset `k < n` inside the tile), the tile-by-tile recurrence

  m₀ = max of tile 0,                         m_{j+1} = max m_j (max of tile j+1)
  d₀ = ∑ₖ exp (g(0·n+k) - m₀),                d_{j+1} = exp (m_j - m_{j+1}) · d_j + ∑ₖ exp (g((j+1)·n+k) - m_{j+1})
  a₀ = ∑ₖ exp (g(0·n+k) - m₀) · u(0·n+k),     a_{j+1} = exp (m_j - m_{j+1}) · a_j + ∑ₖ exp (g((j+1)·n+k) - m_{j+1}) · u((j+1)·n+k)

satisfies: `m_j` is the maximum of `g` over the first `(j+1)·n` positions,
`d_j = ∑_{t < (j+1)·n} exp (g t - m_j)`, `a_j = ∑_{t < (j+1)·n} exp (g t - m_j) · u t`, and hence
`a_j / d_j` is the softmax-weighted average of `u` over the first `(j+1)·n` positions, computed in
one shot with the global maximum subtracted (`online_softmax_flat`).
-/
import Mathlib

namespace Cert.OnlineSoftmax

open Finset

variable {n : ℕ} [NeZero n] (g u : ℕ → ℝ)

/-- Maximum of the scores of tile `j`. -/
noncomputable def tileMax (j : ℕ) : ℝ :=
  Finset.univ.sup' Finset.univ_nonempty fun k : Fin n => g (j * n + k)

/-- Running maximum over tiles `0 … j`. -/
noncomputable def runMax : ℕ → ℝ
  | 0 => tileMax (n := n) g 0
  | j + 1 => max (runMax j) (tileMax (n := n) g (j + 1))

/-- Running denominator, rescaled to the running maximum. -/
noncomputable def runDen : ℕ → ℝ
  | 0 => ∑ k : Fin n, Real.exp (g (0 * n + k) - runMax (n := n) g 0)
  | j + 1 => Real.exp (runMax (n := n) g j - runMax (n := n) g (j + 1)) * runDen j
      + ∑ k : Fin n, Real.exp (g ((j + 1) * n + k) - runMax (n := n) g (j + 1))

/-- Running weighted accumulator, rescaled to the running maximum. -/
noncomputable def runAcc : ℕ → ℝ
  | 0 => ∑ k : Fin n, Real.exp (g (0 * n + k) - runMax (n := n) g 0) * u (0 * n + k)
  | j + 1 => Real.exp (runMax (n := n) g j - runMax (n := n) g (j + 1)) * runAcc j
      + ∑ k : Fin n, Real.exp (g ((j + 1) * n + k) - runMax (n := n) g (j + 1)) * u ((j + 1) * n + k)

/-- Rescaling law: moving the reference point of an exponential weight from `a` to `b`. -/
theorem exp_shift (a b c : ℝ) : Real.exp (a - b) * Real.exp (c - a) = Real.exp (c - b) := by
  rw [← Real.exp_add]; congr 1; ring

omit [NeZero n] in
/-- The first `(j+1)·n` positions are the first `j·n` positions followed by tile `j`. -/
theorem sum_range_succ_tile (f : ℕ → ℝ) (j : ℕ) :
    ∑ t ∈ range ((j + 1) * n), f t = ∑ t ∈ range (j * n), f t + ∑ k : Fin n, f (j * n + k) := by
  rw [Fin.sum_univ_eq_sum_range (fun k => f (j * n + k)) n,
    show (j + 1) * n = j * n + n by ring, Finset.sum_range_add]

theorem le_tileMax (j : ℕ) (k : Fin n) : g (j * n + k) ≤ tileMax (n := n) g j :=
  Finset.le_sup' (fun k : Fin n => g (j * n + k)) (Finset.mem_univ k)

theorem tileMax_attained (j : ℕ) : ∃ k : Fin n, tileMax (n := n) g j = g (j * n + k) := by
  obtain ⟨k, _, hk⟩ :=
    Finset.exists_mem_eq_sup' Finset.univ_nonempty (fun k : Fin n => g (j * n + k))
  exact ⟨k, hk⟩

/-- The running maximum dominates every score seen so far. -/
theorem le_runMax (j t : ℕ) (ht : t < (j + 1) * n) : g t ≤ runMax (n := n) g j := by
  induction j with
  | zero =>
    have ht' : t < n := by simpa using ht
    have h := le_tileMax (n := n) g 0 ⟨t, ht'⟩
    simpa [runMax] using h
  | succ j ih =>
    rw [runMax]
    by_cases h : t < (j + 1) * n
    · exact le_trans (ih h) (le_max_left _ _)
    · have h1 : (j + 1) * n ≤ t := not_lt.mp h
      obtain ⟨k, hk⟩ := Nat.exists_eq_add_of_le h1
      have e : (j + 1 + 1) * n = (j + 1) * n + n := by ring
      have hkn : k < n := by omega
      have h2 := le_tileMax (n := n) g (j + 1) ⟨k, hkn⟩
      subst hk
      exact le_trans h2 (le_max_right _ _)

/-- The running maximum is one of the scores seen so far. -/
theorem runMax_attained (j : ℕ) : ∃ t, t < (j + 1) * n ∧ runMax (n := n) g j = g t := by
  induction j with
  | zero =>
    obtain ⟨k, hk⟩ := tileMax_attained (n := n) g 0
    refine ⟨0 * n + k, ?_, ?_⟩
    · have := k.isLt
      simpa using this
    · rw [runMax, hk]
  | succ j ih =>
    obtain ⟨t, ht, he⟩ := ih
    obtain ⟨k, hk⟩ := tileMax_attained (n := n) g (j + 1)
    have e : (j + 1 + 1) * n = (j + 1) * n + n := by ring
    rcases le_total (runMax (n := n) g j) (tileMax (n := n) g (j + 1)) with h | h
    · refine ⟨(j + 1) * n + k, ?_, ?_⟩
      · have := k.isLt
        omega
      · rw [runMax, max_eq_right h, hk]
    · refine ⟨t, ?_, ?_⟩
      · omega
      · rw [runMax, max_eq_left h, he]

/-- The running denominator is the full sum of weights relative to the running maximum. -/
theorem runDen_eq (j : ℕ) :
    runDen (n := n) g j = ∑ t ∈ range ((j + 1) * n), Real.exp (g t - runMax (n := n) g j) := by
  induction j with
  | zero =>
    rw [runDen, sum_range_succ_tile]
    simp
  | succ j ih =>
    rw [runDen, ih, Finset.mul_sum, sum_range_succ_tile _ (j + 1)]
    congr 1
    apply Finset.sum_congr rfl
    intro t _
    exact exp_shift _ _ _

/-- The running accumulator is the full weighted sum relative to the running maximum. -/
theorem runAcc_eq (j : ℕ) :
    runAcc (n := n) g u j
      = ∑ t ∈ range ((j + 1) * n), Real.exp (g t - runMax (n := n) g j) * u t := by
  induction j with
  | zero =>
    rw [runAcc, sum_range_succ_tile]
    simp
  | succ j ih =>
    rw [runAcc, ih, Finset.mul_sum, sum_range_succ_tile _ (j + 1)]
    congr 1
    apply Finset.sum_congr rfl
    intro t _
    rw [← mul_assoc, exp_shift]

theorem runDen_pos (j : ℕ) : 0 < runDen (n := n) g j := by
  rw [runDen_eq]
  apply Finset.sum_pos (fun t _ => Real.exp_pos _)
  exact Finset.nonempty_range_iff.mpr (Nat.mul_ne_zero (Nat.succ_ne_zero j) (NeZero.ne n))

/-- The maximum over the first `(j+1)·n` positions is the running maximum. -/
theorem sup'_eq_runMax (j N : ℕ) (hN : N = (j + 1) * n) [NeZero N] :
    (Finset.univ.sup' Finset.univ_nonempty fun t' : Fin N => g t') = runMax (n := n) g j := by
  apply le_antisymm
  · apply Finset.sup'_le
    intro t _
    exact le_runMax g j t (lt_of_lt_of_eq t.isLt hN)
  · obtain ⟨t, ht, he⟩ := runMax_attained (n := n) g j
    rw [he]
    exact Finset.le_sup' (fun t' : Fin N => g t')
      (Finset.mem_univ (⟨t, lt_of_lt_of_eq ht hN.symm⟩ : Fin N))

theorem online_softmax_flat (j N : ℕ) (hN : N = (j + 1) * n) [NeZero N] :
    runAcc (n := n) g u j / runDen (n := n) g j
      = ∑ t : Fin N, Real.exp (g t - Finset.univ.sup' Finset.univ_nonempty fun t' : Fin N => g t')
          / (∑ t' : Fin N, Real.exp (g t' - Finset.univ.sup' Finset.univ_nonempty
              fun t'' : Fin N => g t'')) * u t := by
  rw [sup'_eq_runMax g j N hN,
    Fin.sum_univ_eq_sum_range (fun t => Real.exp (g t - runMax (n := n) g j)) N,
    Fin.sum_univ_eq_sum_range (fun t => Real.exp (g t - runMax (n := n) g j)
      / (∑ t' ∈ range N, Real.exp (g t' - runMax (n := n) g j)) * u t) N]
  subst hN
  rw [runAcc_eq, runDen_eq, Finset.sum_div]
  apply Finset.sum_congr rfl
  intro t _
  ring

end Cert.OnlineSoftmax
-- ==== Proof.KState.lean ====
/-
  The attention kernel's arithmetic over the exact values, read at coordinates: each payload of the body as a
  formula over real witnesses of its operands, one key tile's step on the carried state as a step on real
  triples, the block the last tile writes, and the eight tiles as the online-softmax recurrence.
-/
import proofs.«110892_j22204980920987_1_alg».proof.Proof.RecurI
import proofs.«110892_j22204980920987_1_alg».proof.Proof.LibERealAlgebra
import proofs.«110892_j22204980920987_1_alg».proof.Proof.LibMatmulRows
import proofs.«110892_j22204980920987_1_alg».proof.Proof.LibKeepdims
import proofs.«110892_j22204980920987_1_alg».proof.Proof.LibReduceRead
import proofs.«110892_j22204980920987_1_alg».proof.Proof.LibOnlineSoftmax
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.KState

open Idealize.ShloMosaic Idealize.ShloMosaic.ValueIdx Cert.KernelIdeal Cert.KernelIdeal.Gen
open scoped BigOperators

/-! ## Layout operations and products read at coordinates -/

/-- A product that contracts axis 1 of both operands (rows against rows), into the zero accumulator, read at (p, c):
    the sum over a < K of l(p, a) · r(c, a). -/
theorem matmulT_zero_ix2 {M K N : Nat} {φ₁ φ₂ : FTy} (d : DotDims ⟨2, ![M, K]⟩ ⟨2, ![N, K]⟩ ⟨2, ![M, N]⟩)
    (hr : d.contr.rank = 1) (hs : d.contr.size ⟨0, by omega⟩ = K)
    (hl0 : ∀ (i : (⟨2, ![M, N]⟩ : Shape).Idx) (q : d.contr.Idx), (d.lhsIdx i q 0).val = (i 0).val)
    (hl1 : ∀ (i : (⟨2, ![M, N]⟩ : Shape).Idx) (q : d.contr.Idx), (d.lhsIdx i q 1).val = (q ⟨0, by omega⟩).val)
    (hr0 : ∀ (i : (⟨2, ![M, N]⟩ : Shape).Idx) (q : d.contr.Idx), (d.rhsIdx i q 0).val = (i 1).val)
    (hr1 : ∀ (i : (⟨2, ![M, N]⟩ : Shape).Idx) (q : d.contr.Idx), (d.rhsIdx i q 1).val = (q ⟨0, by omega⟩).val)
    (prec : Option ContractPrecision) (l : FVec Ideal ⟨2, ![M, K]⟩ φ₁) (r : FVec Ideal ⟨2, ![N, K]⟩ φ₂) (p : Fin M) (c : Fin N) :
    matmul d prec l r (constant ⟨2, ![M, N]⟩ .f32 0x00000000#32) (ix2 p c) = ∑ a : Fin K, l (ix2 p a) * r (ix2 c a) := by
  show FloatOps.matmul d prec l r (constant ⟨2, ![M, N]⟩ .f32 0x00000000#32) (ix2 p c) = _
  rw [Ideal.matmul_constant_zero_apply, ← Equiv.sum_comp (contrEquiv1 d K hr hs).symm]
  refine Finset.sum_congr rfl fun a _ => ?_
  have hk := contrEquiv1_symm_val d K hr hs a
  have el : d.lhsIdx (ix2 p c) ((contrEquiv1 d K hr hs).symm a) = ix2 p a := funext fun x => Fin.ext (by
    match x with
    | ⟨0, _⟩ => exact hl0 _ _
    | ⟨1, _⟩ => exact (hl1 _ _).trans hk)
  have er : d.rhsIdx (ix2 p c) ((contrEquiv1 d K hr hs).symm a) = ix2 c a := funext fun x => Fin.ext (by
    match x with
    | ⟨0, _⟩ => exact hr0 _ _
    | ⟨1, _⟩ => exact (hr1 _ _).trans hk)
  rw [el, er]

/-- A [1, A, B] block cast to [A, B] reads, at (r, e), the block at (0, r, e). -/
theorem cast_1ab_ab_apply {α : Type} {A B : ℕ} (x : (⟨3, ![1, A, B]⟩ : Shape).Idx → α)
    (h : (⟨3, ![1, A, B]⟩ : Shape).ShapeCasts ⟨2, ![A, B]⟩) (r : Fin A) (e : Fin B) :
    shapeCast ⟨2, ![A, B]⟩ x h (ix2 r e) = x (ix3 (0 : Fin 1) r e) :=
  shapeCast_apply x h _ _ (by
    rw [Shape.rowMajor_val_two, Shape.rowMajor_val_three]
    show ((0 : ℕ) * A + r.val) * B + e.val = r.val * B + e.val
    rw [Nat.zero_mul, Nat.zero_add])

/-- An [A, B] matrix cast to a [1, A, B] block reads, at (0, r, e), the matrix at (r, e). -/
theorem cast_ab_1ab_apply {α : Type} {A B : ℕ} (x : (⟨2, ![A, B]⟩ : Shape).Idx → α)
    (h : (⟨2, ![A, B]⟩ : Shape).ShapeCasts ⟨3, ![1, A, B]⟩) (u : Fin 1) (r : Fin A) (e : Fin B) :
    shapeCast ⟨3, ![1, A, B]⟩ x h (ix3 u r e) = x (ix2 r e) :=
  shapeCast_apply x h _ _ (by
    have hu : u.val = 0 := by omega
    rw [Shape.rowMajor_val_two, Shape.rowMajor_val_three]
    show r.val * B + e.val = (u.val * A + r.val) * B + e.val
    rw [hu, Nat.zero_mul, Nat.zero_add])

/-- A cast between equal shapes is the identity. -/
theorem cast_self_apply {α : Type} {s : Shape} (x : s.Idx → α) (h : s.ShapeCasts s) (j : s.Idx) :
    shapeCast s x h j = x j :=
  shapeCast_apply x h j j rfl

/-- The fold of max from -∞ over a nonempty family of finite values is the (finite) largest of them. -/
theorem fold_max_bot_coe {ι : Type} (s : Finset ι) (hs : s.Nonempty) (f : ι → ℝ) :
    s.fold max (⊥ : EReal) (fun k => ((f k : ℝ) : EReal)) = ((s.sup' hs f : ℝ) : EReal) := by
  have h1 : ((s.sup' hs f : ℝ) : EReal) = s.sup' hs ((fun x : ℝ => (x : EReal)) ∘ f) :=
    Finset.comp_sup'_eq_sup'_comp hs (fun x : ℝ => (x : EReal)) (fun x y => EReal.coe_strictMono.monotone.map_max)
  rw [h1, Finset.sup'_eq_sup]
  rfl

/-- The float word 0xFF800000 denotes -∞. -/
theorem ofBits_neg_inf : Ideal.ofBits .f32 0xFF800000#32 = ⊥ := by
  simp [Ideal.ofBits, Ideal.ieee]

/-! ## The real quantities of one key tile -/

/-- The score of query row r against key row c of the tile. -/
def sc (q kk : Fin 512 → Fin 1024 → ℝ) (r c : Fin 512) : ℝ := ∑ e, q r e * kk c e

/-- The largest score of query row r within the tile. -/
def tmax (q kk : Fin 512 → Fin 1024 → ℝ) (r : Fin 512) : ℝ :=
  Finset.univ.sup' Finset.univ_nonempty fun c : Fin 512 => sc q kk r c

section Payloads

variable (Q K V : Vec Ideal S1x512x1024 .bf16) (q kk vv : Fin 512 → Fin 1024 → ℝ)

/-- The scores: the query tile against the key tile's rows, times the scale 1. -/
theorem pay8_apply (hQ : ∀ r e, Q (ix3 (0 : Fin 1) r e) = ((q r e : ℝ) : EReal))
    (hK : ∀ c e, K (ix3 (0 : Fin 1) c e) = ((kk c e : ℝ) : EReal)) (r c : Fin 512) :
    k1_pay8 Q K (ix2 r c) = ((sc q kk r c : ℝ) : EReal) := by
  unfold k1_pay8
  refine (mulf_apply _ _ _).trans ?_
  rw [broadcast_apply]
  refine (congrArg₂ (· * ·) (matmulT_zero_ix2 _ rfl rfl (fun _ _ => rfl) (fun _ _ => rfl) (fun _ _ => rfl) (fun _ _ => rfl) none _ _ r c)
    Cert.LibEReal.ofBits_one).trans ?_
  rw [mul_one]
  unfold sc
  rw [← Cert.LibEReal.coe_sum]
  refine Finset.sum_congr rfl fun e _ => ?_
  rw [cast_1ab_ab_apply, cast_1ab_ab_apply, hQ, hK, Cert.LibEReal.coe_mul]

/-- The new running maximum: the carried one against the tile's largest score. -/
theorem pay9_apply (hQ : ∀ r e, Q (ix3 (0 : Fin 1) r e) = ((q r e : ℝ) : EReal))
    (hK : ∀ c e, K (ix3 (0 : Fin 1) c e) = ((kk c e : ℝ) : EReal)) (M : Vec Ideal S512x1 .f32) (r : Fin 512) (u : Fin 1) :
    k1_pay9 Q K M (ix2 r u) = max (M (ix2 r u)) ((tmax q kk r : ℝ) : EReal) := by
  unfold k1_pay9
  refine (maximumf_apply _ _ _).trans ?_
  refine congrArg (max (M (ix2 r u))) ?_
  rw [Cert.LibKeepdims.shapeCast_a_a1_apply]
  refine (Cert.ReduceRead.max_axis1 (A := 512) (B := 512) _ _ _ _ _ r).trans ?_
  refine (congrArg₂ (fun (b : EReal) (f : Fin 512 → EReal) => (Finset.univ : Finset (Fin 512)).fold max b f) ofBits_neg_inf
    (funext fun k => pay8_apply Q K q kk hQ hK r k)).trans ?_
  exact fold_max_bot_coe _ _ _

/-- The rescaling factor of the carried sums: exp of the carried maximum less the new one. -/
theorem pay10_apply (M M' : Vec Ideal S512x1 .f32) (j : S512x1.Idx) :
    k1_pay10 Q K M M' j = Ideal.exp (M' j - k1_pay9 Q K M j) := rfl

/-- The tile's weights: exp of the score less the new maximum of its row. -/
theorem pay11_apply (M : Vec Ideal S512x1 .f32) (r c : Fin 512) :
    k1_pay11 Q K M (ix2 r c) = Ideal.exp (k1_pay8 Q K (ix2 r c) - k1_pay9 Q K M (ix2 r (0 : Fin 1))) := by
  unfold k1_pay11
  show Ideal.exp (k1_pay8 Q K (ix2 r c) - broadcastTo S512x512 (k1_pay9 Q K M) _ (ix2 r c)) = _
  rw [Cert.LibKeepdims.broadcastTo_a1_ab_apply]

/-- The weights handed to the second product are the same values (the narrowing is exact here). -/
theorem pay13_apply (M : Vec Ideal S512x1 .f32) (j : S512x512.Idx) : k1_pay13 Q K M j = k1_pay11 Q K M j := rfl

/-- The new running denominator: the carried one rescaled, plus the row sum of the tile's weights. -/
theorem pay12_apply (M M' L : Vec Ideal S512x1 .f32) (r : Fin 512) (u : Fin 1) :
    k1_pay12 Q K M M' L (ix2 r u)
      = k1_pay10 Q K M M' (ix2 r u) * L (ix2 r u) + ∑ c : Fin 512, k1_pay11 Q K M (ix2 r c) := by
  unfold k1_pay12
  rw [cast_self_apply]
  refine (addf_apply _ _ _).trans ?_
  rw [mulf_apply, Cert.LibKeepdims.shapeCast_a_a1_apply]
  refine congrArg (k1_pay10 Q K M M' (ix2 r u) * L (ix2 r u) + ·) ?_
  exact Cert.ReduceRead.add_axis1 (A := 512) (B := 512) _ _ _ _ _ r

/-- The value tile as a matrix. -/
theorem pay7_apply (c : Fin 512) (d : Fin 1024) : k1_pay7 V (ix2 c d) = V (ix3 (0 : Fin 1) c d) := by
  unfold k1_pay7
  exact cast_1ab_ab_apply _ _ c d

/-- The new running weighted sum: the carried one rescaled row by row, plus the weights times the value rows. -/
theorem pay1_apply (v8 : FVec Ideal S512x1024 .bf16) (v18 : FVec Ideal S512x1 .f32) (v30 : FVec Ideal S512x512 .bf16)
    (v32 : Vec Ideal S512x1024 .f32) (r : Fin 512) (d : Fin 1024) :
    k1_pay1 v8 v18 v30 (constant (F := Ideal) S512x1024 .f32 0x00000000#32) v32 (ix2 r d)
      = v18 (ix2 r (0 : Fin 1)) * v32 (ix2 r d) + ∑ c : Fin 512, v30 (ix2 r c) * v8 (ix2 c d) := by
  unfold k1_pay1
  rw [cast_self_apply]
  refine (addf_apply _ _ _).trans ?_
  rw [mulf_apply, Cert.LibKeepdims.broadcastTo_a1_ab_apply]
  refine congrArg (v18 (ix2 r (0 : Fin 1)) * v32 (ix2 r d) + ·) ?_
  exact Cert.LibMatmulRows.matmul_zero_ix2 _ rfl rfl (fun _ _ => rfl) (fun _ _ => rfl) (fun _ _ => rfl) (fun _ _ => rfl) none _ _ r d

/-- The stored maximum is the new maximum. -/
theorem pay2_apply (v15 : FVec Ideal S512x1 .f32) (j : S512x1.Idx) : k1_pay2 v15 j = v15 j := by
  unfold k1_pay2
  exact cast_self_apply _ _ j

/-- The block the last tile writes, at (0, r, d): the weighted sum over the denominator plus the input block, divided
    by the square root of the row's sum of squares of that. -/
theorem pay3_apply (v45 : Vec Ideal S512x1024 .f32) (v46 : Vec Ideal S512x1 .f32) (v49 : Vec Ideal S1x512x1024 .f32)
    (r : Fin 512) (d : Fin 1024) :
    k1_pay3 v45 v46 v49 (ix3 (0 : Fin 1) r d)
      = Ideal.div (Ideal.div (v45 (ix2 r d)) (v46 (ix2 r (0 : Fin 1))) + v49 (ix3 (0 : Fin 1) r d))
          (Ideal.sqrt (∑ k : Fin 1024, (Ideal.div (v45 (ix2 r k)) (v46 (ix2 r (0 : Fin 1))) + v49 (ix3 (0 : Fin 1) r k))
            * (Ideal.div (v45 (ix2 r k)) (v46 (ix2 r (0 : Fin 1))) + v49 (ix3 (0 : Fin 1) r k)))) := by
  have y : ∀ (h1 : S512x1.Broadcasts S512x1024) (h2 : S1x512x1024.ShapeCasts S512x1024) (k : Fin 1024),
      (addf (divf (v45 : FVec Ideal S512x1024 .f32) (broadcastTo S512x1024 (v46 : FVec Ideal S512x1 .f32) h1))
          (shapeCast S512x1024 (v49 : FVec Ideal S1x512x1024 .f32) h2) : FVec Ideal S512x1024 .f32) (ix2 r k)
        = Ideal.div (v45 (ix2 r k)) (v46 (ix2 r (0 : Fin 1))) + v49 (ix3 (0 : Fin 1) r k) := by
    intro h1 h2 k
    refine (addf_apply _ _ _).trans ?_
    rw [divf_apply, Cert.LibKeepdims.broadcastTo_a1_ab_apply, cast_1ab_ab_apply]
  unfold k1_pay3
  rw [cast_ab_1ab_apply]
  refine (divf_apply _ _ _).trans ?_
  refine congrArg₂ Ideal.div (y _ _ d) ?_
  rw [Cert.LibKeepdims.broadcastTo_a1_ab_apply]
  show Ideal.sqrt (shapeCast S512x1 _ _ (ix2 r (0 : Fin 1))) = _
  rw [Cert.LibKeepdims.shapeCast_a_a1_apply]
  refine congrArg Ideal.sqrt ?_
  refine (Cert.ReduceRead.add_axis1 (A := 512) (B := 1024) _ _ _ _ _ r).trans ?_
  refine Finset.sum_congr rfl fun k _ => ?_
  rw [mulf_apply, y _ _ k]

end Payloads

/-! ## The carried state as real numbers -/

/-- A carried state reads as a real triple: running maximum, running denominator, running weighted sum. -/
def Reads (P : Rec.St Ideal) (m l : Fin 512 → ℝ) (acc : Fin 512 → Fin 1024 → ℝ) : Prop :=
  (∀ r, P.1 (ix2 r (0 : Fin 1)) = ((m r : ℝ) : EReal)) ∧ (∀ r, P.2.1 (ix2 r (0 : Fin 1)) = ((l r : ℝ) : EReal))
    ∧ ∀ r d, P.2.2 (ix2 r d) = ((acc r d : ℝ) : EReal)

/-- One key tile on a real triple (m, l, acc): the new maximum m' = max m (tile max), the denominator and the weighted
    sum rescaled by exp (m - m') and extended by the tile's weights exp (score - m'). -/
def realStep (q kk vv : Fin 512 → Fin 1024 → ℝ)
    (s : (Fin 512 → ℝ) × (Fin 512 → ℝ) × (Fin 512 → Fin 1024 → ℝ)) :
    (Fin 512 → ℝ) × (Fin 512 → ℝ) × (Fin 512 → Fin 1024 → ℝ) :=
  (fun r => max (s.1 r) (tmax q kk r),
   fun r => Real.exp (s.1 r - max (s.1 r) (tmax q kk r)) * s.2.1 r
      + ∑ c : Fin 512, Real.exp (sc q kk r c - max (s.1 r) (tmax q kk r)),
   fun r d => Real.exp (s.1 r - max (s.1 r) (tmax q kk r)) * s.2.2 r d
      + ∑ c : Fin 512, Real.exp (sc q kk r c - max (s.1 r) (tmax q kk r)) * vv c d)

section Step

variable (Q K V : Vec Ideal S1x512x1024 .bf16) (q kk vv : Fin 512 → Fin 1024 → ℝ)
  (hQ : ∀ r e, Q (ix3 (0 : Fin 1) r e) = ((q r e : ℝ) : EReal))
  (hK : ∀ c e, K (ix3 (0 : Fin 1) c e) = ((kk c e : ℝ) : EReal))
  (hV : ∀ c d, V (ix3 (0 : Fin 1) c d) = ((vv c d : ℝ) : EReal))

include hQ hK hV

/-- One key tile on a state whose maximum reads as any extended reals mE, as long as the new maximum m' and the
    rescaling factor a are real; the denominator and the weighted sum read as reals. -/
theorem step_gen (P : Rec.St Ideal) (mE : Fin 512 → EReal) (m' a l : Fin 512 → ℝ) (acc : Fin 512 → Fin 1024 → ℝ)
    (hm : ∀ r, P.1 (ix2 r (0 : Fin 1)) = mE r)
    (hm' : ∀ r, max (mE r) ((tmax q kk r : ℝ) : EReal) = ((m' r : ℝ) : EReal))
    (ha : ∀ r, Ideal.exp (mE r - ((m' r : ℝ) : EReal)) = ((a r : ℝ) : EReal))
    (hl : ∀ r, P.2.1 (ix2 r (0 : Fin 1)) = ((l r : ℝ) : EReal))
    (hacc : ∀ r d, P.2.2 (ix2 r d) = ((acc r d : ℝ) : EReal)) :
    Reads (Rec.step Q K V P) m' (fun r => a r * l r + ∑ c : Fin 512, Real.exp (sc q kk r c - m' r))
      (fun r d => a r * acc r d + ∑ c : Fin 512, Real.exp (sc q kk r c - m' r) * vv c d) := by
  have h9 : ∀ r, k1_pay9 Q K P.1 (ix2 r (0 : Fin 1)) = ((m' r : ℝ) : EReal) := fun r => by
    rw [pay9_apply Q K q kk hQ hK, hm, hm']
  have h10 : ∀ r, k1_pay10 Q K P.1 P.1 (ix2 r (0 : Fin 1)) = ((a r : ℝ) : EReal) := fun r => by
    rw [pay10_apply, h9, hm, ha]
  have h11 : ∀ r c, k1_pay11 Q K P.1 (ix2 r c) = ((Real.exp (sc q kk r c - m' r) : ℝ) : EReal) := fun r c => by
    rw [pay11_apply, h9, pay8_apply Q K q kk hQ hK, Cert.LibEReal.coe_sub, Ideal.exp_coe]
  refine ⟨fun r => ?_, fun r => ?_, fun r d => ?_⟩
  · show k1_pay2 (k1_pay9 Q K P.1) (ix2 r (0 : Fin 1)) = _
    rw [pay2_apply, h9]
  · show k1_pay12 Q K P.1 P.1 P.2.1 (ix2 r (0 : Fin 1)) = _
    rw [pay12_apply, h10, hl, Cert.LibEReal.coe_mul, Finset.sum_congr rfl fun c _ => h11 r c, Cert.LibEReal.coe_sum,
      Cert.LibEReal.coe_add]
  · show k1_pay1 (k1_pay7 V) (k1_pay10 Q K P.1 P.1) (k1_pay13 Q K P.1) (constant (F := Ideal) S512x1024 .f32 0x00000000#32)
        P.2.2 (ix2 r d) = _
    rw [pay1_apply, h10, hacc, Cert.LibEReal.coe_mul]
    have e : ∀ c : Fin 512, k1_pay13 Q K P.1 (ix2 r c) * k1_pay7 V (ix2 c d)
        = ((Real.exp (sc q kk r c - m' r) * vv c d : ℝ) : EReal) := fun c => by
      rw [pay13_apply, h11, pay7_apply, hV, Cert.LibEReal.coe_mul]
    rw [Finset.sum_congr rfl fun c _ => e c, Cert.LibEReal.coe_sum, Cert.LibEReal.coe_add]

end Step

/-! ## The start state, one tile on a real state, and the first tile -/

/-- The start state's maximum is -∞ everywhere. -/
theorem st0_max (j : S512x1.Idx) : (Rec.st0 (F := Ideal)).1 j = (⊥ : EReal) := by
  show k1_pay4 (F := Ideal) j = _
  unfold k1_pay4
  rw [cast_self_apply, broadcast_apply]
  exact ofBits_neg_inf

/-- The start state's denominator is 0 everywhere. -/
theorem st0_den (j : S512x1.Idx) : (Rec.st0 (F := Ideal)).2.1 j = ((0 : ℝ) : EReal) := by
  show k1_pay5 (F := Ideal) j = _
  unfold k1_pay5
  rw [cast_self_apply, broadcast_apply]
  exact Ideal.ofBits_zero_f32

/-- The start state's weighted sum is 0 everywhere. -/
theorem st0_acc (j : S512x1024.Idx) : (Rec.st0 (F := Ideal)).2.2 j = ((0 : ℝ) : EReal) := by
  show k1_pay6 (F := Ideal) j = _
  unfold k1_pay6
  rw [cast_self_apply, broadcast_apply]
  exact Ideal.ofBits_zero_f32

/-- Reading as a real triple only depends on the triple's values. -/
theorem Reads.congr {P : Rec.St Ideal} {m l m₂ l₂ : Fin 512 → ℝ} {acc acc₂ : Fin 512 → Fin 1024 → ℝ}
    (h : Reads P m l acc) (hm : ∀ r, m r = m₂ r) (hl : ∀ r, l r = l₂ r) (hacc : ∀ r d, acc r d = acc₂ r d) :
    Reads P m₂ l₂ acc₂ :=
  ⟨fun r => (h.1 r).trans (by rw [hm r]), fun r => (h.2.1 r).trans (by rw [hl r]),
    fun r d => (h.2.2 r d).trans (by rw [hacc r d])⟩

section Step2

variable (Q K V : Vec Ideal S1x512x1024 .bf16) (q kk vv : Fin 512 → Fin 1024 → ℝ)
  (hQ : ∀ r e, Q (ix3 (0 : Fin 1) r e) = ((q r e : ℝ) : EReal))
  (hK : ∀ c e, K (ix3 (0 : Fin 1) c e) = ((kk c e : ℝ) : EReal))
  (hV : ∀ c d, V (ix3 (0 : Fin 1) c d) = ((vv c d : ℝ) : EReal))

include hQ hK hV

/-- One key tile on a state that reads as a real triple reads as the real step of that triple. -/
theorem step_real (P : Rec.St Ideal) (m l : Fin 512 → ℝ) (acc : Fin 512 → Fin 1024 → ℝ) (hP : Reads P m l acc) :
    Reads (Rec.step Q K V P) (realStep q kk vv (m, l, acc)).1 (realStep q kk vv (m, l, acc)).2.1
      (realStep q kk vv (m, l, acc)).2.2 :=
  step_gen Q K V q kk vv hQ hK hV P (fun r => ((m r : ℝ) : EReal)) (fun r => max (m r) (tmax q kk r))
    (fun r => Real.exp (m r - max (m r) (tmax q kk r))) l acc hP.1
    (fun r => (EReal.coe_strictMono.monotone.map_max).symm)
    (fun r => by rw [Cert.LibEReal.coe_sub, Ideal.exp_coe]) hP.2.1 hP.2.2

/-- The first key tile, from the start state (-∞, 0, 0): the state is real afterwards: the tile's maximum, the sum of
    the tile's weights, the weights times the value rows. -/
theorem step_first :
    Reads (Rec.step Q K V Rec.st0) (tmax q kk) (fun r => ∑ c : Fin 512, Real.exp (sc q kk r c - tmax q kk r))
      (fun r d => ∑ c : Fin 512, Real.exp (sc q kk r c - tmax q kk r) * vv c d) := by
  have h := step_gen Q K V q kk vv hQ hK hV Rec.st0 (fun _ => (⊥ : EReal)) (tmax q kk) (fun _ => 0) (fun _ => 0)
    (fun _ _ => 0) (fun r => st0_max _) (fun r => max_eq_right bot_le)
    (fun r => by rw [EReal.bot_sub, Ideal.exp_bot, EReal.coe_zero]) (fun r => st0_den _) (fun r d => st0_acc _)
  exact h.congr (fun _ => rfl) (fun r => by rw [zero_mul, zero_add]) (fun r d => by rw [zero_mul, zero_add])

end Step2

/-! ## The block written after the last tile -/

/-- From a real state with positive denominators and a real input block: the attended row plus the input row, divided
    by the square root of its sum of squares (the one division kept on the extended reals). -/
theorem fin_real (P : Rec.St Ideal) (X : Vec Ideal S1x512x1024 .f32) (m l : Fin 512 → ℝ) (acc xb : Fin 512 → Fin 1024 → ℝ)
    (hP : Reads P m l acc) (hl : ∀ r, 0 < l r) (hX : ∀ r d, X (ix3 (0 : Fin 1) r d) = ((xb r d : ℝ) : EReal))
    (r : Fin 512) (d : Fin 1024) :
    Rec.fin P X (ix3 (0 : Fin 1) r d)
      = Ideal.div ((acc r d / l r + xb r d : ℝ) : EReal)
          (Ideal.sqrt ((∑ d' : Fin 1024, (acc r d' / l r + xb r d') * (acc r d' / l r + xb r d') : ℝ) : EReal)) := by
  show k1_pay3 P.2.2 P.2.1 X (ix3 (0 : Fin 1) r d) = _
  have y : ∀ k, Ideal.div (P.2.2 (ix2 r k)) (P.2.1 (ix2 r (0 : Fin 1))) + X (ix3 (0 : Fin 1) r k)
      = ((acc r k / l r + xb r k : ℝ) : EReal) := fun k => by
    rw [hP.2.2, hP.2.1, hX, Cert.LibEReal.div_coe' _ _ (hl r).ne', Cert.LibEReal.coe_add]
  have e : ∀ k, (Ideal.div (P.2.2 (ix2 r k)) (P.2.1 (ix2 r (0 : Fin 1))) + X (ix3 (0 : Fin 1) r k))
        * (Ideal.div (P.2.2 (ix2 r k)) (P.2.1 (ix2 r (0 : Fin 1))) + X (ix3 (0 : Fin 1) r k))
      = (((acc r k / l r + xb r k) * (acc r k / l r + xb r k) : ℝ) : EReal) := fun k => by
    rw [y k, Cert.LibEReal.coe_mul]
  rw [pay3_apply, y d, Finset.sum_congr rfl fun k _ => e k, Cert.LibEReal.coe_sum]

/-! ## The eight key tiles -/

section Tiles

variable (Q : Vec Ideal S1x512x1024 .bf16) (Qt Kt Vt : ℕ → Vec Ideal S1x512x1024 .bf16) (X : Vec Ideal S1x512x1024 .f32)
  (q : Fin 512 → Fin 1024 → ℝ) (kk vv : ℕ → Fin 512 → Fin 1024 → ℝ) (xb : Fin 512 → Fin 1024 → ℝ)

/-- The carried state after key tile j (tiles 0 … j done), from the start state, the query tile as presented at
    each key tile. -/
def stAfterQ : ℕ → Rec.St Ideal
  | 0 => Rec.step (Qt 0) (Kt 0) (Vt 0) Rec.st0
  | j + 1 => Rec.step (Qt (j + 1)) (Kt (j + 1)) (Vt (j + 1)) (stAfterQ j)

/-- The carried state after key tile j, one query tile throughout. -/
def stAfter : ℕ → Rec.St Ideal
  | 0 => Rec.step Q (Kt 0) (Vt 0) Rec.st0
  | j + 1 => Rec.step Q (Kt (j + 1)) (Vt (j + 1)) (stAfter j)

theorem stAfter_eq (j : ℕ) : stAfter Q Kt Vt j = stAfterQ (fun _ => Q) Kt Vt j := by
  induction j with
  | zero => rfl
  | succ j ih => show Rec.step _ _ _ _ = Rec.step _ _ _ _; rw [ih]

/-- The score of query row r against the key at flat position t = (tile) · 512 + (row within the tile). -/
def gfun (r : Fin 512) (t : ℕ) : ℝ :=
  ∑ e : Fin 1024, q r e * kk (t / 512) ⟨t % 512, Nat.mod_lt t (by norm_num)⟩ e

/-- Feature d of the value row at flat position t. -/
def ufun (d : Fin 1024) (t : ℕ) : ℝ := vv (t / 512) ⟨t % 512, Nat.mod_lt t (by norm_num)⟩ d

theorem gfun_tile (r : Fin 512) (j : ℕ) (c : Fin 512) : gfun q kk r (j * 512 + c.val) = sc q (kk j) r c := by
  have h1 : (j * 512 + c.val) / 512 = j := by omega
  have h2 : (⟨(j * 512 + c.val) % 512, Nat.mod_lt _ (by norm_num)⟩ : Fin 512) = c := Fin.ext (by show (j * 512 + c.val) % 512 = c.val; omega)
  unfold gfun sc
  rw [h2, h1]

theorem ufun_tile (d : Fin 1024) (j : ℕ) (c : Fin 512) : ufun vv d (j * 512 + c.val) = vv j c d := by
  have h1 : (j * 512 + c.val) / 512 = j := by omega
  have h2 : (⟨(j * 512 + c.val) % 512, Nat.mod_lt _ (by norm_num)⟩ : Fin 512) = c := Fin.ext (by show (j * 512 + c.val) % 512 = c.val; omega)
  unfold ufun
  rw [h2, h1]

theorem tmax_tile (r : Fin 512) (j : ℕ) : tmax q (kk j) r = Cert.OnlineSoftmax.tileMax (n := 512) (gfun q kk r) j := by
  unfold tmax Cert.OnlineSoftmax.tileMax
  exact Finset.sup'_congr _ rfl fun c _ => (gfun_tile q kk r j c).symm

variable (hQ : ∀ j r e, Qt j (ix3 (0 : Fin 1) r e) = ((q r e : ℝ) : EReal))
  (hK : ∀ j c e, Kt j (ix3 (0 : Fin 1) c e) = ((kk j c e : ℝ) : EReal))
  (hV : ∀ j c d, Vt j (ix3 (0 : Fin 1) c d) = ((vv j c d : ℝ) : EReal))

include hQ hK hV

/-- After tile j the state reads as the online-softmax recurrence of each query row over the flat key positions. -/
theorem stAfterQ_reads (j : ℕ) :
    Reads (stAfterQ Qt Kt Vt j) (fun r => Cert.OnlineSoftmax.runMax (n := 512) (gfun q kk r) j)
      (fun r => Cert.OnlineSoftmax.runDen (n := 512) (gfun q kk r) j)
      (fun r d => Cert.OnlineSoftmax.runAcc (n := 512) (gfun q kk r) (ufun vv d) j) := by
  induction j with
  | zero =>
    refine (step_first (Qt 0) (Kt 0) (Vt 0) q (kk 0) (vv 0) (hQ 0) (hK 0) (hV 0)).congr (fun r => ?_) (fun r => ?_) (fun r d => ?_)
    · exact tmax_tile q kk r 0
    · show _ = ∑ k : Fin 512, Real.exp (gfun q kk r (0 * 512 + k.val) - Cert.OnlineSoftmax.tileMax (n := 512) (gfun q kk r) 0)
      exact Finset.sum_congr rfl fun c _ => by rw [gfun_tile, tmax_tile]
    · show _ = ∑ k : Fin 512, Real.exp (gfun q kk r (0 * 512 + k.val) - Cert.OnlineSoftmax.tileMax (n := 512) (gfun q kk r) 0)
          * ufun vv d (0 * 512 + k.val)
      exact Finset.sum_congr rfl fun c _ => by rw [gfun_tile, tmax_tile, ufun_tile]
  | succ j ih =>
    refine (step_real (Qt (j + 1)) (Kt (j + 1)) (Vt (j + 1)) q (kk (j + 1)) (vv (j + 1)) (hQ (j + 1)) (hK (j + 1)) (hV (j + 1)) _ _ _ _ ih).congr
      (fun r => ?_) (fun r => ?_) (fun r d => ?_)
    · show max _ (tmax q (kk (j + 1)) r) = max _ (Cert.OnlineSoftmax.tileMax (n := 512) (gfun q kk r) (j + 1))
      rw [tmax_tile]
    · show Real.exp (_ - max _ (tmax q (kk (j + 1)) r)) * _ + ∑ c : Fin 512, Real.exp (sc q (kk (j + 1)) r c - max _ (tmax q (kk (j + 1)) r))
        = Real.exp (_ - max _ (Cert.OnlineSoftmax.tileMax (n := 512) (gfun q kk r) (j + 1))) * _
          + ∑ k : Fin 512, Real.exp (gfun q kk r ((j + 1) * 512 + k.val) - max _ (Cert.OnlineSoftmax.tileMax (n := 512) (gfun q kk r) (j + 1)))
      rw [tmax_tile]
      exact congrArg (_ + ·) (Finset.sum_congr rfl fun c _ => by rw [gfun_tile])
    · show Real.exp (_ - max _ (tmax q (kk (j + 1)) r)) * _
          + ∑ c : Fin 512, Real.exp (sc q (kk (j + 1)) r c - max _ (tmax q (kk (j + 1)) r)) * vv (j + 1) c d
        = Real.exp (_ - max _ (Cert.OnlineSoftmax.tileMax (n := 512) (gfun q kk r) (j + 1))) * _
          + ∑ k : Fin 512, Real.exp (gfun q kk r ((j + 1) * 512 + k.val) - max _ (Cert.OnlineSoftmax.tileMax (n := 512) (gfun q kk r) (j + 1)))
              * ufun vv d ((j + 1) * 512 + k.val)
      rw [tmax_tile]
      exact congrArg (_ + ·) (Finset.sum_congr rfl fun c _ => by rw [gfun_tile, ufun_tile])

/-- The attended row of query row r with the input row added: the softmax-weighted average of the value rows over all
    4096 key positions, the row's largest score subtracted before exponentiating, plus the input row. -/
def yrow (r : Fin 512) (d : Fin 1024) : ℝ :=
  (∑ t : Fin 4096, Real.exp (gfun q kk r t.val - Finset.univ.sup' Finset.univ_nonempty fun t' : Fin 4096 => gfun q kk r t'.val)
      / (∑ t' : Fin 4096, Real.exp (gfun q kk r t'.val
          - Finset.univ.sup' Finset.univ_nonempty fun t'' : Fin 4096 => gfun q kk r t''.val)) * ufun vv d t.val)
    + xb r d

/-- The block written after the eighth tile. -/
theorem fin_after_eightQ (hX : ∀ r d, X (ix3 (0 : Fin 1) r d) = ((xb r d : ℝ) : EReal)) (r : Fin 512) (d : Fin 1024) :
    Rec.fin (stAfterQ Qt Kt Vt 7) X (ix3 (0 : Fin 1) r d)
      = Ideal.div ((yrow q kk vv xb r d : ℝ) : EReal)
          (Ideal.sqrt ((∑ d' : Fin 1024, yrow q kk vv xb r d' * yrow q kk vv xb r d' : ℝ) : EReal)) := by
  have hy : ∀ d', Cert.OnlineSoftmax.runAcc (n := 512) (gfun q kk r) (ufun vv d') 7
        / Cert.OnlineSoftmax.runDen (n := 512) (gfun q kk r) 7 + xb r d' = yrow q kk vv xb r d' := fun d' => by
    unfold yrow
    rw [Cert.OnlineSoftmax.online_softmax_flat (n := 512) (gfun q kk r) (ufun vv d') 7 4096 (by norm_num)]
  rw [fin_real (stAfterQ Qt Kt Vt 7) X _ _ _ xb (stAfterQ_reads Qt Kt Vt q kk vv hQ hK hV 7)
    (fun r => Cert.OnlineSoftmax.runDen_pos (n := 512) (gfun q kk r) 7) hX r d]
  rw [hy d, Finset.sum_congr rfl fun d' _ => by rw [hy d']]

end Tiles

section TilesOneQuery

variable (Q : Vec Ideal S1x512x1024 .bf16) (Kt Vt : ℕ → Vec Ideal S1x512x1024 .bf16) (X : Vec Ideal S1x512x1024 .f32)
  (q : Fin 512 → Fin 1024 → ℝ) (kk vv : ℕ → Fin 512 → Fin 1024 → ℝ) (xb : Fin 512 → Fin 1024 → ℝ)
  (hQ : ∀ r e, Q (ix3 (0 : Fin 1) r e) = ((q r e : ℝ) : EReal))
  (hK : ∀ j c e, Kt j (ix3 (0 : Fin 1) c e) = ((kk j c e : ℝ) : EReal))
  (hV : ∀ j c d, Vt j (ix3 (0 : Fin 1) c d) = ((vv j c d : ℝ) : EReal))

include hQ hK hV

/-- The same with one query tile throughout. -/
theorem stAfter_reads (j : ℕ) :
    Reads (stAfter Q Kt Vt j) (fun r => Cert.OnlineSoftmax.runMax (n := 512) (gfun q kk r) j)
      (fun r => Cert.OnlineSoftmax.runDen (n := 512) (gfun q kk r) j)
      (fun r d => Cert.OnlineSoftmax.runAcc (n := 512) (gfun q kk r) (ufun vv d) j) := by
  rw [stAfter_eq]
  exact stAfterQ_reads (fun _ => Q) Kt Vt q kk vv (fun _ => hQ) hK hV j

theorem fin_after_eight (hX : ∀ r d, X (ix3 (0 : Fin 1) r d) = ((xb r d : ℝ) : EReal)) (r : Fin 512) (d : Fin 1024) :
    Rec.fin (stAfter Q Kt Vt 7) X (ix3 (0 : Fin 1) r d)
      = Ideal.div ((yrow q kk vv xb r d : ℝ) : EReal)
          (Ideal.sqrt ((∑ d' : Fin 1024, yrow q kk vv xb r d' * yrow q kk vv xb r d' : ℝ) : EReal)) := by
  rw [stAfter_eq]
  exact fin_after_eightQ (fun _ => Q) Kt Vt X q kk vv xb (fun _ => hQ) hK hV hX r d

end TilesOneQuery

end Cert.KernelIdeal.KState

end
-- ==== Proof.ValI1a.lean ====
/-
  The attention region's value at one query tile: the eight key tiles' carried states are the online-softmax
  recurrence over the projected rows, and the block written after the eighth is the specification's output rows.
-/
import proofs.«110892_j22204980920987_1_alg».proof.Proof.FrI1b
import proofs.«110892_j22204980920987_1_alg».proof.Proof.KState
import proofs.«110892_j22204980920987_1_alg».proof.Proof.Spec
import proofs.«110892_j22204980920987_1_alg».proof.Proof.LibOnlineSoftmax

set_option maxRecDepth 16384

noncomputable section

namespace Cert.KernelIdeal.Val1

open Idealize.ShloMosaic Idealize.ShloMosaic.TcCoe
open Idealize.SL Idealize.SL.Sem
open Idealize.ShloMosaic.Pipeline (Dat Cfg Window)
open Cert.KernelIdeal Cert.KernelIdeal.Gen Cert.KernelIdeal.Fr
open scoped BigOperators

/-- The carried state only depends on the position. -/
theorem scr_congr (V : (c : Dev nD) → (b : Ref sig .tc) → Buf (Elt Ideal) ((c : Thread nD τ).loc b)) (c : Dev nD)
    {n n' : ℕ} (h : n < cfg1.N) (h' : n' < cfg1.N) (e : n = n') : scr V c n h = scr V c n' h' := by
  subst e; rfl

/-- A flat key position below 4096 is its tile (at most 7) times 512 plus its row within the tile. -/
theorem flat_idx (t : Fin 4096) :
    (⟨min (t.val / 512) 7 * 512 + t.val % 512, by omega⟩ : Fin 4096) = t :=
  Fin.ext (by show min (t.val / 512) 7 * 512 + t.val % 512 = t.val; omega)

section Tile

variable (V : (c : Dev nD) → (b : Ref sig .tc) → Buf (Elt Ideal) ((c : Thread nD τ).loc b)) (c : Dev nD)
  (x : Fin 4 → Fin 4096 → Fin 1024 → ℝ) (wq wk wv : Fin 1024 → Fin 1024 → ℝ) (b : Fin 4) (qi : Fin 8)
  (pt : ℕ → Fin cfg1.N)

/-- The query, key and value blocks at the tile's eight grid points (the eighth repeated beyond). -/
def Qt (j : ℕ) : Vec Ideal S1x512x1024 .bf16 := iblk1 V c 0 (pt (min j 7))
def Kt (j : ℕ) : Vec Ideal S1x512x1024 .bf16 := iblk1 V c 1 (pt (min j 7))
def Vt (j : ℕ) : Vec Ideal S1x512x1024 .bf16 := iblk1 V c 2 (pt (min j 7))

/-- The query tile's projected rows. -/
def qf (r : Fin 512) (e : Fin 1024) : ℝ := Cert.Attn.proj x wq b ⟨qi.val * 512 + r.val, by omega⟩ e

/-- Key tile j's rows projected by w (tile 7 repeated beyond). -/
def kf (w : Fin 1024 → Fin 1024 → ℝ) (j : ℕ) (k : Fin 512) (e : Fin 1024) : ℝ :=
  Cert.Attn.proj x w b ⟨min j 7 * 512 + k.val, by omega⟩ e

/-- The query tile's input rows. -/
def xf (r : Fin 512) (d : Fin 1024) : ℝ := x b ⟨qi.val * 512 + r.val, by omega⟩ d

theorem kf_flat (w : Fin 1024 → Fin 1024 → ℝ) (t : Fin 4096) (e : Fin 1024) :
    kf x b w (t.val / 512) ⟨t.val % 512, Nat.mod_lt t.val (by norm_num)⟩ e = Cert.Attn.proj x w b t e := by
  show Cert.Attn.proj x w b ⟨min (t.val / 512) 7 * 512 + t.val % 512, _⟩ e = _
  rw [flat_idx]

theorem gfun_score (r : Fin 512) (t : Fin 4096) :
    KState.gfun (qf x wq b qi) (kf x b wk) r t.val = Cert.Attn.score x wq wk b ⟨qi.val * 512 + r.val, by omega⟩ t := by
  unfold KState.gfun Cert.Attn.score
  refine Finset.sum_congr rfl fun e _ => ?_
  rw [kf_flat]
  rfl

theorem ufun_proj (d : Fin 1024) (t : Fin 4096) :
    KState.ufun (kf x b wv) d t.val = Cert.Attn.proj x wv b t d := by
  unfold KState.ufun
  exact kf_flat x b wv t d

theorem yrow_resid (r : Fin 512) (d : Fin 1024) :
    KState.yrow (qf x wq b qi) (kf x b wk) (kf x b wv) (xf x b qi) r d
      = Cert.Attn.resid x wq wk wv b ⟨qi.val * 512 + r.val, by omega⟩ d := by
  unfold KState.yrow Cert.Attn.resid Cert.Attn.attended Cert.Attn.denom Cert.Attn.weight Cert.Attn.rowMax
  simp only [gfun_score, ufun_proj]
  rfl

variable (hpt : ∀ j (hj : j < 8), (pt j).val = 64 * b.val + 8 * qi.val + j)

include hpt

/-- At the tile's key tile j the carried state is the recurrence's state after j + 1 tiles. -/
theorem scr_eq (j : ℕ) (hj : j < 8) :
    scr V c (pt j).val (pt j).isLt = KState.stAfterQ (Qt V c pt) (Kt V c pt) (Vt V c pt) j := by
  induction j with
  | zero =>
    rw [scr_first V c (pt 0) (by rw [hpt 0 hj]; omega)]
    rfl
  | succ j ih =>
    have hne : ¬ (pt (j + 1)).val % 8 = 0 := by rw [hpt (j + 1) hj]; omega
    rw [scr_next V c (pt (j + 1)) hne,
      scr_congr V c (n := (pt (j + 1)).val - 1) (n' := (pt j).val) _ (pt j).isLt
        (by rw [hpt (j + 1) hj, hpt j (by omega)]; omega),
      ih (by omega)]
    show _ = Rec.step (iblk1 V c 0 (pt (min (j + 1) 7))) (iblk1 V c 1 (pt (min (j + 1) 7))) (iblk1 V c 2 (pt (min (j + 1) 7))) _
    rw [Nat.min_eq_left (by omega : j + 1 ≤ 7)]

end Tile

theorem tile_out (V : (c : Dev nD) → (b : Ref sig .tc) → Buf (Elt Ideal) ((c : Thread nD τ).loc b)) (c : Dev nD)
    (x : Fin 4 → Fin 4096 → Fin 1024 → ℝ) (wq wk wv : Fin 1024 → Fin 1024 → ℝ)
    (b : Fin 4) (qi : Fin 8) (pt : ℕ → Fin cfg1.N) (hpt : ∀ j (hj : j < 8), (pt j).val = 64 * b.val + 8 * qi.val + j)
    (hQ : ∀ j (hj : j < 8) (r : Fin 512) (e : Fin 1024), iblk1 V c 0 (pt j) (ValueIdx.ix3 (0 : Fin 1) r e)
      = ((Cert.Attn.proj x wq b ⟨qi.val * 512 + r.val, by omega⟩ e : ℝ) : EReal))
    (hK : ∀ j (hj : j < 8) (r : Fin 512) (e : Fin 1024), iblk1 V c 1 (pt j) (ValueIdx.ix3 (0 : Fin 1) r e)
      = ((Cert.Attn.proj x wk b ⟨j * 512 + r.val, by omega⟩ e : ℝ) : EReal))
    (hV : ∀ j (hj : j < 8) (r : Fin 512) (e : Fin 1024), iblk1 V c 2 (pt j) (ValueIdx.ix3 (0 : Fin 1) r e)
      = ((Cert.Attn.proj x wv b ⟨j * 512 + r.val, by omega⟩ e : ℝ) : EReal))
    (hX : ∀ (r : Fin 512) (d : Fin 1024), iblk1 V c 3 (pt 7) (ValueIdx.ix3 (0 : Fin 1) r d)
      = ((x b ⟨qi.val * 512 + r.val, by omega⟩ d : ℝ) : EReal)) :
    ∀ (r : Fin 512) (d : Fin 1024), (dat1 (F := Ideal) V c).after 4 (pt 7) (ValueIdx.ix3 (0 : Fin 1) r d)
      = Cert.Attn.out x wq wk wv b ⟨qi.val * 512 + r.val, by omega⟩ d := by
  intro r d
  have hQ' : ∀ j r e, Qt V c pt j (ValueIdx.ix3 (0 : Fin 1) r e) = ((qf x wq b qi r e : ℝ) : EReal) :=
    fun j r e => hQ (min j 7) (by omega) r e
  have hK' : ∀ j k e, Kt V c pt j (ValueIdx.ix3 (0 : Fin 1) k e) = ((kf x b wk j k e : ℝ) : EReal) :=
    fun j k e => hK (min j 7) (by omega) k e
  have hV' : ∀ j k e, Vt V c pt j (ValueIdx.ix3 (0 : Fin 1) k e) = ((kf x b wv j k e : ℝ) : EReal) :=
    fun j k e => hV (min j 7) (by omega) k e
  rw [after1_4, scr_eq V c b qi pt hpt 7 (by norm_num),
    KState.fin_after_eightQ (Qt V c pt) (Kt V c pt) (Vt V c pt) (iblk1 V c 3 (pt 7)) (qf x wq b qi) (kf x b wk) (kf x b wv)
      (xf x b qi) hQ' hK' hV' hX r d]
  unfold Cert.Attn.out Cert.Attn.sumsq
  rw [yrow_resid x wq wk wv b qi r d, Finset.sum_congr rfl fun d' _ => by rw [yrow_resid x wq wk wv b qi r d']]

end Cert.KernelIdeal.Val1

end
-- ==== Proof.ValI1.lean ====
/-
  The attention region's result array: what the last key tile of every query tile writes back is the common
  function of Spec.lean on that tile's rows, and those tiles cover the array.
-/
import proofs.«110892_j22204980920987_1_alg».proof.Proof.FrI1b
import proofs.«110892_j22204980920987_1_alg».proof.Proof.ValI1a
import proofs.«110892_j22204980920987_1_alg».proof.Proof.Spec
import proofs.«110892_j22204980920987_1_alg».proof.Proof.Gen.KernelIdeal.Points
import Idealize.ShloMosaic.Lib.Pipeline.Value
import Idealize.ShloMosaic.Lib.ValueIdx

noncomputable section

namespace Cert.KernelIdeal.Val1

open Idealize.ShloMosaic Idealize.ShloMosaic.TcCoe Idealize.SL.Sem
open Idealize.ShloMosaic.Pipeline (Dat)
open Idealize.ShloMosaic.ValueIdx
open Cert.KernelIdeal Cert.KernelIdeal.Gen Cert.KernelIdeal.Fr

/-- The printed index maps, decided once over the grid: point t has batch t / 64, query tile t / 8 mod 8 and key tile
    t mod 8; the queries, the input and the result move with the query tile, the keys and values with the key tile. -/
theorem idx_facts : ∀ t : Fin cfg1.N,
    (win1_0.index t (0 : Fin 3) = t.val / 64 ∧ win1_0.index t (1 : Fin 3) = t.val / 8 % 8 ∧ win1_0.index t (2 : Fin 3) = 0)
    ∧ (win1_1.index t (0 : Fin 3) = t.val / 64 ∧ win1_1.index t (1 : Fin 3) = t.val % 8 ∧ win1_1.index t (2 : Fin 3) = 0)
    ∧ (win1_2.index t (0 : Fin 3) = t.val / 64 ∧ win1_2.index t (1 : Fin 3) = t.val % 8 ∧ win1_2.index t (2 : Fin 3) = 0)
    ∧ (win1_3.index t (0 : Fin 3) = t.val / 64 ∧ win1_3.index t (1 : Fin 3) = t.val / 8 % 8 ∧ win1_3.index t (2 : Fin 3) = 0)
    ∧ (win1_4.index t (0 : Fin 3) = t.val / 64 ∧ win1_4.index t (1 : Fin 3) = t.val / 8 % 8 ∧ win1_4.index t (2 : Fin 3) = 0) :=
  (by decide +kernel : ∀ t : Fin grid1.N, _)

section Blocks

variable {F : FTy → Type} [FloatOps F]
variable (V : (c : Dev nD) → (b : Ref sig .tc) → Buf (Elt F) ((c : Thread nD τ).loc b))

/-- The query block at point t: row r is row (query tile) * 512 + r of batch t / 64. -/
theorem blk_q (c : Dev nD) (t : Fin cfg1.N) (r : Fin 512) (e : Fin 1024) (b : Fin 4) (s : Fin 4096)
    (hb : b.val = t.val / 64) (hs : s.val = t.val / 8 % 8 * 512 + r.val) :
    iblk1 V c 0 t (ix3 (0 : Fin 1) r e) = V c main_v5 (ix3 b s e) := by
  obtain ⟨⟨e0, e1, e2⟩, -⟩ := idx_facts t
  unfold iblk1
  rw [View.read_apply]
  show V c main_v5 (((cfg1.win 0).blk t).view.emb (ix3 (0 : Fin 1) r e)) = V c main_v5 (ix3 b s e)
  refine congrArg (V c main_v5) (funext fun a => Fin.ext ?_)
  match a with
  | ⟨0, _⟩ => show win1_0.index t (0 : Fin 3) * 1 + 1 * (0 : Fin 1).val = b.val; rw [e0, hb]; simp
  | ⟨1, _⟩ => show win1_0.index t (1 : Fin 3) * 512 + 1 * r.val = s.val; rw [e1, hs]; omega
  | ⟨2, _⟩ => show win1_0.index t (2 : Fin 3) * 1024 + 1 * e.val = e.val; rw [e2]; omega

/-- The key block at point t: row r is row (key tile) * 512 + r of batch t / 64. -/
theorem blk_k (c : Dev nD) (t : Fin cfg1.N) (r : Fin 512) (e : Fin 1024) (b : Fin 4) (s : Fin 4096)
    (hb : b.val = t.val / 64) (hs : s.val = t.val % 8 * 512 + r.val) :
    iblk1 V c 1 t (ix3 (0 : Fin 1) r e) = V c main_v6 (ix3 b s e) := by
  obtain ⟨-, ⟨e0, e1, e2⟩, -⟩ := idx_facts t
  unfold iblk1
  rw [View.read_apply]
  show V c main_v6 (((cfg1.win 1).blk t).view.emb (ix3 (0 : Fin 1) r e)) = V c main_v6 (ix3 b s e)
  refine congrArg (V c main_v6) (funext fun a => Fin.ext ?_)
  match a with
  | ⟨0, _⟩ => show win1_1.index t (0 : Fin 3) * 1 + 1 * (0 : Fin 1).val = b.val; rw [e0, hb]; simp
  | ⟨1, _⟩ => show win1_1.index t (1 : Fin 3) * 512 + 1 * r.val = s.val; rw [e1, hs]; omega
  | ⟨2, _⟩ => show win1_1.index t (2 : Fin 3) * 1024 + 1 * e.val = e.val; rw [e2]; omega

/-- The value block at point t: row r is row (key tile) * 512 + r of batch t / 64. -/
theorem blk_v (c : Dev nD) (t : Fin cfg1.N) (r : Fin 512) (e : Fin 1024) (b : Fin 4) (s : Fin 4096)
    (hb : b.val = t.val / 64) (hs : s.val = t.val % 8 * 512 + r.val) :
    iblk1 V c 2 t (ix3 (0 : Fin 1) r e) = V c main_v7 (ix3 b s e) := by
  obtain ⟨-, -, ⟨e0, e1, e2⟩, -⟩ := idx_facts t
  unfold iblk1
  rw [View.read_apply]
  show V c main_v7 (((cfg1.win 2).blk t).view.emb (ix3 (0 : Fin 1) r e)) = V c main_v7 (ix3 b s e)
  refine congrArg (V c main_v7) (funext fun a => Fin.ext ?_)
  match a with
  | ⟨0, _⟩ => show win1_2.index t (0 : Fin 3) * 1 + 1 * (0 : Fin 1).val = b.val; rw [e0, hb]; simp
  | ⟨1, _⟩ => show win1_2.index t (1 : Fin 3) * 512 + 1 * r.val = s.val; rw [e1, hs]; omega
  | ⟨2, _⟩ => show win1_2.index t (2 : Fin 3) * 1024 + 1 * e.val = e.val; rw [e2]; omega

/-- The input block at point t: row r is row (query tile) * 512 + r of batch t / 64. -/
theorem blk_x (c : Dev nD) (t : Fin cfg1.N) (r : Fin 512) (e : Fin 1024) (b : Fin 4) (s : Fin 4096)
    (hb : b.val = t.val / 64) (hs : s.val = t.val / 8 % 8 * 512 + r.val) :
    iblk1 V c 3 t (ix3 (0 : Fin 1) r e) = V c main_arg0 (ix3 b s e) := by
  obtain ⟨-, -, -, ⟨e0, e1, e2⟩, -⟩ := idx_facts t
  unfold iblk1
  rw [View.read_apply]
  show V c main_arg0 (((cfg1.win 3).blk t).view.emb (ix3 (0 : Fin 1) r e)) = V c main_arg0 (ix3 b s e)
  refine congrArg (V c main_arg0) (funext fun a => Fin.ext ?_)
  match a with
  | ⟨0, _⟩ => show win1_3.index t (0 : Fin 3) * 1 + 1 * (0 : Fin 1).val = b.val; rw [e0, hb]; simp
  | ⟨1, _⟩ => show win1_3.index t (1 : Fin 3) * 512 + 1 * r.val = s.val; rw [e1, hs]; omega
  | ⟨2, _⟩ => show win1_3.index t (2 : Fin 3) * 1024 + 1 * e.val = e.val; rw [e2]; omega

end Blocks

section Array

variable (V : (c : Dev nD) → (b : Ref sig .tc) → Buf (Elt Ideal) ((c : Thread nD τ).loc b)) (c : Dev nD)
  (x : Fin 4 → Fin 4096 → Fin 1024 → ℝ) (wq wk wv : Fin 1024 → Fin 1024 → ℝ)

/-- The common function as one array. -/
def outArr : S4x4096x1024.Idx → EReal := fun j => Cert.Attn.out x wq wk wv (j 0) (j 1) (j 2)

theorem outArr_ix3 (b : Fin 4) (s : Fin 4096) (d : Fin 1024) :
    outArr x wq wk wv (ix3 b s d) = Cert.Attn.out x wq wk wv b s d := rfl

/-- What the per-tile half proves: from block reads at the eight points of a query tile, the block the eighth point
    leaves for the result is the common function on the tile's rows. -/
def TileOut : Prop :=
  ∀ (b : Fin 4) (qi : Fin 8) (pt : ℕ → Fin cfg1.N) (hpt : ∀ j (hj : j < 8), (pt j).val = 64 * b.val + 8 * qi.val + j)
    (hQ : ∀ j (hj : j < 8) (r : Fin 512) (e : Fin 1024), iblk1 V c 0 (pt j) (ValueIdx.ix3 (0 : Fin 1) r e)
      = ((Cert.Attn.proj x wq b ⟨qi.val * 512 + r.val, by omega⟩ e : ℝ) : EReal))
    (hK : ∀ j (hj : j < 8) (r : Fin 512) (e : Fin 1024), iblk1 V c 1 (pt j) (ValueIdx.ix3 (0 : Fin 1) r e)
      = ((Cert.Attn.proj x wk b ⟨j * 512 + r.val, by omega⟩ e : ℝ) : EReal))
    (hV : ∀ j (hj : j < 8) (r : Fin 512) (e : Fin 1024), iblk1 V c 2 (pt j) (ValueIdx.ix3 (0 : Fin 1) r e)
      = ((Cert.Attn.proj x wv b ⟨j * 512 + r.val, by omega⟩ e : ℝ) : EReal))
    (hX : ∀ (r : Fin 512) (d : Fin 1024), iblk1 V c 3 (pt 7) (ValueIdx.ix3 (0 : Fin 1) r d)
      = ((x b ⟨qi.val * 512 + r.val, by omega⟩ d : ℝ) : EReal)),
    ∀ (r : Fin 512) (d : Fin 1024), (dat1 (F := Ideal) V c).after 4 (pt 7) (ValueIdx.ix3 (0 : Fin 1) r d)
      = Cert.Attn.out x wq wk wv b ⟨qi.val * 512 + r.val, by omega⟩ d

variable (htile : TileOut V c x wq wk wv)
  (hq : ∀ b s e, V c main_v5 (ValueIdx.ix3 b s e) = ((Cert.Attn.proj x wq b s e : ℝ) : EReal))
  (hk : ∀ b s e, V c main_v6 (ValueIdx.ix3 b s e) = ((Cert.Attn.proj x wk b s e : ℝ) : EReal))
  (hv : ∀ b s e, V c main_v7 (ValueIdx.ix3 b s e) = ((Cert.Attn.proj x wv b s e : ℝ) : EReal))
  (hx : ∀ b s d, V c main_arg0 (ValueIdx.ix3 b s d) = ((x b s d : ℝ) : EReal))

include htile hq hk hv hx in
/-- What a query tile's last point leaves for the result, at row r and column d of the block. -/
theorem after_last (t : Fin cfg1.N) (h7 : t.val % 8 = 7) (r : Fin 512) (d : Fin 1024) (b : Fin 4) (s : Fin 4096)
    (hb : b.val = t.val / 64) (hs : s.val = t.val / 8 % 8 * 512 + r.val) :
    (dat1 (F := Ideal) V c).after 4 t (ix3 (0 : Fin 1) r d) = Cert.Attn.out x wq wk wv b s d := by
  have hN : cfg1.N = 256 := N_1
  have ht : t.val < 256 := lt_of_lt_of_eq t.isLt hN
  let qi : Fin 8 := ⟨t.val / 8 % 8, Nat.mod_lt _ (by norm_num)⟩
  let pt : ℕ → Fin cfg1.N := fun j => ⟨(64 * b.val + 8 * qi.val + j) % 256, lt_of_lt_of_eq (Nat.mod_lt _ (by norm_num)) hN.symm⟩
  have hqi : qi.val = t.val / 8 % 8 := rfl
  have hpt : ∀ j, j < 8 → (pt j).val = 64 * b.val + 8 * qi.val + j := fun j hj => by
    show (64 * b.val + 8 * qi.val + j) % 256 = _
    have := b.isLt; have := qi.isLt; omega
  have hpt7 : pt 7 = t := Fin.ext (by rw [hpt 7 (by norm_num), hqi, hb]; omega)
  have key := htile b qi pt hpt
    (fun j hj r e => (blk_q V c (pt j) r e b _ (by rw [hpt j hj]; have := qi.isLt; omega)
      (by show qi.val * 512 + r.val = _; rw [hpt j hj]; have := qi.isLt; have := b.isLt; omega)).trans (hq _ _ _))
    (fun j hj r e => (blk_k V c (pt j) r e b _ (by rw [hpt j hj]; have := qi.isLt; omega)
      (by show j * 512 + r.val = _; rw [hpt j hj]; have := qi.isLt; have := b.isLt; omega)).trans (hk _ _ _))
    (fun j hj r e => (blk_v V c (pt j) r e b _ (by rw [hpt j hj]; have := qi.isLt; omega)
      (by show j * 512 + r.val = _; rw [hpt j hj]; have := qi.isLt; have := b.isLt; omega)).trans (hv _ _ _))
    (fun r e => (blk_x V c (pt 7) r e b _ (by rw [hpt 7 (by norm_num)]; have := qi.isLt; omega)
      (by show qi.val * 512 + r.val = _; rw [hpt 7 (by norm_num)]; have := qi.isLt; have := b.isLt; omega)).trans (hx _ _ _))
    r d
  rw [hpt7] at key
  refine key.trans (congrArg (fun s => Cert.Attn.out x wq wk wv b s d) (Fin.ext ?_))
  show qi.val * 512 + r.val = s.val
  rw [hs]

include htile hq hk hv hx in
/-- WHAT A FLUSHING POINT WRITES BACK is its block of the common function. -/
theorem flushed_eq (t : Fin cfg1.N) (hf : (cfg1.win 4).flush t = true) :
    (dat1 (F := Ideal) V c).flushed 4 t = ((cfg1.win 4).blk t).view.read (Elt Ideal) (outArr x wq wk wv) := by
  have h7 : t.val % 8 = 7 := (flush1_4 t).mp hf
  have hN : cfg1.N = 256 := N_1
  have ht : t.val < 256 := lt_of_lt_of_eq t.isLt hN
  obtain ⟨-, -, -, -, ⟨e0, e1, e2⟩⟩ := idx_facts t
  funext j
  obtain ⟨u, r, d, rfl⟩ : ∃ (u : Fin 1) (r : Fin 512) (d : Fin 1024), j = ix3 u r d := ⟨j 0, j 1, j 2, eq_ix3 j⟩
  obtain rfl : u = 0 := Subsingleton.elim _ _
  rw [View.read_apply]
  have hemb : ((cfg1.win 4).blk t).view.emb (ix3 (0 : Fin 1) r d)
      = ix3 (⟨t.val / 64, by omega⟩ : Fin 4) (⟨t.val / 8 % 8 * 512 + r.val, by omega⟩ : Fin 4096) d :=
    funext fun a => Fin.ext (by
      match a with
      | ⟨0, _⟩ => show win1_4.index t (0 : Fin 3) * 1 + 1 * (0 : Fin 1).val = t.val / 64; rw [e0]; simp
      | ⟨1, _⟩ => show win1_4.index t (1 : Fin 3) * 512 + 1 * r.val = t.val / 8 % 8 * 512 + r.val; rw [e1]; omega
      | ⟨2, _⟩ => show win1_4.index t (2 : Fin 3) * 1024 + 1 * d.val = d.val; rw [e2]; omega)
  show (dat1 (F := Ideal) V c).after 4 t (ix3 (0 : Fin 1) r d) = outArr x wq wk wv (((cfg1.win 4).blk t).view.emb (ix3 (0 : Fin 1) r d))
  rw [hemb, outArr_ix3]
  exact after_last V c x wq wk wv htile hq hk hv hx t h7 r d _ _ rfl rfl

/-- Every entry of the result array is under the last point of its query tile. -/
theorem cover (i : S4x4096x1024.Idx) :
    ∃ t : Fin cfg1.N, (cfg1.win 4).flush t = true ∧ i ∈ ((cfg1.win 4).blk t).view.set := by
  have hN : cfg1.N = 256 := N_1
  have h0 : (i 0).val < 4 := (i 0).isLt
  have h1 : (i 1).val < 4096 := (i 1).isLt
  have h2 : (i 2).val < 1024 := (i 2).isLt
  let t : Fin cfg1.N := ⟨64 * (i 0).val + 8 * ((i 1).val / 512) + 7, by rw [hN]; omega⟩
  have htv : t.val = 64 * (i 0).val + 8 * ((i 1).val / 512) + 7 := rfl
  obtain ⟨-, -, -, -, ⟨e0, e1, e2⟩⟩ := idx_facts t
  refine ⟨t, (flush1_4 t).mpr (by rw [htv]; omega), ?_⟩
  show i ∈ ((View.whole main_v8).slice (win1_4.rect t)).set
  rw [View.set_slice_whole, Rect.mem_set_unit]
  intro a
  match a with
  | ⟨0, _⟩ =>
    show win1_4.index t (0 : Fin 3) * 1 ≤ (i 0).val ∧ (i 0).val < win1_4.index t (0 : Fin 3) * 1 + 1
    rw [e0, htv]; omega
  | ⟨1, _⟩ =>
    show win1_4.index t (1 : Fin 3) * 512 ≤ (i 1).val ∧ (i 1).val < win1_4.index t (1 : Fin 3) * 512 + 512
    rw [e1, htv]; omega
  | ⟨2, _⟩ =>
    show win1_4.index t (2 : Fin 3) * 1024 ≤ (i 2).val ∧ (i 2).val < win1_4.index t (2 : Fin 3) * 1024 + 1024
    rw [e2]; omega

include htile hq hk hv hx in
/-- The result array after the region, given the per-tile half. -/
theorem arr_out_of (b : Fin 4) (s : Fin 4096) (d : Fin 1024) :
    (dat1 (F := Ideal) V c).arrAt 4 cfg1.N (ValueIdx.ix3 b s d) = Cert.Attn.out x wq wk wv b s d := by
  have h := (dat1 (F := Ideal) V c).arrAt_eq_of_cover 4 (outArr x wq wk wv)
    (fun t hf => flushed_eq V c x wq wk wv htile hq hk hv hx t hf) cover
  rw [h]
  rfl

end Array

/-- The result array after the attention region is the common function. -/
theorem arr_out (V : (c : Dev nD) → (b : Ref sig .tc) → Buf (Elt Ideal) ((c : Thread nD τ).loc b)) (c : Dev nD)
    (x : Fin 4 → Fin 4096 → Fin 1024 → ℝ) (wq wk wv : Fin 1024 → Fin 1024 → ℝ)
    (hq : ∀ b s e, V c main_v5 (ValueIdx.ix3 b s e) = ((Cert.Attn.proj x wq b s e : ℝ) : EReal))
    (hk : ∀ b s e, V c main_v6 (ValueIdx.ix3 b s e) = ((Cert.Attn.proj x wk b s e : ℝ) : EReal))
    (hv : ∀ b s e, V c main_v7 (ValueIdx.ix3 b s e) = ((Cert.Attn.proj x wv b s e : ℝ) : EReal))
    (hx : ∀ b s d, V c main_arg0 (ValueIdx.ix3 b s d) = ((x b s d : ℝ) : EReal)) :
    ∀ (b : Fin 4) (s : Fin 4096) (d : Fin 1024),
      (dat1 (F := Ideal) V c).arrAt 4 cfg1.N (ValueIdx.ix3 b s d) = Cert.Attn.out x wq wk wv b s d := by
  exact arr_out_of V c x wq wk wv
    (fun b qi pt hpt hQ hK hV hX => tile_out V c x wq wk wv b qi pt hpt hQ hK hV hX) hq hk hv hx

end Cert.KernelIdeal.Val1

end
-- ==== Proof.KValue.lean ====
/-
  The idealized kernel's result array as the common function of Spec.lean, from real arguments.
  The flattened input's row b·4096 + s is the input's row (b, s) and each transposed weight reads the weight with
  its coordinates swapped (the first host stretch); the projection region's three result arrays are therefore the
  three projections, row by row; the second host stretch regroups their rows by batch; and the attention region
  turns them, with the input itself, into the normalised attended rows.
-/
import proofs.«110892_j22204980920987_1_alg».proof.Proof.FrIRun
import proofs.«110892_j22204980920987_1_alg».proof.Proof.HostI
import proofs.«110892_j22204980920987_1_alg».proof.Proof.ValI0
import proofs.«110892_j22204980920987_1_alg».proof.Proof.ValI1
import proofs.«110892_j22204980920987_1_alg».proof.Proof.Spec

set_option maxRecDepth 16384

noncomputable section

namespace Cert.KernelIdeal.KValue

open Idealize.ShloMosaic Idealize.ShloMosaic.TcCoe Idealize.ShloMosaic.ValueIdx Idealize.SL.Sem
open Cert.KernelIdeal Cert.KernelIdeal.Gen Cert.KernelIdeal.Fr

variable (m : (ℓ : Loc nD τ sig) → Buf (Elt Ideal) ℓ) (ρ : Dev nD → PrngReg)
variable (x : Fin 4 → Fin 4096 → Fin 1024 → ℝ) (wq wk wv : Fin 1024 → Fin 1024 → ℝ)

/-- Row r of the flattened input is row (r / 4096, r mod 4096) of the input. -/
def xflat (r : Fin 16384) (d : Fin 1024) : ℝ :=
  x ⟨r.val / 4096, by have := r.isLt; omega⟩ ⟨r.val % 4096, Nat.mod_lt _ (by norm_num)⟩ d

theorem xflat_row (b : Fin 4) (s : Fin 4096) (d : Fin 1024) :
    xflat x (⟨b.val * 4096 + s.val, by have := b.isLt; have := s.isLt; omega⟩ : Fin 16384) d = x b s d := by
  unfold xflat
  have hb : (b.val * 4096 + s.val) / 4096 = b.val := by have := s.isLt; omega
  have hs : (b.val * 4096 + s.val) % 4096 = s.val := by have := s.isLt; omega
  congr 1 <;> first | exact Fin.ext hb | exact Fin.ext hs

/-- A sum over the flattened row is the projection of the input's row. -/
theorem flat_proj (w : Fin 1024 → Fin 1024 → ℝ) (b : Fin 4) (s : Fin 4096) (e : Fin 1024) :
    (∑ d : Fin 1024, xflat x (⟨b.val * 4096 + s.val, by have := b.isLt; have := s.isLt; omega⟩ : Fin 16384) d * w e d) = Cert.Attn.proj x w b s e := by
  unfold Cert.Attn.proj
  exact Finset.sum_congr rfl fun d _ => by rw [xflat_row]

section
variable (c : Dev nD)
  (h0 : ∀ b s d, m ((c.tc : Thread nD τ).loc main_arg0) (ix3 b s d) = ((x b s d : ℝ) : EReal))
  (h1 : ∀ e d, m ((c.tc : Thread nD τ).loc main_arg1) (ix2 e d) = ((wq e d : ℝ) : EReal))
  (h2 : ∀ e d, m ((c.tc : Thread nD τ).loc main_arg2) (ix2 e d) = ((wk e d : ℝ) : EReal))
  (h3 : ∀ e d, m ((c.tc : Thread nD τ).loc main_arg3) (ix2 e d) = ((wv e d : ℝ) : EReal))
include h0 h1 h2 h3

/-- The flattened input at the projection region's entry. -/
theorem v3_reads (r : Fin 16384) (d : Fin 1024) : V1 m ρ c main_v3 (ix2 r d) = ((xflat x r d : ℝ) : EReal) := by
  have hr : r = (⟨(⟨r.val / 4096, by have := r.isLt; omega⟩ : Fin 4).val * 4096 + (⟨r.val % 4096, Nat.mod_lt _ (by norm_num)⟩ : Fin 4096).val, by have := r.isLt; omega⟩ : Fin 16384) :=
    Fin.ext (by show r.val = r.val / 4096 * 4096 + r.val % 4096; omega)
  have h := HostRd.host0_v3 (F := Ideal) (W0 m ρ c) ⟨r.val / 4096, by have := r.isLt; omega⟩ ⟨r.val % 4096, Nat.mod_lt _ (by norm_num)⟩ d
  rw [← hr] at h
  exact h.trans (h0 _ _ _)

/-- The transposed weights at the projection region's entry. -/
theorem v0_reads (d e : Fin 1024) : V1 m ρ c main_v0 (ix2 d e) = ((wq e d : ℝ) : EReal) :=
  (HostRd.host0_v0 (F := Ideal) (W0 m ρ c) d e).trans (h1 e d)
theorem v1_reads (d e : Fin 1024) : V1 m ρ c main_v1 (ix2 d e) = ((wk e d : ℝ) : EReal) :=
  (HostRd.host0_v1 (F := Ideal) (W0 m ρ c) d e).trans (h2 e d)
theorem v2_reads (d e : Fin 1024) : V1 m ρ c main_v2 (ix2 d e) = ((wv e d : ℝ) : EReal) :=
  (HostRd.host0_v2 (F := Ideal) (W0 m ρ c) d e).trans (h3 e d)

/-- The queries, keys and values at the attention region's entry are the three projections. -/
theorem v5_reads (b : Fin 4) (s : Fin 4096) (e : Fin 1024) : V3 m ρ c main_v5 (ix3 b s e) = ((Cert.Attn.proj x wq b s e : ℝ) : EReal) := by
  refine (HostRd.host1_v5 (F := Ideal) (W2 m ρ c) b s e).trans ?_
  refine (congrFun (W2_arr m ρ c 4) _).trans ?_
  refine (Val0.arr4 (V1 m ρ) c (xflat x) (fun d e => wq e d) (v3_reads m ρ x wq wk wv c h0 h1 h2 h3) (v0_reads m ρ x wq wk wv c h0 h1 h2 h3) _ e).trans ?_
  exact congrArg _ (flat_proj x wq b s e)
theorem v6_reads (b : Fin 4) (s : Fin 4096) (e : Fin 1024) : V3 m ρ c main_v6 (ix3 b s e) = ((Cert.Attn.proj x wk b s e : ℝ) : EReal) := by
  refine (HostRd.host1_v6 (F := Ideal) (W2 m ρ c) b s e).trans ?_
  refine (congrFun (W2_arr m ρ c 5) _).trans ?_
  refine (Val0.arr5 (V1 m ρ) c (xflat x) (fun d e => wk e d) (v3_reads m ρ x wq wk wv c h0 h1 h2 h3) (v1_reads m ρ x wq wk wv c h0 h1 h2 h3) _ e).trans ?_
  exact congrArg _ (flat_proj x wk b s e)
theorem v7_reads (b : Fin 4) (s : Fin 4096) (e : Fin 1024) : V3 m ρ c main_v7 (ix3 b s e) = ((Cert.Attn.proj x wv b s e : ℝ) : EReal) := by
  refine (HostRd.host1_v7 (F := Ideal) (W2 m ρ c) b s e).trans ?_
  refine (congrFun (W2_arr m ρ c 6) _).trans ?_
  refine (Val0.arr6 (V1 m ρ) c (xflat x) (fun d e => wv e d) (v3_reads m ρ x wq wk wv c h0 h1 h2 h3) (v2_reads m ρ x wq wk wv c h0 h1 h2 h3) _ e).trans ?_
  exact congrArg _ (flat_proj x wv b s e)

/-- The input itself reaches the attention region as launched. -/
theorem arg0_reads (b : Fin 4) (s : Fin 4096) (d : Fin 1024) : V3 m ρ c main_arg0 (ix3 b s d) = ((x b s d : ℝ) : EReal) :=
  (congrFun (W3_of_untouched m ρ c main_arg0 (by decide) (by decide) (by decide)) _).trans (h0 b s d)

/-- The result array after the run is the common function. -/
theorem kernel_out (b : Fin 4) (s : Fin 4096) (d : Fin 1024) :
    (dat1 (F := Ideal) (V3 m ρ) c).arrAt 4 cfg1.N (ix3 b s d) = Cert.Attn.out x wq wk wv b s d :=
  Val1.arr_out (V3 m ρ) c x wq wk wv (v5_reads m ρ x wq wk wv c h0 h1 h2 h3) (v6_reads m ρ x wq wk wv c h0 h1 h2 h3)
    (v7_reads m ρ x wq wk wv c h0 h1 h2 h3) (arg0_reads m ρ x wq wk wv c h0 h1 h2 h3) b s d

end

end Cert.KernelIdeal.KValue

end
-- ==== Proof.lean ====
/-
  The certificate's five claims.
  The word-level kernel and its idealization run to the end, fault nowhere and leave their arguments unchanged: the
  program is two stretches of host operations around two kernel regions, each region's body runs at every grid point
  (the attention region carrying its running maximum, denominator and weighted sum in scratch from one key tile to the
  next), and nothing writes an argument. The reference is a straight line of host operations. The idealization
  rewrote no operation. And at the ideal instance, from finite inputs, both programs compute the same function: each
  row of softmax(q kᵀ) v + x divided by its norm — the kernel by accumulating the softmax tile by tile under a running
  maximum, the reference in one pass; the two agree because rescaling by exp(m − m′) carries a partial sum taken
  against an old maximum to the new one.
-/
import proofs.«110892_j22204980920987_1_alg».proof.Defs
import proofs.«110892_j22204980920987_1_alg».proof.Proof.Gen.Kernel
import proofs.«110892_j22204980920987_1_alg».proof.Proof.Gen.KernelIdeal
import proofs.«110892_j22204980920987_1_alg».proof.Proof.Gen.ReferenceIdeal
import proofs.«110892_j22204980920987_1_alg».proof.Proof.Gen.Pre_finite_inputs
import proofs.«110892_j22204980920987_1_alg».proof.Proof.FrBRun
import proofs.«110892_j22204980920987_1_alg».proof.Proof.FrIRun
import proofs.«110892_j22204980920987_1_alg».proof.Proof.RefValue
import proofs.«110892_j22204980920987_1_alg».proof.Proof.FiniteArgs
import proofs.«110892_j22204980920987_1_alg».proof.Proof.KValue
import Idealize.ShloMosaic.Adequacy
import Idealize.ShloMosaic.Init

noncomputable section

namespace Cert.Proof

open Idealize.ShloMosaic Idealize.ShloMosaic.ValueIdx Idealize.SL.Sem

instance : Cert.Kernel.Facts := Cert.Kernel.Gen.facts
instance : Cert.KernelIdeal.Facts := Cert.KernelIdeal.Gen.facts
instance : Cert.ReferenceIdeal.Facts := Cert.ReferenceIdeal.Gen.facts
instance : Cert.Pre_finite_inputs.Facts := Cert.Pre_finite_inputs.Gen.facts

theorem frame_k : Cert.frame_Kernel := fun m ρ _ => Cert.Kernel.Fr.frame m ρ
theorem frame_ki : Cert.frame_KernelIdeal := fun m ρ _ => Cert.KernelIdeal.Fr.frame m ρ
theorem frame_ri : Cert.frame_ReferenceIdeal := fun m ρ _ => Cert.ReferenceIdeal.RefValue.run_frame m ρ

/-- Both idealized programs end with the result array at the common function of the (finite, hence real) arguments. -/
theorem algebraic : Cert.algebraic_KernelIdeal_ReferenceIdeal := by
  intro m ρ m' ρ' hpre hagree
  have hc : ∀ c : Dev Cert.KernelIdeal.nD, c = 0 := fun c => Subsingleton.elim _ _
  obtain ⟨x, wq, wk, wv, h0, h1, h2, h3⟩ := Cert.FiniteArgs.real_args m hpre (0 : Dev Cert.KernelIdeal.nD)
  refine ⟨fun c => fun i => Cert.Attn.out x wq wk wv (i 0) (i 1) (i 2), ?_, ?_⟩
  · refine (θ_run (Cert.KernelIdeal.defs (F := Ideal)) _ _).mono (fun r h c => ⟨?_, (h c).2⟩) (Cert.KernelIdeal.Fr.run_all m ρ)
    rw [(h c).1]
    funext i
    obtain rfl := hc c
    rw [eq_ix3 i]
    exact Cert.KernelIdeal.KValue.kernel_out m ρ x wq wk wv 0 h0 h1 h2 h3 (i 0) (i 1) (i 2)
  · refine (θ_run (Cert.ReferenceIdeal.defs (F := Ideal)) _ _).mono (fun r h c => ⟨?_, (h c).2⟩)
      (Cert.ReferenceIdeal.RefValue.run_out m' ρ' x wq wk wv
        (fun c b s d => by rw [(hagree c).1, hc c]; exact h0 b s d)
        (fun c e d => by rw [(hagree c).2.1, hc c]; exact h1 e d)
        (fun c e d => by rw [(hagree c).2.2.1, hc c]; exact h2 e d)
        (fun c e d => by rw [(hagree c).2.2.2, hc c]; exact h3 e d))
    funext i
    rw [eq_ix3 i]
    exact (h c).1 (i 0) (i 1) (i 2)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
